-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v234)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v234) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v330) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S3x2x800000 : Shape := ⟨3, ![3, 2, 800000]⟩
abbrev S300x128 : Shape := ⟨2, ![300, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S3x128 .f32) (main_arg8 : FVec F S128x64 .f32) (main_arg9 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x300 .f32) (main_arg1 : IVec S3x2x800000 32) (main_arg2 : FVec F S300x128 .f32) (main_arg3 : FVec F S128 .f32) (main_arg4 : FVec F S3x128x128 .f32) (main_arg5 : FVec F S3x128 .f32) (main_arg6 : FVec F S3x128x128 .f32) (main_arg7 : FVec F S3x128 .f32) (main_arg8 : FVec F S128x64 .f32) (main_arg9 : FVec F S64 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x128 .f32 := Host.absf main_arg2
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x300 : Shape := ⟨2, ![50000, 300]⟩
abbrev S3x2x800000 : Shape := ⟨3, ![3, 2, 800000]⟩
abbrev S300x128 : Shape := ⟨2, ![300, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1x800000 : Shape := ⟨3, ![1, 1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S5000x300 : Shape := ⟨2, ![5000, 300]⟩
abbrev S5000x128 : Shape := ⟨2, ![5000, 128]⟩
abbrev S1x128 : Shape := ⟨2, ![1, 128]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 284
  | .vmem => 58
  | .smem => 0
  | _ => 0

abbrev hbmTy0_0 (i : Nat) : BufTy := match i % 128 with
  | 0 => ⟨S50000x300, .f32⟩
  | 1 => ⟨S3x2x800000, .i32⟩
  | 2 => ⟨S300x128, .f32⟩
  | 3 => ⟨S128, .f32⟩
  | 4 => ⟨S3x128x128, .f32⟩
  | 5 => ⟨S3x128, .f32⟩
  | 6 => ⟨S3x128x128, .f32⟩
  | 7 => ⟨S3x128, .f32⟩
  | 8 => ⟨S128x64, .f32⟩
  | 9 => ⟨S64, .f32⟩
  | 10 => ⟨S1x1x800000, .i32⟩
  | 11 => ⟨S800000, .i32⟩
  | 12 => ⟨S1x1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S1x1x800000, .i32⟩
  | 45 => ⟨S800000, .i32⟩
  | 46 => ⟨S1x1x800000, .i32⟩
  | 47 => ⟨S800000, .i32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S800000, .f32⟩
  | 77 => ⟨S50000, .f32⟩
  | 78 => ⟨S1x1x800000, .i32⟩
  | 79 => ⟨S800000, .i32⟩
  | 80 => ⟨S1x1x800000, .i32⟩
  | 81 => ⟨S800000, .i32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S50000, .f32⟩
  | 112 => ⟨S50000x128, .f32⟩
  | 113 => ⟨S1x128x128, .f32⟩
  | 114 => ⟨S128x128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x300, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x1, .f32⟩
  | 26 => ⟨S800000x128, .f32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x1, .f32⟩
  | 33 => ⟨S50000x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x1, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S50000x128, .f32⟩
  | 91 => ⟨S50000x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S800000x1, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S1x128x128, .f32⟩
  | 127 => ⟨S128x128, .f32⟩
  | _ => ⟨S50000x300, .f32⟩

abbrev hbmTy0_2 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x1, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S50000x128, .f32⟩
  | 27 => ⟨S50000x64, .f32⟩
  | _ => ⟨S50000x300, .f32⟩

abbrev hbmTy (i : Nat) : BufTy := match i / 128 with
  | 0 => hbmTy0_0 i
  | 1 => hbmTy0_1 i
  | 2 => hbmTy0_2 i
  | _ => ⟨S50000x300, .f32⟩

abbrev bufTy : (tb : Table) → Fin (tcTables nBuf tb) → BufTy
  | .hbm, ⟨i, _⟩ => hbmTy i
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x64, .f32⟩
  | .local _ .vmem, ⟨55, _⟩ => ⟨S64, .f32⟩
  | .local _ .vmem, ⟨56, _⟩ => ⟨S5000x64, .f32⟩
  | .local _ .vmem, ⟨57, _⟩ => ⟨S5000x64, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_c_20 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_21 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_22 : Ref sig .tc := ⟨.hbm, 144, rfl⟩
abbrev main_v110 : Ref sig .tc := ⟨.hbm, 145, rfl⟩
abbrev main_v111 : Ref sig .tc := ⟨.hbm, 146, rfl⟩
abbrev main_c_23 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_24 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_25 : Ref sig .tc := ⟨.hbm, 172, rfl⟩
abbrev main_v135 : Ref sig .tc := ⟨.hbm, 173, rfl⟩
abbrev main_v136 : Ref sig .tc := ⟨.hbm, 174, rfl⟩
abbrev main_c_26 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_27 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_c_28 : Ref sig .tc := ⟨.hbm, 201, rfl⟩
abbrev main_v161 : Ref sig .tc := ⟨.hbm, 202, rfl⟩
abbrev main_v162 : Ref sig .tc := ⟨.hbm, 203, rfl⟩
abbrev main_c_29 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_30 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_c_31 : Ref sig .tc := ⟨.hbm, 229, rfl⟩
abbrev main_v186 : Ref sig .tc := ⟨.hbm, 230, rfl⟩
abbrev main_v187 : Ref sig .tc := ⟨.hbm, 231, rfl⟩
abbrev main_c_32 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_cst_33 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_c_34 : Ref sig .tc := ⟨.hbm, 257, rfl⟩
abbrev main_v211 : Ref sig .tc := ⟨.hbm, 258, rfl⟩
abbrev main_v212 : Ref sig .tc := ⟨.hbm, 259, rfl⟩
abbrev main_c_35 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_cst_36 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc8_stg3_0 : Ref sig .tc := ⟨.vmem, 50, rfl⟩
abbrev cc8_stg3_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg3_0 : Ref sig .tc := ⟨.vmem, 56, rfl⟩
abbrev cc9_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc8_sem3_0 : DmaSem sig := 50
abbrev cc8_sem3_1 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem3_0 : DmaSem sig := 56
abbrev cc9_sem3_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x2x800000_S1x1x800000_1_0_0 : S3x2x800000.Slices ![1, 0, 0] S1x1x800000
  slices_S3x2x800000_S1x1x800000_1_1_0 : S3x2x800000.Slices ![1, 1, 0] S1x1x800000
  slices_S3x2x800000_S1x1x800000_2_0_0 : S3x2x800000.Slices ![2, 0, 0] S1x1x800000
  slices_S3x2x800000_S1x1x800000_2_1_0 : S3x2x800000.Slices ![2, 1, 0] S1x1x800000
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x300_S300x128_S5000x128_1_0_0_1_n_n_wf : DotDims.WF S5000x300 S300x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S50000x300.size a
  hwx0_0 : ∀ i : grid0.Coords, EltTy.bits .f32 = 32 ∨ (Rect.block (s := S50000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64.size a ≤ S64.size a
  hwx9_2 : ∀ i : grid9.Coords, EltTy.bits .f32 = 32 ∨ (Rect.block (s := S64) S64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S50000x64.size a
  hwx9_3 : ∀ i : grid9.Coords, EltTy.bits .f32 = 32 ∨ (Rect.block (s := S50000x64) S5000x64.size (cc9_transform_3 i) (hinb9_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v81) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v109) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v133) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v134) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v106) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v156) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v157) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v157) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v159) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v160) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v157) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v184) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v185) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v157) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v209) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v210) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v182) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v207) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v232) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v233) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v233) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg9) S64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v234) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x300 : Shape := ⟨2, ![50000, 300]⟩
abbrev S3x2x800000 : Shape := ⟨3, ![3, 2, 800000]⟩
abbrev S300x128 : Shape := ⟨2, ![300, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S50000x128 : Shape := ⟨2, ![50000, 128]⟩
abbrev S1x128 : Shape := ⟨2, ![1, 128]⟩
abbrev S_ : Shape := ⟨0, ![]⟩
abbrev S1x1x800000 : Shape := ⟨3, ![1, 1, 800000]⟩
abbrev S800000 : Shape := ⟨1, ![800000]⟩
abbrev S1x128x128 : Shape := ⟨3, ![1, 128, 128]⟩
abbrev S128x128 : Shape := ⟨2, ![128, 128]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 409
  | .vmem => 0
  | .smem => 0
  | _ => 0

abbrev hbmTy0_0 (i : Nat) : BufTy := match i % 128 with
  | 0 => ⟨S50000x300, .f32⟩
  | 1 => ⟨S3x2x800000, .i32⟩
  | 2 => ⟨S300x128, .f32⟩
  | 3 => ⟨S128, .f32⟩
  | 4 => ⟨S3x128x128, .f32⟩
  | 5 => ⟨S3x128, .f32⟩
  | 6 => ⟨S3x128x128, .f32⟩
  | 7 => ⟨S3x128, .f32⟩
  | 8 => ⟨S128x64, .f32⟩
  | 9 => ⟨S64, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S1x1x800000, .i32⟩
  | 18 => ⟨S800000, .i32⟩
  | 19 => ⟨S1x1x800000, .i32⟩
  | 20 => ⟨S800000, .i32⟩
  | 21 => ⟨S1x128x128, .f32⟩
  | 22 => ⟨S128x128, .f32⟩
  | 23 => ⟨S1x128, .f32⟩
  | 24 => ⟨S128, .f32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x1x800000, .i32⟩
  | 83 => ⟨S800000, .i32⟩
  | 84 => ⟨S1x1x800000, .i32⟩
  | 85 => ⟨S800000, .i32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x300, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S50000x128, .f32⟩
  | 17 => ⟨S1x1x800000, .i32⟩
  | 18 => ⟨S800000, .i32⟩
  | 19 => ⟨S1x1x800000, .i32⟩
  | 20 => ⟨S800000, .i32⟩
  | 21 => ⟨S1x128x128, .f32⟩
  | 22 => ⟨S128x128, .f32⟩
  | 23 => ⟨S1x128, .f32⟩
  | 24 => ⟨S128, .f32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x1x800000, .i32⟩
  | 84 => ⟨S800000, .i32⟩
  | 85 => ⟨S1x1x800000, .i32⟩
  | 86 => ⟨S800000, .i32⟩
  | 87 => ⟨S1x128x128, .f32⟩
  | 88 => ⟨S128x128, .f32⟩
  | 89 => ⟨S1x128, .f32⟩
  | 90 => ⟨S128, .f32⟩
  | 91 => ⟨S50000x128, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x300, .f32⟩

abbrev hbmTy0_2 (i : Nat) : BufTy := match i % 128 with
  | 0 => ⟨S800000x1, .i32⟩
  | 1 => ⟨S800000x128, .f32⟩
  | 2 => ⟨S800000x1, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x1x800000, .i32⟩
  | 21 => ⟨S800000, .i32⟩
  | 22 => ⟨S1x1x800000, .i32⟩
  | 23 => ⟨S800000, .i32⟩
  | 24 => ⟨S1x128x128, .f32⟩
  | 25 => ⟨S128x128, .f32⟩
  | 26 => ⟨S1x128, .f32⟩
  | 27 => ⟨S128, .f32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S1x1x800000, .i32⟩
  | 84 => ⟨S800000, .i32⟩
  | 85 => ⟨S1x1x800000, .i32⟩
  | 86 => ⟨S800000, .i32⟩
  | 87 => ⟨S1x128x128, .f32⟩
  | 88 => ⟨S128x128, .f32⟩
  | 89 => ⟨S1x128, .f32⟩
  | 90 => ⟨S128, .f32⟩
  | 91 => ⟨S50000x128, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x300, .f32⟩

abbrev hbmTy0_3 (i : Nat) : BufTy := match i % 128 with
  | 0 => ⟨S800000x1, .i32⟩
  | 1 => ⟨S800000x128, .f32⟩
  | 2 => ⟨S800000x1, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x64, .f32⟩
  | 22 => ⟨S1x64, .f32⟩
  | 23 => ⟨S50000x64, .f32⟩
  | 24 => ⟨S50000x64, .f32⟩
  | _ => ⟨S50000x300, .f32⟩

abbrev hbmTy (i : Nat) : BufTy := match i / 128 with
  | 0 => hbmTy0_0 i
  | 1 => hbmTy0_1 i
  | 2 => hbmTy0_2 i
  | 3 => hbmTy0_3 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_14 : Ref sig .tc := ⟨.hbm, 110, rfl⟩
abbrev main_v82 : Ref sig .tc := ⟨.hbm, 111, rfl⟩
abbrev main_v83 : Ref sig .tc := ⟨.hbm, 112, rfl⟩
abbrev main_c_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_c_17 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_19 : Ref sig .tc := ⟨.hbm, 154, rfl⟩
abbrev main_v121 : Ref sig .tc := ⟨.hbm, 155, rfl⟩
abbrev main_cst_20 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_21 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_22 : Ref sig .tc := ⟨.hbm, 164, rfl⟩
abbrev main_v128 : Ref sig .tc := ⟨.hbm, 165, rfl⟩
abbrev main_v129 : Ref sig .tc := ⟨.hbm, 166, rfl⟩
abbrev main_c_23 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_24 : Ref sig .tc := ⟨.hbm, 173, rfl⟩
abbrev main_v135 : Ref sig .tc := ⟨.hbm, 174, rfl⟩
abbrev main_v136 : Ref sig .tc := ⟨.hbm, 175, rfl⟩
abbrev main_c_25 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_c_26 : Ref sig .tc := ⟨.hbm, 183, rfl⟩
abbrev main_v143 : Ref sig .tc := ⟨.hbm, 184, rfl⟩
abbrev main_v144 : Ref sig .tc := ⟨.hbm, 185, rfl⟩
abbrev main_c_27 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_28 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_call1_cst : Ref sig .tc := ⟨.hbm, 208, rfl⟩
abbrev main_call1_v0 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_cst_29 : Ref sig .tc := ⟨.hbm, 220, rfl⟩
abbrev main_v175 : Ref sig .tc := ⟨.hbm, 221, rfl⟩
abbrev main_cst_30 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_31 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_c_32 : Ref sig .tc := ⟨.hbm, 230, rfl⟩
abbrev main_v182 : Ref sig .tc := ⟨.hbm, 231, rfl⟩
abbrev main_v183 : Ref sig .tc := ⟨.hbm, 232, rfl⟩
abbrev main_c_33 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_c_34 : Ref sig .tc := ⟨.hbm, 239, rfl⟩
abbrev main_v189 : Ref sig .tc := ⟨.hbm, 240, rfl⟩
abbrev main_v190 : Ref sig .tc := ⟨.hbm, 241, rfl⟩
abbrev main_c_35 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_c_36 : Ref sig .tc := ⟨.hbm, 249, rfl⟩
abbrev main_v197 : Ref sig .tc := ⟨.hbm, 250, rfl⟩
abbrev main_v198 : Ref sig .tc := ⟨.hbm, 251, rfl⟩
abbrev main_c_37 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_38 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_cst_39 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_cst_40 : Ref sig .tc := ⟨.hbm, 285, rfl⟩
abbrev main_v229 : Ref sig .tc := ⟨.hbm, 286, rfl⟩
abbrev main_cst_41 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_cst_42 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_c_43 : Ref sig .tc := ⟨.hbm, 295, rfl⟩
abbrev main_v236 : Ref sig .tc := ⟨.hbm, 296, rfl⟩
abbrev main_v237 : Ref sig .tc := ⟨.hbm, 297, rfl⟩
abbrev main_c_44 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_c_45 : Ref sig .tc := ⟨.hbm, 304, rfl⟩
abbrev main_v243 : Ref sig .tc := ⟨.hbm, 305, rfl⟩
abbrev main_v244 : Ref sig .tc := ⟨.hbm, 306, rfl⟩
abbrev main_c_46 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_c_47 : Ref sig .tc := ⟨.hbm, 314, rfl⟩
abbrev main_v251 : Ref sig .tc := ⟨.hbm, 315, rfl⟩
abbrev main_v252 : Ref sig .tc := ⟨.hbm, 316, rfl⟩
abbrev main_c_48 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_cst_49 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_cst_50 : Ref sig .tc := ⟨.hbm, 348, rfl⟩
abbrev main_v282 : Ref sig .tc := ⟨.hbm, 349, rfl⟩
abbrev main_cst_51 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_cst_52 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_c_53 : Ref sig .tc := ⟨.hbm, 358, rfl⟩
abbrev main_v289 : Ref sig .tc := ⟨.hbm, 359, rfl⟩
abbrev main_v290 : Ref sig .tc := ⟨.hbm, 360, rfl⟩
abbrev main_c_54 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_c_55 : Ref sig .tc := ⟨.hbm, 367, rfl⟩
abbrev main_v296 : Ref sig .tc := ⟨.hbm, 368, rfl⟩
abbrev main_v297 : Ref sig .tc := ⟨.hbm, 369, rfl⟩
abbrev main_c_56 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_c_57 : Ref sig .tc := ⟨.hbm, 377, rfl⟩
abbrev main_v304 : Ref sig .tc := ⟨.hbm, 378, rfl⟩
abbrev main_v305 : Ref sig .tc := ⟨.hbm, 379, rfl⟩
abbrev main_c_58 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_cst_59 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_v325 : Ref sig .tc := ⟨.hbm, 401, rfl⟩
abbrev main_call2_cst : Ref sig .tc := ⟨.hbm, 402, rfl⟩
abbrev main_call2_v0 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x2x800000_S1x1x800000_1_0_0 : S3x2x800000.Slices ![1, 0, 0] S1x1x800000
  slices_S3x2x800000_S1x1x800000_1_1_0 : S3x2x800000.Slices ![1, 1, 0] S1x1x800000
  slices_S3x128x128_S1x128x128_1_0_0 : S3x128x128.Slices ![1, 0, 0] S1x128x128
  slices_S3x128_S1x128_1_0 : S3x128.Slices ![1, 0] S1x128
  slices_S3x2x800000_S1x1x800000_2_0_0 : S3x2x800000.Slices ![2, 0, 0] S1x1x800000
  slices_S3x2x800000_S1x1x800000_2_1_0 : S3x2x800000.Slices ![2, 1, 0] S1x1x800000
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x300_S300x128_S50000x128_1_0_0_1_n_n_wf : DotDims.WF S50000x300 S300x128 S50000x128 [1] [0] [0] [1] [] []
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its result named.
  Every weakly fair execution of the program terminates without a fault, the ten argument arrays end as they were
  launched, and the result array ends at the contents that the fold of the buffer contents through the program's
  nineteen segments (nine stretches of host operations and ten kernel regions) gives it after the last region.
  The run itself is the library's theorem for a program of several kernel regions, applied to the program's segments;
  what is added to the statement about the arguments is the same reading of the final memory at the result buffer.
-/
import proofs.«140704_j79388175499709_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without fault, the result array at the fold's final contents, the arguments unchanged. -/
theorem run : θ_run defs (onTc (τ := τ) (main (F := F))) ⟨m, fun _ => 0, ρ⟩ (fun r => ∀ c : Dev nD,
      r.2.mem ((c.tc : Thread nD τ).loc main_v234) = W19 m ρ c (Proc.devRef .tc main_v234)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v234 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c)⟩)

end Cert.KernelIdeal.RunValue

end
-- ==== Proof.FoldArgs.lean ====
/-
  The argument arrays through the program's segments. No host operation writes an argument array, and a kernel region
  at most reads one through an input window, which leaves the array as the region found it. So at every boundary
  between segments, up to the last one where it is read, an argument array still holds its launch contents. The lemmas
  walk each array forward one segment at a time: through a host stretch because none of its operations writes the
  array, through a region either because the array is none of the region's windows or because it is an input window.
  The last two arguments are read only by the last region, which has them as input windows: at its entry they hold what
  they hold at its exit, and at the program's end every argument holds its launch contents.
-/
import proofs.«140704_j79388175499709_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The argument arrays hold their launch contents at every boundary up to their last use: no host operation writes
    one and a region at most reads it. -/

/-- Argument 0 holds its launch contents at boundary 1. -/
theorem W1_arg0 (c : Dev nD) : Gen.W1 (F := Ideal) m ρ c (Proc.devRef .tc main_arg0) = m ((c : Thread nD τ).loc main_arg0) :=
  (show Gen.W1 (F := Ideal) m ρ c (Proc.devRef .tc main_arg0) = Gen.W0 (F := Ideal) m ρ c (Proc.devRef .tc main_arg0) from by host_keep Gen.hostOps0 main_arg0).trans rfl

/-- Argument 2 holds its launch contents at boundary 1. -/
theorem W1_arg2 (c : Dev nD) : Gen.W1 (F := Ideal) m ρ c (Proc.devRef .tc main_arg2) = m ((c : Thread nD τ).loc main_arg2) :=
  (show Gen.W1 (F := Ideal) m ρ c (Proc.devRef .tc main_arg2) = Gen.W0 (F := Ideal) m ρ c (Proc.devRef .tc main_arg2) from by host_keep Gen.hostOps0 main_arg2).trans rfl

/-- Argument 3 holds its launch contents at boundary 1. -/
theorem W1_arg3 (c : Dev nD) : Gen.W1 (F := Ideal) m ρ c (Proc.devRef .tc main_arg3) = m ((c : Thread nD τ).loc main_arg3) :=
  (show Gen.W1 (F := Ideal) m ρ c (Proc.devRef .tc main_arg3) = Gen.W0 (F := Ideal) m ρ c (Proc.devRef .tc main_arg3) from by host_keep Gen.hostOps0 main_arg3).trans rfl

/-- Argument 4 holds its launch contents at boundary 1. -/
theorem W1_arg4 (c : Dev nD) : Gen.W1 (F := Ideal) m ρ c (Proc.devRef .tc main_arg4) = m ((c : Thread nD τ).loc main_arg4) :=
  (show Gen.W1 (F := Ideal) m ρ c (Proc.devRef .tc main_arg4) = Gen.W0 (F := Ideal) m ρ c (Proc.devRef .tc main_arg4) from by host_keep Gen.hostOps0 main_arg4).trans rfl

/-- Argument 4 holds its launch contents at boundary 2. -/
theorem W2_arg4 (c : Dev nD) : Gen.W2 (F := Ideal) m ρ c (Proc.devRef .tc main_arg4) = m ((c : Thread nD τ).loc main_arg4) :=
  (show Gen.W2 (F := Ideal) m ρ c (Proc.devRef .tc main_arg4) = Gen.W1 (F := Ideal) m ρ c (Proc.devRef .tc main_arg4) from Gen.W2_of_ne m ρ c main_arg4 (by decide)).trans (W1_arg4 m ρ c)

/-- Argument 4 holds its launch contents at boundary 3. -/
theorem W3_arg4 (c : Dev nD) : Gen.W3 (F := Ideal) m ρ c (Proc.devRef .tc main_arg4) = m ((c : Thread nD τ).loc main_arg4) :=
  (show Gen.W3 (F := Ideal) m ρ c (Proc.devRef .tc main_arg4) = Gen.W2 (F := Ideal) m ρ c (Proc.devRef .tc main_arg4) from by host_keep Gen.hostOps1 main_arg4).trans (W2_arg4 m ρ c)

/-- Argument 4 holds its launch contents at boundary 4. -/
theorem W4_arg4 (c : Dev nD) : Gen.W4 (F := Ideal) m ρ c (Proc.devRef .tc main_arg4) = m ((c : Thread nD τ).loc main_arg4) :=
  (show Gen.W4 (F := Ideal) m ρ c (Proc.devRef .tc main_arg4) = Gen.W3 (F := Ideal) m ρ c (Proc.devRef .tc main_arg4) from Gen.W4_of_ne m ρ c main_arg4 (by decide)).trans (W3_arg4 m ρ c)

/-- Argument 4 holds its launch contents at boundary 5. -/
theorem W5_arg4 (c : Dev nD) : Gen.W5 (F := Ideal) m ρ c (Proc.devRef .tc main_arg4) = m ((c : Thread nD τ).loc main_arg4) :=
  (show Gen.W5 (F := Ideal) m ρ c (Proc.devRef .tc main_arg4) = Gen.W4 (F := Ideal) m ρ c (Proc.devRef .tc main_arg4) from by host_keep Gen.hostOps2 main_arg4).trans (W4_arg4 m ρ c)

/-- Argument 4 holds its launch contents at boundary 6. -/
theorem W6_arg4 (c : Dev nD) : Gen.W6 (F := Ideal) m ρ c (Proc.devRef .tc main_arg4) = m ((c : Thread nD τ).loc main_arg4) :=
  (show Gen.W6 (F := Ideal) m ρ c (Proc.devRef .tc main_arg4) = Gen.W5 (F := Ideal) m ρ c (Proc.devRef .tc main_arg4) from Gen.W6_of_ne m ρ c main_arg4 (by decide)).trans (W5_arg4 m ρ c)

/-- Argument 5 holds its launch contents at boundary 1. -/
theorem W1_arg5 (c : Dev nD) : Gen.W1 (F := Ideal) m ρ c (Proc.devRef .tc main_arg5) = m ((c : Thread nD τ).loc main_arg5) :=
  (show Gen.W1 (F := Ideal) m ρ c (Proc.devRef .tc main_arg5) = Gen.W0 (F := Ideal) m ρ c (Proc.devRef .tc main_arg5) from by host_keep Gen.hostOps0 main_arg5).trans rfl

/-- Argument 5 holds its launch contents at boundary 2. -/
theorem W2_arg5 (c : Dev nD) : Gen.W2 (F := Ideal) m ρ c (Proc.devRef .tc main_arg5) = m ((c : Thread nD τ).loc main_arg5) :=
  (show Gen.W2 (F := Ideal) m ρ c (Proc.devRef .tc main_arg5) = Gen.W1 (F := Ideal) m ρ c (Proc.devRef .tc main_arg5) from Gen.W2_of_ne m ρ c main_arg5 (by decide)).trans (W1_arg5 m ρ c)

/-- Argument 5 holds its launch contents at boundary 3. -/
theorem W3_arg5 (c : Dev nD) : Gen.W3 (F := Ideal) m ρ c (Proc.devRef .tc main_arg5) = m ((c : Thread nD τ).loc main_arg5) :=
  (show Gen.W3 (F := Ideal) m ρ c (Proc.devRef .tc main_arg5) = Gen.W2 (F := Ideal) m ρ c (Proc.devRef .tc main_arg5) from by host_keep Gen.hostOps1 main_arg5).trans (W2_arg5 m ρ c)

/-- Argument 5 holds its launch contents at boundary 4. -/
theorem W4_arg5 (c : Dev nD) : Gen.W4 (F := Ideal) m ρ c (Proc.devRef .tc main_arg5) = m ((c : Thread nD τ).loc main_arg5) :=
  (show Gen.W4 (F := Ideal) m ρ c (Proc.devRef .tc main_arg5) = Gen.W3 (F := Ideal) m ρ c (Proc.devRef .tc main_arg5) from Gen.W4_of_ne m ρ c main_arg5 (by decide)).trans (W3_arg5 m ρ c)

/-- Argument 5 holds its launch contents at boundary 5. -/
theorem W5_arg5 (c : Dev nD) : Gen.W5 (F := Ideal) m ρ c (Proc.devRef .tc main_arg5) = m ((c : Thread nD τ).loc main_arg5) :=
  (show Gen.W5 (F := Ideal) m ρ c (Proc.devRef .tc main_arg5) = Gen.W4 (F := Ideal) m ρ c (Proc.devRef .tc main_arg5) from by host_keep Gen.hostOps2 main_arg5).trans (W4_arg5 m ρ c)

/-- Argument 5 holds its launch contents at boundary 6. -/
theorem W6_arg5 (c : Dev nD) : Gen.W6 (F := Ideal) m ρ c (Proc.devRef .tc main_arg5) = m ((c : Thread nD τ).loc main_arg5) :=
  (show Gen.W6 (F := Ideal) m ρ c (Proc.devRef .tc main_arg5) = Gen.W5 (F := Ideal) m ρ c (Proc.devRef .tc main_arg5) from Gen.W6_of_ne m ρ c main_arg5 (by decide)).trans (W5_arg5 m ρ c)

/-- Argument 5 holds its launch contents at boundary 7. -/
theorem W7_arg5 (c : Dev nD) : Gen.W7 (F := Ideal) m ρ c (Proc.devRef .tc main_arg5) = m ((c : Thread nD τ).loc main_arg5) :=
  (show Gen.W7 (F := Ideal) m ρ c (Proc.devRef .tc main_arg5) = Gen.W6 (F := Ideal) m ρ c (Proc.devRef .tc main_arg5) from by host_keep Gen.hostOps3 main_arg5).trans (W6_arg5 m ρ c)

/-- Argument 5 holds its launch contents at boundary 8. -/
theorem W8_arg5 (c : Dev nD) : Gen.W8 (F := Ideal) m ρ c (Proc.devRef .tc main_arg5) = m ((c : Thread nD τ).loc main_arg5) :=
  (show Gen.W8 (F := Ideal) m ρ c (Proc.devRef .tc main_arg5) = Gen.W7 (F := Ideal) m ρ c (Proc.devRef .tc main_arg5) from Gen.W8_of_ne m ρ c main_arg5 (by decide)).trans (W7_arg5 m ρ c)

/-- Argument 6 holds its launch contents at boundary 1. -/
theorem W1_arg6 (c : Dev nD) : Gen.W1 (F := Ideal) m ρ c (Proc.devRef .tc main_arg6) = m ((c : Thread nD τ).loc main_arg6) :=
  (show Gen.W1 (F := Ideal) m ρ c (Proc.devRef .tc main_arg6) = Gen.W0 (F := Ideal) m ρ c (Proc.devRef .tc main_arg6) from by host_keep Gen.hostOps0 main_arg6).trans rfl

/-- Argument 6 holds its launch contents at boundary 2. -/
theorem W2_arg6 (c : Dev nD) : Gen.W2 (F := Ideal) m ρ c (Proc.devRef .tc main_arg6) = m ((c : Thread nD τ).loc main_arg6) :=
  (show Gen.W2 (F := Ideal) m ρ c (Proc.devRef .tc main_arg6) = Gen.W1 (F := Ideal) m ρ c (Proc.devRef .tc main_arg6) from Gen.W2_of_ne m ρ c main_arg6 (by decide)).trans (W1_arg6 m ρ c)

/-- Argument 6 holds its launch contents at boundary 3. -/
theorem W3_arg6 (c : Dev nD) : Gen.W3 (F := Ideal) m ρ c (Proc.devRef .tc main_arg6) = m ((c : Thread nD τ).loc main_arg6) :=
  (show Gen.W3 (F := Ideal) m ρ c (Proc.devRef .tc main_arg6) = Gen.W2 (F := Ideal) m ρ c (Proc.devRef .tc main_arg6) from by host_keep Gen.hostOps1 main_arg6).trans (W2_arg6 m ρ c)

/-- Argument 6 holds its launch contents at boundary 4. -/
theorem W4_arg6 (c : Dev nD) : Gen.W4 (F := Ideal) m ρ c (Proc.devRef .tc main_arg6) = m ((c : Thread nD τ).loc main_arg6) :=
  (show Gen.W4 (F := Ideal) m ρ c (Proc.devRef .tc main_arg6) = Gen.W3 (F := Ideal) m ρ c (Proc.devRef .tc main_arg6) from Gen.W4_of_ne m ρ c main_arg6 (by decide)).trans (W3_arg6 m ρ c)

/-- Argument 6 holds its launch contents at boundary 5. -/
theorem W5_arg6 (c : Dev nD) : Gen.W5 (F := Ideal) m ρ c (Proc.devRef .tc main_arg6) = m ((c : Thread nD τ).loc main_arg6) :=
  (show Gen.W5 (F := Ideal) m ρ c (Proc.devRef .tc main_arg6) = Gen.W4 (F := Ideal) m ρ c (Proc.devRef .tc main_arg6) from by host_keep Gen.hostOps2 main_arg6).trans (W4_arg6 m ρ c)

/-- Argument 6 holds its launch contents at boundary 6. -/
theorem W6_arg6 (c : Dev nD) : Gen.W6 (F := Ideal) m ρ c (Proc.devRef .tc main_arg6) = m ((c : Thread nD τ).loc main_arg6) :=
  (show Gen.W6 (F := Ideal) m ρ c (Proc.devRef .tc main_arg6) = Gen.W5 (F := Ideal) m ρ c (Proc.devRef .tc main_arg6) from Gen.W6_of_ne m ρ c main_arg6 (by decide)).trans (W5_arg6 m ρ c)

/-- Argument 6 holds its launch contents at boundary 7. -/
theorem W7_arg6 (c : Dev nD) : Gen.W7 (F := Ideal) m ρ c (Proc.devRef .tc main_arg6) = m ((c : Thread nD τ).loc main_arg6) :=
  (show Gen.W7 (F := Ideal) m ρ c (Proc.devRef .tc main_arg6) = Gen.W6 (F := Ideal) m ρ c (Proc.devRef .tc main_arg6) from by host_keep Gen.hostOps3 main_arg6).trans (W6_arg6 m ρ c)

/-- Argument 6 holds its launch contents at boundary 8. -/
theorem W8_arg6 (c : Dev nD) : Gen.W8 (F := Ideal) m ρ c (Proc.devRef .tc main_arg6) = m ((c : Thread nD τ).loc main_arg6) :=
  (show Gen.W8 (F := Ideal) m ρ c (Proc.devRef .tc main_arg6) = Gen.W7 (F := Ideal) m ρ c (Proc.devRef .tc main_arg6) from Gen.W8_of_ne m ρ c main_arg6 (by decide)).trans (W7_arg6 m ρ c)

/-- Argument 6 holds its launch contents at boundary 9. -/
theorem W9_arg6 (c : Dev nD) : Gen.W9 (F := Ideal) m ρ c (Proc.devRef .tc main_arg6) = m ((c : Thread nD τ).loc main_arg6) :=
  (show Gen.W9 (F := Ideal) m ρ c (Proc.devRef .tc main_arg6) = Gen.W8 (F := Ideal) m ρ c (Proc.devRef .tc main_arg6) from by host_keep Gen.hostOps4 main_arg6).trans (W8_arg6 m ρ c)

/-- Argument 6 holds its launch contents at boundary 10. -/
theorem W10_arg6 (c : Dev nD) : Gen.W10 (F := Ideal) m ρ c (Proc.devRef .tc main_arg6) = m ((c : Thread nD τ).loc main_arg6) :=
  (show Gen.W10 (F := Ideal) m ρ c (Proc.devRef .tc main_arg6) = Gen.W9 (F := Ideal) m ρ c (Proc.devRef .tc main_arg6) from Gen.W10_of_ne m ρ c main_arg6 (by decide)).trans (W9_arg6 m ρ c)

/-- Argument 6 holds its launch contents at boundary 11. -/
theorem W11_arg6 (c : Dev nD) : Gen.W11 (F := Ideal) m ρ c (Proc.devRef .tc main_arg6) = m ((c : Thread nD τ).loc main_arg6) :=
  (show Gen.W11 (F := Ideal) m ρ c (Proc.devRef .tc main_arg6) = Gen.W10 (F := Ideal) m ρ c (Proc.devRef .tc main_arg6) from by host_keep Gen.hostOps5 main_arg6).trans (W10_arg6 m ρ c)

/-- Argument 6 holds its launch contents at boundary 12. -/
theorem W12_arg6 (c : Dev nD) : Gen.W12 (F := Ideal) m ρ c (Proc.devRef .tc main_arg6) = m ((c : Thread nD τ).loc main_arg6) :=
  (show Gen.W12 (F := Ideal) m ρ c (Proc.devRef .tc main_arg6) = Gen.W11 (F := Ideal) m ρ c (Proc.devRef .tc main_arg6) from Gen.W12_of_ne m ρ c main_arg6 (by decide)).trans (W11_arg6 m ρ c)

/-- Argument 6 holds its launch contents at boundary 13. -/
theorem W13_arg6 (c : Dev nD) : Gen.W13 (F := Ideal) m ρ c (Proc.devRef .tc main_arg6) = m ((c : Thread nD τ).loc main_arg6) :=
  (show Gen.W13 (F := Ideal) m ρ c (Proc.devRef .tc main_arg6) = Gen.W12 (F := Ideal) m ρ c (Proc.devRef .tc main_arg6) from by host_keep Gen.hostOps6 main_arg6).trans (W12_arg6 m ρ c)

/-- Argument 6 holds its launch contents at boundary 14. -/
theorem W14_arg6 (c : Dev nD) : Gen.W14 (F := Ideal) m ρ c (Proc.devRef .tc main_arg6) = m ((c : Thread nD τ).loc main_arg6) :=
  (show Gen.W14 (F := Ideal) m ρ c (Proc.devRef .tc main_arg6) = Gen.W13 (F := Ideal) m ρ c (Proc.devRef .tc main_arg6) from Gen.W14_of_ne m ρ c main_arg6 (by decide)).trans (W13_arg6 m ρ c)

/-- Argument 7 holds its launch contents at boundary 1. -/
theorem W1_arg7 (c : Dev nD) : Gen.W1 (F := Ideal) m ρ c (Proc.devRef .tc main_arg7) = m ((c : Thread nD τ).loc main_arg7) :=
  (show Gen.W1 (F := Ideal) m ρ c (Proc.devRef .tc main_arg7) = Gen.W0 (F := Ideal) m ρ c (Proc.devRef .tc main_arg7) from by host_keep Gen.hostOps0 main_arg7).trans rfl

/-- Argument 7 holds its launch contents at boundary 2. -/
theorem W2_arg7 (c : Dev nD) : Gen.W2 (F := Ideal) m ρ c (Proc.devRef .tc main_arg7) = m ((c : Thread nD τ).loc main_arg7) :=
  (show Gen.W2 (F := Ideal) m ρ c (Proc.devRef .tc main_arg7) = Gen.W1 (F := Ideal) m ρ c (Proc.devRef .tc main_arg7) from Gen.W2_of_ne m ρ c main_arg7 (by decide)).trans (W1_arg7 m ρ c)

/-- Argument 7 holds its launch contents at boundary 3. -/
theorem W3_arg7 (c : Dev nD) : Gen.W3 (F := Ideal) m ρ c (Proc.devRef .tc main_arg7) = m ((c : Thread nD τ).loc main_arg7) :=
  (show Gen.W3 (F := Ideal) m ρ c (Proc.devRef .tc main_arg7) = Gen.W2 (F := Ideal) m ρ c (Proc.devRef .tc main_arg7) from by host_keep Gen.hostOps1 main_arg7).trans (W2_arg7 m ρ c)

/-- Argument 7 holds its launch contents at boundary 4. -/
theorem W4_arg7 (c : Dev nD) : Gen.W4 (F := Ideal) m ρ c (Proc.devRef .tc main_arg7) = m ((c : Thread nD τ).loc main_arg7) :=
  (show Gen.W4 (F := Ideal) m ρ c (Proc.devRef .tc main_arg7) = Gen.W3 (F := Ideal) m ρ c (Proc.devRef .tc main_arg7) from Gen.W4_of_ne m ρ c main_arg7 (by decide)).trans (W3_arg7 m ρ c)

/-- Argument 7 holds its launch contents at boundary 5. -/
theorem W5_arg7 (c : Dev nD) : Gen.W5 (F := Ideal) m ρ c (Proc.devRef .tc main_arg7) = m ((c : Thread nD τ).loc main_arg7) :=
  (show Gen.W5 (F := Ideal) m ρ c (Proc.devRef .tc main_arg7) = Gen.W4 (F := Ideal) m ρ c (Proc.devRef .tc main_arg7) from by host_keep Gen.hostOps2 main_arg7).trans (W4_arg7 m ρ c)

/-- Argument 7 holds its launch contents at boundary 6. -/
theorem W6_arg7 (c : Dev nD) : Gen.W6 (F := Ideal) m ρ c (Proc.devRef .tc main_arg7) = m ((c : Thread nD τ).loc main_arg7) :=
  (show Gen.W6 (F := Ideal) m ρ c (Proc.devRef .tc main_arg7) = Gen.W5 (F := Ideal) m ρ c (Proc.devRef .tc main_arg7) from Gen.W6_of_ne m ρ c main_arg7 (by decide)).trans (W5_arg7 m ρ c)

/-- Argument 7 holds its launch contents at boundary 7. -/
theorem W7_arg7 (c : Dev nD) : Gen.W7 (F := Ideal) m ρ c (Proc.devRef .tc main_arg7) = m ((c : Thread nD τ).loc main_arg7) :=
  (show Gen.W7 (F := Ideal) m ρ c (Proc.devRef .tc main_arg7) = Gen.W6 (F := Ideal) m ρ c (Proc.devRef .tc main_arg7) from by host_keep Gen.hostOps3 main_arg7).trans (W6_arg7 m ρ c)

/-- Argument 7 holds its launch contents at boundary 8. -/
theorem W8_arg7 (c : Dev nD) : Gen.W8 (F := Ideal) m ρ c (Proc.devRef .tc main_arg7) = m ((c : Thread nD τ).loc main_arg7) :=
  (show Gen.W8 (F := Ideal) m ρ c (Proc.devRef .tc main_arg7) = Gen.W7 (F := Ideal) m ρ c (Proc.devRef .tc main_arg7) from Gen.W8_of_ne m ρ c main_arg7 (by decide)).trans (W7_arg7 m ρ c)

/-- Argument 7 holds its launch contents at boundary 9. -/
theorem W9_arg7 (c : Dev nD) : Gen.W9 (F := Ideal) m ρ c (Proc.devRef .tc main_arg7) = m ((c : Thread nD τ).loc main_arg7) :=
  (show Gen.W9 (F := Ideal) m ρ c (Proc.devRef .tc main_arg7) = Gen.W8 (F := Ideal) m ρ c (Proc.devRef .tc main_arg7) from by host_keep Gen.hostOps4 main_arg7).trans (W8_arg7 m ρ c)

/-- Argument 7 holds its launch contents at boundary 10. -/
theorem W10_arg7 (c : Dev nD) : Gen.W10 (F := Ideal) m ρ c (Proc.devRef .tc main_arg7) = m ((c : Thread nD τ).loc main_arg7) :=
  (show Gen.W10 (F := Ideal) m ρ c (Proc.devRef .tc main_arg7) = Gen.W9 (F := Ideal) m ρ c (Proc.devRef .tc main_arg7) from Gen.W10_of_ne m ρ c main_arg7 (by decide)).trans (W9_arg7 m ρ c)

/-- Argument 7 holds its launch contents at boundary 11. -/
theorem W11_arg7 (c : Dev nD) : Gen.W11 (F := Ideal) m ρ c (Proc.devRef .tc main_arg7) = m ((c : Thread nD τ).loc main_arg7) :=
  (show Gen.W11 (F := Ideal) m ρ c (Proc.devRef .tc main_arg7) = Gen.W10 (F := Ideal) m ρ c (Proc.devRef .tc main_arg7) from by host_keep Gen.hostOps5 main_arg7).trans (W10_arg7 m ρ c)

/-- Argument 7 holds its launch contents at boundary 12. -/
theorem W12_arg7 (c : Dev nD) : Gen.W12 (F := Ideal) m ρ c (Proc.devRef .tc main_arg7) = m ((c : Thread nD τ).loc main_arg7) :=
  (show Gen.W12 (F := Ideal) m ρ c (Proc.devRef .tc main_arg7) = Gen.W11 (F := Ideal) m ρ c (Proc.devRef .tc main_arg7) from Gen.W12_of_ne m ρ c main_arg7 (by decide)).trans (W11_arg7 m ρ c)

/-- Argument 7 holds its launch contents at boundary 13. -/
theorem W13_arg7 (c : Dev nD) : Gen.W13 (F := Ideal) m ρ c (Proc.devRef .tc main_arg7) = m ((c : Thread nD τ).loc main_arg7) :=
  (show Gen.W13 (F := Ideal) m ρ c (Proc.devRef .tc main_arg7) = Gen.W12 (F := Ideal) m ρ c (Proc.devRef .tc main_arg7) from by host_keep Gen.hostOps6 main_arg7).trans (W12_arg7 m ρ c)

/-- Argument 7 holds its launch contents at boundary 14. -/
theorem W14_arg7 (c : Dev nD) : Gen.W14 (F := Ideal) m ρ c (Proc.devRef .tc main_arg7) = m ((c : Thread nD τ).loc main_arg7) :=
  (show Gen.W14 (F := Ideal) m ρ c (Proc.devRef .tc main_arg7) = Gen.W13 (F := Ideal) m ρ c (Proc.devRef .tc main_arg7) from Gen.W14_of_ne m ρ c main_arg7 (by decide)).trans (W13_arg7 m ρ c)

/-- Argument 7 holds its launch contents at boundary 15. -/
theorem W15_arg7 (c : Dev nD) : Gen.W15 (F := Ideal) m ρ c (Proc.devRef .tc main_arg7) = m ((c : Thread nD τ).loc main_arg7) :=
  (show Gen.W15 (F := Ideal) m ρ c (Proc.devRef .tc main_arg7) = Gen.W14 (F := Ideal) m ρ c (Proc.devRef .tc main_arg7) from by host_keep Gen.hostOps7 main_arg7).trans (W14_arg7 m ρ c)

/-- Argument 7 holds its launch contents at boundary 16. -/
theorem W16_arg7 (c : Dev nD) : Gen.W16 (F := Ideal) m ρ c (Proc.devRef .tc main_arg7) = m ((c : Thread nD τ).loc main_arg7) :=
  (show Gen.W16 (F := Ideal) m ρ c (Proc.devRef .tc main_arg7) = Gen.W15 (F := Ideal) m ρ c (Proc.devRef .tc main_arg7) from Gen.W16_of_ne m ρ c main_arg7 (by decide)).trans (W15_arg7 m ρ c)

/-- Argument 8 holds its launch contents at boundary 18. -/
theorem W18_arg8 (c : Dev nD) : Gen.W18 (F := Ideal) m ρ c (Proc.devRef .tc main_arg8) = m ((c : Thread nD τ).loc main_arg8) :=
  (show Gen.W19 (F := Ideal) m ρ c (Proc.devRef .tc main_arg8) = Gen.W18 (F := Ideal) m ρ c (Proc.devRef .tc main_arg8) from (Gen.W19_arr m ρ c 1).trans (((Gen.dat9 (Gen.V18 m ρ) c).arrAt_in 1 rfl _).trans (Gen.A_eq9 (Gen.V18 m ρ) c 1))).symm.trans (Gen.W19_main_arg8 m ρ c)

/-- Argument 9 holds its launch contents at boundary 18. -/
theorem W18_arg9 (c : Dev nD) : Gen.W18 (F := Ideal) m ρ c (Proc.devRef .tc main_arg9) = m ((c : Thread nD τ).loc main_arg9) :=
  (show Gen.W19 (F := Ideal) m ρ c (Proc.devRef .tc main_arg9) = Gen.W18 (F := Ideal) m ρ c (Proc.devRef .tc main_arg9) from (Gen.W19_arr m ρ c 2).trans (((Gen.dat9 (Gen.V18 m ρ) c).arrAt_in 2 rfl _).trans (Gen.A_eq9 (Gen.V18 m ρ) c 2))).symm.trans (Gen.W19_main_arg9 m ρ c)

end Cert.KernelIdeal.Fold

end
-- ==== Proof.FoldCarry0.lean ====
/-
  Relation 0's edge data through the program's segments. The first host stretch computes, for relation 0, the
  source list, the target list, the edge weights dis[s] · dis[d] and the self-loop weights dis²; both layers use them.
  Between the first region's entry and their last use no host operation writes these four arrays and no region has one
  of them as a window, so at each boundary they hold what they held at the first region's entry. One lemma per array
  and boundary, each one segment further than the one before.
-/
import proofs.«140704_j79388175499709_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! Relation 0's edge lists and weights, computed by the first host stretch, are not written again: at every later
    boundary up to their last use they hold what they held at the first region's entry. -/

/-- Relation 0's source list at boundary 2: as at the first region's entry. -/
theorem W2_v1 (c : Dev nD) : Gen.W2 (F := Ideal) m ρ c (Proc.devRef .tc main_v1) = Gen.W1 (F := Ideal) m ρ c (Proc.devRef .tc main_v1) :=
  Gen.W2_of_ne m ρ c main_v1 (by decide)

/-- Relation 0's source list at boundary 3: as at the first region's entry. -/
theorem W3_v1 (c : Dev nD) : Gen.W3 (F := Ideal) m ρ c (Proc.devRef .tc main_v1) = Gen.W1 (F := Ideal) m ρ c (Proc.devRef .tc main_v1) :=
  (show Gen.W3 (F := Ideal) m ρ c (Proc.devRef .tc main_v1) = Gen.W2 (F := Ideal) m ρ c (Proc.devRef .tc main_v1) from by host_keep Gen.hostOps1 main_v1).trans (W2_v1 m ρ c)

/-- Relation 0's source list at boundary 4: as at the first region's entry. -/
theorem W4_v1 (c : Dev nD) : Gen.W4 (F := Ideal) m ρ c (Proc.devRef .tc main_v1) = Gen.W1 (F := Ideal) m ρ c (Proc.devRef .tc main_v1) :=
  (show Gen.W4 (F := Ideal) m ρ c (Proc.devRef .tc main_v1) = Gen.W3 (F := Ideal) m ρ c (Proc.devRef .tc main_v1) from Gen.W4_of_ne m ρ c main_v1 (by decide)).trans (W3_v1 m ρ c)

/-- Relation 0's source list at boundary 5: as at the first region's entry. -/
theorem W5_v1 (c : Dev nD) : Gen.W5 (F := Ideal) m ρ c (Proc.devRef .tc main_v1) = Gen.W1 (F := Ideal) m ρ c (Proc.devRef .tc main_v1) :=
  (show Gen.W5 (F := Ideal) m ρ c (Proc.devRef .tc main_v1) = Gen.W4 (F := Ideal) m ρ c (Proc.devRef .tc main_v1) from by host_keep Gen.hostOps2 main_v1).trans (W4_v1 m ρ c)

/-- Relation 0's source list at boundary 6: as at the first region's entry. -/
theorem W6_v1 (c : Dev nD) : Gen.W6 (F := Ideal) m ρ c (Proc.devRef .tc main_v1) = Gen.W1 (F := Ideal) m ρ c (Proc.devRef .tc main_v1) :=
  (show Gen.W6 (F := Ideal) m ρ c (Proc.devRef .tc main_v1) = Gen.W5 (F := Ideal) m ρ c (Proc.devRef .tc main_v1) from Gen.W6_of_ne m ρ c main_v1 (by decide)).trans (W5_v1 m ρ c)

/-- Relation 0's source list at boundary 7: as at the first region's entry. -/
theorem W7_v1 (c : Dev nD) : Gen.W7 (F := Ideal) m ρ c (Proc.devRef .tc main_v1) = Gen.W1 (F := Ideal) m ρ c (Proc.devRef .tc main_v1) :=
  (show Gen.W7 (F := Ideal) m ρ c (Proc.devRef .tc main_v1) = Gen.W6 (F := Ideal) m ρ c (Proc.devRef .tc main_v1) from by host_keep Gen.hostOps3 main_v1).trans (W6_v1 m ρ c)

/-- Relation 0's source list at boundary 8: as at the first region's entry. -/
theorem W8_v1 (c : Dev nD) : Gen.W8 (F := Ideal) m ρ c (Proc.devRef .tc main_v1) = Gen.W1 (F := Ideal) m ρ c (Proc.devRef .tc main_v1) :=
  (show Gen.W8 (F := Ideal) m ρ c (Proc.devRef .tc main_v1) = Gen.W7 (F := Ideal) m ρ c (Proc.devRef .tc main_v1) from Gen.W8_of_ne m ρ c main_v1 (by decide)).trans (W7_v1 m ρ c)

/-- Relation 0's source list at boundary 9: as at the first region's entry. -/
theorem W9_v1 (c : Dev nD) : Gen.W9 (F := Ideal) m ρ c (Proc.devRef .tc main_v1) = Gen.W1 (F := Ideal) m ρ c (Proc.devRef .tc main_v1) :=
  (show Gen.W9 (F := Ideal) m ρ c (Proc.devRef .tc main_v1) = Gen.W8 (F := Ideal) m ρ c (Proc.devRef .tc main_v1) from by host_keep Gen.hostOps4 main_v1).trans (W8_v1 m ρ c)

/-- Relation 0's source list at boundary 10: as at the first region's entry. -/
theorem W10_v1 (c : Dev nD) : Gen.W10 (F := Ideal) m ρ c (Proc.devRef .tc main_v1) = Gen.W1 (F := Ideal) m ρ c (Proc.devRef .tc main_v1) :=
  (show Gen.W10 (F := Ideal) m ρ c (Proc.devRef .tc main_v1) = Gen.W9 (F := Ideal) m ρ c (Proc.devRef .tc main_v1) from Gen.W10_of_ne m ρ c main_v1 (by decide)).trans (W9_v1 m ρ c)

/-- Relation 0's source list at boundary 11: as at the first region's entry. -/
theorem W11_v1 (c : Dev nD) : Gen.W11 (F := Ideal) m ρ c (Proc.devRef .tc main_v1) = Gen.W1 (F := Ideal) m ρ c (Proc.devRef .tc main_v1) :=
  (show Gen.W11 (F := Ideal) m ρ c (Proc.devRef .tc main_v1) = Gen.W10 (F := Ideal) m ρ c (Proc.devRef .tc main_v1) from by host_keep Gen.hostOps5 main_v1).trans (W10_v1 m ρ c)

/-- Relation 0's source list at boundary 12: as at the first region's entry. -/
theorem W12_v1 (c : Dev nD) : Gen.W12 (F := Ideal) m ρ c (Proc.devRef .tc main_v1) = Gen.W1 (F := Ideal) m ρ c (Proc.devRef .tc main_v1) :=
  (show Gen.W12 (F := Ideal) m ρ c (Proc.devRef .tc main_v1) = Gen.W11 (F := Ideal) m ρ c (Proc.devRef .tc main_v1) from Gen.W12_of_ne m ρ c main_v1 (by decide)).trans (W11_v1 m ρ c)

/-- Relation 0's target list at boundary 2: as at the first region's entry. -/
theorem W2_v3 (c : Dev nD) : Gen.W2 (F := Ideal) m ρ c (Proc.devRef .tc main_v3) = Gen.W1 (F := Ideal) m ρ c (Proc.devRef .tc main_v3) :=
  Gen.W2_of_ne m ρ c main_v3 (by decide)

/-- Relation 0's target list at boundary 3: as at the first region's entry. -/
theorem W3_v3 (c : Dev nD) : Gen.W3 (F := Ideal) m ρ c (Proc.devRef .tc main_v3) = Gen.W1 (F := Ideal) m ρ c (Proc.devRef .tc main_v3) :=
  (show Gen.W3 (F := Ideal) m ρ c (Proc.devRef .tc main_v3) = Gen.W2 (F := Ideal) m ρ c (Proc.devRef .tc main_v3) from by host_keep Gen.hostOps1 main_v3).trans (W2_v3 m ρ c)

/-- Relation 0's target list at boundary 4: as at the first region's entry. -/
theorem W4_v3 (c : Dev nD) : Gen.W4 (F := Ideal) m ρ c (Proc.devRef .tc main_v3) = Gen.W1 (F := Ideal) m ρ c (Proc.devRef .tc main_v3) :=
  (show Gen.W4 (F := Ideal) m ρ c (Proc.devRef .tc main_v3) = Gen.W3 (F := Ideal) m ρ c (Proc.devRef .tc main_v3) from Gen.W4_of_ne m ρ c main_v3 (by decide)).trans (W3_v3 m ρ c)

/-- Relation 0's target list at boundary 5: as at the first region's entry. -/
theorem W5_v3 (c : Dev nD) : Gen.W5 (F := Ideal) m ρ c (Proc.devRef .tc main_v3) = Gen.W1 (F := Ideal) m ρ c (Proc.devRef .tc main_v3) :=
  (show Gen.W5 (F := Ideal) m ρ c (Proc.devRef .tc main_v3) = Gen.W4 (F := Ideal) m ρ c (Proc.devRef .tc main_v3) from by host_keep Gen.hostOps2 main_v3).trans (W4_v3 m ρ c)

/-- Relation 0's target list at boundary 6: as at the first region's entry. -/
theorem W6_v3 (c : Dev nD) : Gen.W6 (F := Ideal) m ρ c (Proc.devRef .tc main_v3) = Gen.W1 (F := Ideal) m ρ c (Proc.devRef .tc main_v3) :=
  (show Gen.W6 (F := Ideal) m ρ c (Proc.devRef .tc main_v3) = Gen.W5 (F := Ideal) m ρ c (Proc.devRef .tc main_v3) from Gen.W6_of_ne m ρ c main_v3 (by decide)).trans (W5_v3 m ρ c)

/-- Relation 0's target list at boundary 7: as at the first region's entry. -/
theorem W7_v3 (c : Dev nD) : Gen.W7 (F := Ideal) m ρ c (Proc.devRef .tc main_v3) = Gen.W1 (F := Ideal) m ρ c (Proc.devRef .tc main_v3) :=
  (show Gen.W7 (F := Ideal) m ρ c (Proc.devRef .tc main_v3) = Gen.W6 (F := Ideal) m ρ c (Proc.devRef .tc main_v3) from by host_keep Gen.hostOps3 main_v3).trans (W6_v3 m ρ c)

/-- Relation 0's target list at boundary 8: as at the first region's entry. -/
theorem W8_v3 (c : Dev nD) : Gen.W8 (F := Ideal) m ρ c (Proc.devRef .tc main_v3) = Gen.W1 (F := Ideal) m ρ c (Proc.devRef .tc main_v3) :=
  (show Gen.W8 (F := Ideal) m ρ c (Proc.devRef .tc main_v3) = Gen.W7 (F := Ideal) m ρ c (Proc.devRef .tc main_v3) from Gen.W8_of_ne m ρ c main_v3 (by decide)).trans (W7_v3 m ρ c)

/-- Relation 0's target list at boundary 9: as at the first region's entry. -/
theorem W9_v3 (c : Dev nD) : Gen.W9 (F := Ideal) m ρ c (Proc.devRef .tc main_v3) = Gen.W1 (F := Ideal) m ρ c (Proc.devRef .tc main_v3) :=
  (show Gen.W9 (F := Ideal) m ρ c (Proc.devRef .tc main_v3) = Gen.W8 (F := Ideal) m ρ c (Proc.devRef .tc main_v3) from by host_keep Gen.hostOps4 main_v3).trans (W8_v3 m ρ c)

/-- Relation 0's target list at boundary 10: as at the first region's entry. -/
theorem W10_v3 (c : Dev nD) : Gen.W10 (F := Ideal) m ρ c (Proc.devRef .tc main_v3) = Gen.W1 (F := Ideal) m ρ c (Proc.devRef .tc main_v3) :=
  (show Gen.W10 (F := Ideal) m ρ c (Proc.devRef .tc main_v3) = Gen.W9 (F := Ideal) m ρ c (Proc.devRef .tc main_v3) from Gen.W10_of_ne m ρ c main_v3 (by decide)).trans (W9_v3 m ρ c)

/-- Relation 0's target list at boundary 11: as at the first region's entry. -/
theorem W11_v3 (c : Dev nD) : Gen.W11 (F := Ideal) m ρ c (Proc.devRef .tc main_v3) = Gen.W1 (F := Ideal) m ρ c (Proc.devRef .tc main_v3) :=
  (show Gen.W11 (F := Ideal) m ρ c (Proc.devRef .tc main_v3) = Gen.W10 (F := Ideal) m ρ c (Proc.devRef .tc main_v3) from by host_keep Gen.hostOps5 main_v3).trans (W10_v3 m ρ c)

/-- Relation 0's target list at boundary 12: as at the first region's entry. -/
theorem W12_v3 (c : Dev nD) : Gen.W12 (F := Ideal) m ρ c (Proc.devRef .tc main_v3) = Gen.W1 (F := Ideal) m ρ c (Proc.devRef .tc main_v3) :=
  (show Gen.W12 (F := Ideal) m ρ c (Proc.devRef .tc main_v3) = Gen.W11 (F := Ideal) m ρ c (Proc.devRef .tc main_v3) from Gen.W12_of_ne m ρ c main_v3 (by decide)).trans (W11_v3 m ρ c)

/-- Relation 0's edge weights at boundary 2: as at the first region's entry. -/
theorem W2_v25 (c : Dev nD) : Gen.W2 (F := Ideal) m ρ c (Proc.devRef .tc main_v25) = Gen.W1 (F := Ideal) m ρ c (Proc.devRef .tc main_v25) :=
  Gen.W2_of_ne m ρ c main_v25 (by decide)

/-- Relation 0's edge weights at boundary 3: as at the first region's entry. -/
theorem W3_v25 (c : Dev nD) : Gen.W3 (F := Ideal) m ρ c (Proc.devRef .tc main_v25) = Gen.W1 (F := Ideal) m ρ c (Proc.devRef .tc main_v25) :=
  (show Gen.W3 (F := Ideal) m ρ c (Proc.devRef .tc main_v25) = Gen.W2 (F := Ideal) m ρ c (Proc.devRef .tc main_v25) from by host_keep Gen.hostOps1 main_v25).trans (W2_v25 m ρ c)

/-- Relation 0's edge weights at boundary 4: as at the first region's entry. -/
theorem W4_v25 (c : Dev nD) : Gen.W4 (F := Ideal) m ρ c (Proc.devRef .tc main_v25) = Gen.W1 (F := Ideal) m ρ c (Proc.devRef .tc main_v25) :=
  (show Gen.W4 (F := Ideal) m ρ c (Proc.devRef .tc main_v25) = Gen.W3 (F := Ideal) m ρ c (Proc.devRef .tc main_v25) from Gen.W4_of_ne m ρ c main_v25 (by decide)).trans (W3_v25 m ρ c)

/-- Relation 0's edge weights at boundary 5: as at the first region's entry. -/
theorem W5_v25 (c : Dev nD) : Gen.W5 (F := Ideal) m ρ c (Proc.devRef .tc main_v25) = Gen.W1 (F := Ideal) m ρ c (Proc.devRef .tc main_v25) :=
  (show Gen.W5 (F := Ideal) m ρ c (Proc.devRef .tc main_v25) = Gen.W4 (F := Ideal) m ρ c (Proc.devRef .tc main_v25) from by host_keep Gen.hostOps2 main_v25).trans (W4_v25 m ρ c)

/-- Relation 0's edge weights at boundary 6: as at the first region's entry. -/
theorem W6_v25 (c : Dev nD) : Gen.W6 (F := Ideal) m ρ c (Proc.devRef .tc main_v25) = Gen.W1 (F := Ideal) m ρ c (Proc.devRef .tc main_v25) :=
  (show Gen.W6 (F := Ideal) m ρ c (Proc.devRef .tc main_v25) = Gen.W5 (F := Ideal) m ρ c (Proc.devRef .tc main_v25) from Gen.W6_of_ne m ρ c main_v25 (by decide)).trans (W5_v25 m ρ c)

/-- Relation 0's edge weights at boundary 7: as at the first region's entry. -/
theorem W7_v25 (c : Dev nD) : Gen.W7 (F := Ideal) m ρ c (Proc.devRef .tc main_v25) = Gen.W1 (F := Ideal) m ρ c (Proc.devRef .tc main_v25) :=
  (show Gen.W7 (F := Ideal) m ρ c (Proc.devRef .tc main_v25) = Gen.W6 (F := Ideal) m ρ c (Proc.devRef .tc main_v25) from by host_keep Gen.hostOps3 main_v25).trans (W6_v25 m ρ c)

/-- Relation 0's edge weights at boundary 8: as at the first region's entry. -/
theorem W8_v25 (c : Dev nD) : Gen.W8 (F := Ideal) m ρ c (Proc.devRef .tc main_v25) = Gen.W1 (F := Ideal) m ρ c (Proc.devRef .tc main_v25) :=
  (show Gen.W8 (F := Ideal) m ρ c (Proc.devRef .tc main_v25) = Gen.W7 (F := Ideal) m ρ c (Proc.devRef .tc main_v25) from Gen.W8_of_ne m ρ c main_v25 (by decide)).trans (W7_v25 m ρ c)

/-- Relation 0's edge weights at boundary 9: as at the first region's entry. -/
theorem W9_v25 (c : Dev nD) : Gen.W9 (F := Ideal) m ρ c (Proc.devRef .tc main_v25) = Gen.W1 (F := Ideal) m ρ c (Proc.devRef .tc main_v25) :=
  (show Gen.W9 (F := Ideal) m ρ c (Proc.devRef .tc main_v25) = Gen.W8 (F := Ideal) m ρ c (Proc.devRef .tc main_v25) from by host_keep Gen.hostOps4 main_v25).trans (W8_v25 m ρ c)

/-- Relation 0's edge weights at boundary 10: as at the first region's entry. -/
theorem W10_v25 (c : Dev nD) : Gen.W10 (F := Ideal) m ρ c (Proc.devRef .tc main_v25) = Gen.W1 (F := Ideal) m ρ c (Proc.devRef .tc main_v25) :=
  (show Gen.W10 (F := Ideal) m ρ c (Proc.devRef .tc main_v25) = Gen.W9 (F := Ideal) m ρ c (Proc.devRef .tc main_v25) from Gen.W10_of_ne m ρ c main_v25 (by decide)).trans (W9_v25 m ρ c)

/-- Relation 0's edge weights at boundary 11: as at the first region's entry. -/
theorem W11_v25 (c : Dev nD) : Gen.W11 (F := Ideal) m ρ c (Proc.devRef .tc main_v25) = Gen.W1 (F := Ideal) m ρ c (Proc.devRef .tc main_v25) :=
  (show Gen.W11 (F := Ideal) m ρ c (Proc.devRef .tc main_v25) = Gen.W10 (F := Ideal) m ρ c (Proc.devRef .tc main_v25) from by host_keep Gen.hostOps5 main_v25).trans (W10_v25 m ρ c)

/-- Relation 0's edge weights at boundary 12: as at the first region's entry. -/
theorem W12_v25 (c : Dev nD) : Gen.W12 (F := Ideal) m ρ c (Proc.devRef .tc main_v25) = Gen.W1 (F := Ideal) m ρ c (Proc.devRef .tc main_v25) :=
  (show Gen.W12 (F := Ideal) m ρ c (Proc.devRef .tc main_v25) = Gen.W11 (F := Ideal) m ρ c (Proc.devRef .tc main_v25) from Gen.W12_of_ne m ρ c main_v25 (by decide)).trans (W11_v25 m ρ c)

/-- Relation 0's self-loop weights at boundary 2: as at the first region's entry. -/
theorem W2_v26 (c : Dev nD) : Gen.W2 (F := Ideal) m ρ c (Proc.devRef .tc main_v26) = Gen.W1 (F := Ideal) m ρ c (Proc.devRef .tc main_v26) :=
  Gen.W2_of_ne m ρ c main_v26 (by decide)

/-- Relation 0's self-loop weights at boundary 3: as at the first region's entry. -/
theorem W3_v26 (c : Dev nD) : Gen.W3 (F := Ideal) m ρ c (Proc.devRef .tc main_v26) = Gen.W1 (F := Ideal) m ρ c (Proc.devRef .tc main_v26) :=
  (show Gen.W3 (F := Ideal) m ρ c (Proc.devRef .tc main_v26) = Gen.W2 (F := Ideal) m ρ c (Proc.devRef .tc main_v26) from by host_keep Gen.hostOps1 main_v26).trans (W2_v26 m ρ c)

/-- Relation 0's self-loop weights at boundary 4: as at the first region's entry. -/
theorem W4_v26 (c : Dev nD) : Gen.W4 (F := Ideal) m ρ c (Proc.devRef .tc main_v26) = Gen.W1 (F := Ideal) m ρ c (Proc.devRef .tc main_v26) :=
  (show Gen.W4 (F := Ideal) m ρ c (Proc.devRef .tc main_v26) = Gen.W3 (F := Ideal) m ρ c (Proc.devRef .tc main_v26) from Gen.W4_of_ne m ρ c main_v26 (by decide)).trans (W3_v26 m ρ c)

/-- Relation 0's self-loop weights at boundary 5: as at the first region's entry. -/
theorem W5_v26 (c : Dev nD) : Gen.W5 (F := Ideal) m ρ c (Proc.devRef .tc main_v26) = Gen.W1 (F := Ideal) m ρ c (Proc.devRef .tc main_v26) :=
  (show Gen.W5 (F := Ideal) m ρ c (Proc.devRef .tc main_v26) = Gen.W4 (F := Ideal) m ρ c (Proc.devRef .tc main_v26) from by host_keep Gen.hostOps2 main_v26).trans (W4_v26 m ρ c)

/-- Relation 0's self-loop weights at boundary 6: as at the first region's entry. -/
theorem W6_v26 (c : Dev nD) : Gen.W6 (F := Ideal) m ρ c (Proc.devRef .tc main_v26) = Gen.W1 (F := Ideal) m ρ c (Proc.devRef .tc main_v26) :=
  (show Gen.W6 (F := Ideal) m ρ c (Proc.devRef .tc main_v26) = Gen.W5 (F := Ideal) m ρ c (Proc.devRef .tc main_v26) from Gen.W6_of_ne m ρ c main_v26 (by decide)).trans (W5_v26 m ρ c)

/-- Relation 0's self-loop weights at boundary 7: as at the first region's entry. -/
theorem W7_v26 (c : Dev nD) : Gen.W7 (F := Ideal) m ρ c (Proc.devRef .tc main_v26) = Gen.W1 (F := Ideal) m ρ c (Proc.devRef .tc main_v26) :=
  (show Gen.W7 (F := Ideal) m ρ c (Proc.devRef .tc main_v26) = Gen.W6 (F := Ideal) m ρ c (Proc.devRef .tc main_v26) from by host_keep Gen.hostOps3 main_v26).trans (W6_v26 m ρ c)

/-- Relation 0's self-loop weights at boundary 8: as at the first region's entry. -/
theorem W8_v26 (c : Dev nD) : Gen.W8 (F := Ideal) m ρ c (Proc.devRef .tc main_v26) = Gen.W1 (F := Ideal) m ρ c (Proc.devRef .tc main_v26) :=
  (show Gen.W8 (F := Ideal) m ρ c (Proc.devRef .tc main_v26) = Gen.W7 (F := Ideal) m ρ c (Proc.devRef .tc main_v26) from Gen.W8_of_ne m ρ c main_v26 (by decide)).trans (W7_v26 m ρ c)

/-- Relation 0's self-loop weights at boundary 9: as at the first region's entry. -/
theorem W9_v26 (c : Dev nD) : Gen.W9 (F := Ideal) m ρ c (Proc.devRef .tc main_v26) = Gen.W1 (F := Ideal) m ρ c (Proc.devRef .tc main_v26) :=
  (show Gen.W9 (F := Ideal) m ρ c (Proc.devRef .tc main_v26) = Gen.W8 (F := Ideal) m ρ c (Proc.devRef .tc main_v26) from by host_keep Gen.hostOps4 main_v26).trans (W8_v26 m ρ c)

/-- Relation 0's self-loop weights at boundary 10: as at the first region's entry. -/
theorem W10_v26 (c : Dev nD) : Gen.W10 (F := Ideal) m ρ c (Proc.devRef .tc main_v26) = Gen.W1 (F := Ideal) m ρ c (Proc.devRef .tc main_v26) :=
  (show Gen.W10 (F := Ideal) m ρ c (Proc.devRef .tc main_v26) = Gen.W9 (F := Ideal) m ρ c (Proc.devRef .tc main_v26) from Gen.W10_of_ne m ρ c main_v26 (by decide)).trans (W9_v26 m ρ c)

/-- Relation 0's self-loop weights at boundary 11: as at the first region's entry. -/
theorem W11_v26 (c : Dev nD) : Gen.W11 (F := Ideal) m ρ c (Proc.devRef .tc main_v26) = Gen.W1 (F := Ideal) m ρ c (Proc.devRef .tc main_v26) :=
  (show Gen.W11 (F := Ideal) m ρ c (Proc.devRef .tc main_v26) = Gen.W10 (F := Ideal) m ρ c (Proc.devRef .tc main_v26) from by host_keep Gen.hostOps5 main_v26).trans (W10_v26 m ρ c)

/-- Relation 0's self-loop weights at boundary 12: as at the first region's entry. -/
theorem W12_v26 (c : Dev nD) : Gen.W12 (F := Ideal) m ρ c (Proc.devRef .tc main_v26) = Gen.W1 (F := Ideal) m ρ c (Proc.devRef .tc main_v26) :=
  (show Gen.W12 (F := Ideal) m ρ c (Proc.devRef .tc main_v26) = Gen.W11 (F := Ideal) m ρ c (Proc.devRef .tc main_v26) from Gen.W12_of_ne m ρ c main_v26 (by decide)).trans (W11_v26 m ρ c)

end Cert.KernelIdeal.Fold

end
-- ==== Proof.FoldCarry1.lean ====
/-
  Relation 1's edge data through the program's segments. The first host stretch computes, for relation 1, the
  source list, the target list, the edge weights dis[s] · dis[d] and the self-loop weights dis²; both layers use them.
  Between the first region's entry and their last use no host operation writes these four arrays and no region has one
  of them as a window, so at each boundary they hold what they held at the first region's entry. One lemma per array
  and boundary, each one segment further than the one before.
-/
import proofs.«140704_j79388175499709_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! Relation 1's edge lists and weights, computed by the first host stretch, are not written again: at every later
    boundary up to their last use they hold what they held at the first region's entry. -/

/-- Relation 1's source list at boundary 2: as at the first region's entry. -/
theorem W2_v28 (c : Dev nD) : Gen.W2 (F := Ideal) m ρ c (Proc.devRef .tc main_v28) = Gen.W1 (F := Ideal) m ρ c (Proc.devRef .tc main_v28) :=
  Gen.W2_of_ne m ρ c main_v28 (by decide)

/-- Relation 1's source list at boundary 3: as at the first region's entry. -/
theorem W3_v28 (c : Dev nD) : Gen.W3 (F := Ideal) m ρ c (Proc.devRef .tc main_v28) = Gen.W1 (F := Ideal) m ρ c (Proc.devRef .tc main_v28) :=
  (show Gen.W3 (F := Ideal) m ρ c (Proc.devRef .tc main_v28) = Gen.W2 (F := Ideal) m ρ c (Proc.devRef .tc main_v28) from by host_keep Gen.hostOps1 main_v28).trans (W2_v28 m ρ c)

/-- Relation 1's source list at boundary 4: as at the first region's entry. -/
theorem W4_v28 (c : Dev nD) : Gen.W4 (F := Ideal) m ρ c (Proc.devRef .tc main_v28) = Gen.W1 (F := Ideal) m ρ c (Proc.devRef .tc main_v28) :=
  (show Gen.W4 (F := Ideal) m ρ c (Proc.devRef .tc main_v28) = Gen.W3 (F := Ideal) m ρ c (Proc.devRef .tc main_v28) from Gen.W4_of_ne m ρ c main_v28 (by decide)).trans (W3_v28 m ρ c)

/-- Relation 1's source list at boundary 5: as at the first region's entry. -/
theorem W5_v28 (c : Dev nD) : Gen.W5 (F := Ideal) m ρ c (Proc.devRef .tc main_v28) = Gen.W1 (F := Ideal) m ρ c (Proc.devRef .tc main_v28) :=
  (show Gen.W5 (F := Ideal) m ρ c (Proc.devRef .tc main_v28) = Gen.W4 (F := Ideal) m ρ c (Proc.devRef .tc main_v28) from by host_keep Gen.hostOps2 main_v28).trans (W4_v28 m ρ c)

/-- Relation 1's source list at boundary 6: as at the first region's entry. -/
theorem W6_v28 (c : Dev nD) : Gen.W6 (F := Ideal) m ρ c (Proc.devRef .tc main_v28) = Gen.W1 (F := Ideal) m ρ c (Proc.devRef .tc main_v28) :=
  (show Gen.W6 (F := Ideal) m ρ c (Proc.devRef .tc main_v28) = Gen.W5 (F := Ideal) m ρ c (Proc.devRef .tc main_v28) from Gen.W6_of_ne m ρ c main_v28 (by decide)).trans (W5_v28 m ρ c)

/-- Relation 1's source list at boundary 7: as at the first region's entry. -/
theorem W7_v28 (c : Dev nD) : Gen.W7 (F := Ideal) m ρ c (Proc.devRef .tc main_v28) = Gen.W1 (F := Ideal) m ρ c (Proc.devRef .tc main_v28) :=
  (show Gen.W7 (F := Ideal) m ρ c (Proc.devRef .tc main_v28) = Gen.W6 (F := Ideal) m ρ c (Proc.devRef .tc main_v28) from by host_keep Gen.hostOps3 main_v28).trans (W6_v28 m ρ c)

/-- Relation 1's source list at boundary 8: as at the first region's entry. -/
theorem W8_v28 (c : Dev nD) : Gen.W8 (F := Ideal) m ρ c (Proc.devRef .tc main_v28) = Gen.W1 (F := Ideal) m ρ c (Proc.devRef .tc main_v28) :=
  (show Gen.W8 (F := Ideal) m ρ c (Proc.devRef .tc main_v28) = Gen.W7 (F := Ideal) m ρ c (Proc.devRef .tc main_v28) from Gen.W8_of_ne m ρ c main_v28 (by decide)).trans (W7_v28 m ρ c)

/-- Relation 1's source list at boundary 9: as at the first region's entry. -/
theorem W9_v28 (c : Dev nD) : Gen.W9 (F := Ideal) m ρ c (Proc.devRef .tc main_v28) = Gen.W1 (F := Ideal) m ρ c (Proc.devRef .tc main_v28) :=
  (show Gen.W9 (F := Ideal) m ρ c (Proc.devRef .tc main_v28) = Gen.W8 (F := Ideal) m ρ c (Proc.devRef .tc main_v28) from by host_keep Gen.hostOps4 main_v28).trans (W8_v28 m ρ c)

/-- Relation 1's source list at boundary 10: as at the first region's entry. -/
theorem W10_v28 (c : Dev nD) : Gen.W10 (F := Ideal) m ρ c (Proc.devRef .tc main_v28) = Gen.W1 (F := Ideal) m ρ c (Proc.devRef .tc main_v28) :=
  (show Gen.W10 (F := Ideal) m ρ c (Proc.devRef .tc main_v28) = Gen.W9 (F := Ideal) m ρ c (Proc.devRef .tc main_v28) from Gen.W10_of_ne m ρ c main_v28 (by decide)).trans (W9_v28 m ρ c)

/-- Relation 1's source list at boundary 11: as at the first region's entry. -/
theorem W11_v28 (c : Dev nD) : Gen.W11 (F := Ideal) m ρ c (Proc.devRef .tc main_v28) = Gen.W1 (F := Ideal) m ρ c (Proc.devRef .tc main_v28) :=
  (show Gen.W11 (F := Ideal) m ρ c (Proc.devRef .tc main_v28) = Gen.W10 (F := Ideal) m ρ c (Proc.devRef .tc main_v28) from by host_keep Gen.hostOps5 main_v28).trans (W10_v28 m ρ c)

/-- Relation 1's source list at boundary 12: as at the first region's entry. -/
theorem W12_v28 (c : Dev nD) : Gen.W12 (F := Ideal) m ρ c (Proc.devRef .tc main_v28) = Gen.W1 (F := Ideal) m ρ c (Proc.devRef .tc main_v28) :=
  (show Gen.W12 (F := Ideal) m ρ c (Proc.devRef .tc main_v28) = Gen.W11 (F := Ideal) m ρ c (Proc.devRef .tc main_v28) from Gen.W12_of_ne m ρ c main_v28 (by decide)).trans (W11_v28 m ρ c)

/-- Relation 1's source list at boundary 13: as at the first region's entry. -/
theorem W13_v28 (c : Dev nD) : Gen.W13 (F := Ideal) m ρ c (Proc.devRef .tc main_v28) = Gen.W1 (F := Ideal) m ρ c (Proc.devRef .tc main_v28) :=
  (show Gen.W13 (F := Ideal) m ρ c (Proc.devRef .tc main_v28) = Gen.W12 (F := Ideal) m ρ c (Proc.devRef .tc main_v28) from by host_keep Gen.hostOps6 main_v28).trans (W12_v28 m ρ c)

/-- Relation 1's source list at boundary 14: as at the first region's entry. -/
theorem W14_v28 (c : Dev nD) : Gen.W14 (F := Ideal) m ρ c (Proc.devRef .tc main_v28) = Gen.W1 (F := Ideal) m ρ c (Proc.devRef .tc main_v28) :=
  (show Gen.W14 (F := Ideal) m ρ c (Proc.devRef .tc main_v28) = Gen.W13 (F := Ideal) m ρ c (Proc.devRef .tc main_v28) from Gen.W14_of_ne m ρ c main_v28 (by decide)).trans (W13_v28 m ρ c)

/-- Relation 1's target list at boundary 2: as at the first region's entry. -/
theorem W2_v30 (c : Dev nD) : Gen.W2 (F := Ideal) m ρ c (Proc.devRef .tc main_v30) = Gen.W1 (F := Ideal) m ρ c (Proc.devRef .tc main_v30) :=
  Gen.W2_of_ne m ρ c main_v30 (by decide)

/-- Relation 1's target list at boundary 3: as at the first region's entry. -/
theorem W3_v30 (c : Dev nD) : Gen.W3 (F := Ideal) m ρ c (Proc.devRef .tc main_v30) = Gen.W1 (F := Ideal) m ρ c (Proc.devRef .tc main_v30) :=
  (show Gen.W3 (F := Ideal) m ρ c (Proc.devRef .tc main_v30) = Gen.W2 (F := Ideal) m ρ c (Proc.devRef .tc main_v30) from by host_keep Gen.hostOps1 main_v30).trans (W2_v30 m ρ c)

/-- Relation 1's target list at boundary 4: as at the first region's entry. -/
theorem W4_v30 (c : Dev nD) : Gen.W4 (F := Ideal) m ρ c (Proc.devRef .tc main_v30) = Gen.W1 (F := Ideal) m ρ c (Proc.devRef .tc main_v30) :=
  (show Gen.W4 (F := Ideal) m ρ c (Proc.devRef .tc main_v30) = Gen.W3 (F := Ideal) m ρ c (Proc.devRef .tc main_v30) from Gen.W4_of_ne m ρ c main_v30 (by decide)).trans (W3_v30 m ρ c)

/-- Relation 1's target list at boundary 5: as at the first region's entry. -/
theorem W5_v30 (c : Dev nD) : Gen.W5 (F := Ideal) m ρ c (Proc.devRef .tc main_v30) = Gen.W1 (F := Ideal) m ρ c (Proc.devRef .tc main_v30) :=
  (show Gen.W5 (F := Ideal) m ρ c (Proc.devRef .tc main_v30) = Gen.W4 (F := Ideal) m ρ c (Proc.devRef .tc main_v30) from by host_keep Gen.hostOps2 main_v30).trans (W4_v30 m ρ c)

/-- Relation 1's target list at boundary 6: as at the first region's entry. -/
theorem W6_v30 (c : Dev nD) : Gen.W6 (F := Ideal) m ρ c (Proc.devRef .tc main_v30) = Gen.W1 (F := Ideal) m ρ c (Proc.devRef .tc main_v30) :=
  (show Gen.W6 (F := Ideal) m ρ c (Proc.devRef .tc main_v30) = Gen.W5 (F := Ideal) m ρ c (Proc.devRef .tc main_v30) from Gen.W6_of_ne m ρ c main_v30 (by decide)).trans (W5_v30 m ρ c)

/-- Relation 1's target list at boundary 7: as at the first region's entry. -/
theorem W7_v30 (c : Dev nD) : Gen.W7 (F := Ideal) m ρ c (Proc.devRef .tc main_v30) = Gen.W1 (F := Ideal) m ρ c (Proc.devRef .tc main_v30) :=
  (show Gen.W7 (F := Ideal) m ρ c (Proc.devRef .tc main_v30) = Gen.W6 (F := Ideal) m ρ c (Proc.devRef .tc main_v30) from by host_keep Gen.hostOps3 main_v30).trans (W6_v30 m ρ c)

/-- Relation 1's target list at boundary 8: as at the first region's entry. -/
theorem W8_v30 (c : Dev nD) : Gen.W8 (F := Ideal) m ρ c (Proc.devRef .tc main_v30) = Gen.W1 (F := Ideal) m ρ c (Proc.devRef .tc main_v30) :=
  (show Gen.W8 (F := Ideal) m ρ c (Proc.devRef .tc main_v30) = Gen.W7 (F := Ideal) m ρ c (Proc.devRef .tc main_v30) from Gen.W8_of_ne m ρ c main_v30 (by decide)).trans (W7_v30 m ρ c)

/-- Relation 1's target list at boundary 9: as at the first region's entry. -/
theorem W9_v30 (c : Dev nD) : Gen.W9 (F := Ideal) m ρ c (Proc.devRef .tc main_v30) = Gen.W1 (F := Ideal) m ρ c (Proc.devRef .tc main_v30) :=
  (show Gen.W9 (F := Ideal) m ρ c (Proc.devRef .tc main_v30) = Gen.W8 (F := Ideal) m ρ c (Proc.devRef .tc main_v30) from by host_keep Gen.hostOps4 main_v30).trans (W8_v30 m ρ c)

/-- Relation 1's target list at boundary 10: as at the first region's entry. -/
theorem W10_v30 (c : Dev nD) : Gen.W10 (F := Ideal) m ρ c (Proc.devRef .tc main_v30) = Gen.W1 (F := Ideal) m ρ c (Proc.devRef .tc main_v30) :=
  (show Gen.W10 (F := Ideal) m ρ c (Proc.devRef .tc main_v30) = Gen.W9 (F := Ideal) m ρ c (Proc.devRef .tc main_v30) from Gen.W10_of_ne m ρ c main_v30 (by decide)).trans (W9_v30 m ρ c)

/-- Relation 1's target list at boundary 11: as at the first region's entry. -/
theorem W11_v30 (c : Dev nD) : Gen.W11 (F := Ideal) m ρ c (Proc.devRef .tc main_v30) = Gen.W1 (F := Ideal) m ρ c (Proc.devRef .tc main_v30) :=
  (show Gen.W11 (F := Ideal) m ρ c (Proc.devRef .tc main_v30) = Gen.W10 (F := Ideal) m ρ c (Proc.devRef .tc main_v30) from by host_keep Gen.hostOps5 main_v30).trans (W10_v30 m ρ c)

/-- Relation 1's target list at boundary 12: as at the first region's entry. -/
theorem W12_v30 (c : Dev nD) : Gen.W12 (F := Ideal) m ρ c (Proc.devRef .tc main_v30) = Gen.W1 (F := Ideal) m ρ c (Proc.devRef .tc main_v30) :=
  (show Gen.W12 (F := Ideal) m ρ c (Proc.devRef .tc main_v30) = Gen.W11 (F := Ideal) m ρ c (Proc.devRef .tc main_v30) from Gen.W12_of_ne m ρ c main_v30 (by decide)).trans (W11_v30 m ρ c)

/-- Relation 1's target list at boundary 13: as at the first region's entry. -/
theorem W13_v30 (c : Dev nD) : Gen.W13 (F := Ideal) m ρ c (Proc.devRef .tc main_v30) = Gen.W1 (F := Ideal) m ρ c (Proc.devRef .tc main_v30) :=
  (show Gen.W13 (F := Ideal) m ρ c (Proc.devRef .tc main_v30) = Gen.W12 (F := Ideal) m ρ c (Proc.devRef .tc main_v30) from by host_keep Gen.hostOps6 main_v30).trans (W12_v30 m ρ c)

/-- Relation 1's target list at boundary 14: as at the first region's entry. -/
theorem W14_v30 (c : Dev nD) : Gen.W14 (F := Ideal) m ρ c (Proc.devRef .tc main_v30) = Gen.W1 (F := Ideal) m ρ c (Proc.devRef .tc main_v30) :=
  (show Gen.W14 (F := Ideal) m ρ c (Proc.devRef .tc main_v30) = Gen.W13 (F := Ideal) m ρ c (Proc.devRef .tc main_v30) from Gen.W14_of_ne m ρ c main_v30 (by decide)).trans (W13_v30 m ρ c)

/-- Relation 1's edge weights at boundary 2: as at the first region's entry. -/
theorem W2_v52 (c : Dev nD) : Gen.W2 (F := Ideal) m ρ c (Proc.devRef .tc main_v52) = Gen.W1 (F := Ideal) m ρ c (Proc.devRef .tc main_v52) :=
  Gen.W2_of_ne m ρ c main_v52 (by decide)

/-- Relation 1's edge weights at boundary 3: as at the first region's entry. -/
theorem W3_v52 (c : Dev nD) : Gen.W3 (F := Ideal) m ρ c (Proc.devRef .tc main_v52) = Gen.W1 (F := Ideal) m ρ c (Proc.devRef .tc main_v52) :=
  (show Gen.W3 (F := Ideal) m ρ c (Proc.devRef .tc main_v52) = Gen.W2 (F := Ideal) m ρ c (Proc.devRef .tc main_v52) from by host_keep Gen.hostOps1 main_v52).trans (W2_v52 m ρ c)

/-- Relation 1's edge weights at boundary 4: as at the first region's entry. -/
theorem W4_v52 (c : Dev nD) : Gen.W4 (F := Ideal) m ρ c (Proc.devRef .tc main_v52) = Gen.W1 (F := Ideal) m ρ c (Proc.devRef .tc main_v52) :=
  (show Gen.W4 (F := Ideal) m ρ c (Proc.devRef .tc main_v52) = Gen.W3 (F := Ideal) m ρ c (Proc.devRef .tc main_v52) from Gen.W4_of_ne m ρ c main_v52 (by decide)).trans (W3_v52 m ρ c)

/-- Relation 1's edge weights at boundary 5: as at the first region's entry. -/
theorem W5_v52 (c : Dev nD) : Gen.W5 (F := Ideal) m ρ c (Proc.devRef .tc main_v52) = Gen.W1 (F := Ideal) m ρ c (Proc.devRef .tc main_v52) :=
  (show Gen.W5 (F := Ideal) m ρ c (Proc.devRef .tc main_v52) = Gen.W4 (F := Ideal) m ρ c (Proc.devRef .tc main_v52) from by host_keep Gen.hostOps2 main_v52).trans (W4_v52 m ρ c)

/-- Relation 1's edge weights at boundary 6: as at the first region's entry. -/
theorem W6_v52 (c : Dev nD) : Gen.W6 (F := Ideal) m ρ c (Proc.devRef .tc main_v52) = Gen.W1 (F := Ideal) m ρ c (Proc.devRef .tc main_v52) :=
  (show Gen.W6 (F := Ideal) m ρ c (Proc.devRef .tc main_v52) = Gen.W5 (F := Ideal) m ρ c (Proc.devRef .tc main_v52) from Gen.W6_of_ne m ρ c main_v52 (by decide)).trans (W5_v52 m ρ c)

/-- Relation 1's edge weights at boundary 7: as at the first region's entry. -/
theorem W7_v52 (c : Dev nD) : Gen.W7 (F := Ideal) m ρ c (Proc.devRef .tc main_v52) = Gen.W1 (F := Ideal) m ρ c (Proc.devRef .tc main_v52) :=
  (show Gen.W7 (F := Ideal) m ρ c (Proc.devRef .tc main_v52) = Gen.W6 (F := Ideal) m ρ c (Proc.devRef .tc main_v52) from by host_keep Gen.hostOps3 main_v52).trans (W6_v52 m ρ c)

/-- Relation 1's edge weights at boundary 8: as at the first region's entry. -/
theorem W8_v52 (c : Dev nD) : Gen.W8 (F := Ideal) m ρ c (Proc.devRef .tc main_v52) = Gen.W1 (F := Ideal) m ρ c (Proc.devRef .tc main_v52) :=
  (show Gen.W8 (F := Ideal) m ρ c (Proc.devRef .tc main_v52) = Gen.W7 (F := Ideal) m ρ c (Proc.devRef .tc main_v52) from Gen.W8_of_ne m ρ c main_v52 (by decide)).trans (W7_v52 m ρ c)

/-- Relation 1's edge weights at boundary 9: as at the first region's entry. -/
theorem W9_v52 (c : Dev nD) : Gen.W9 (F := Ideal) m ρ c (Proc.devRef .tc main_v52) = Gen.W1 (F := Ideal) m ρ c (Proc.devRef .tc main_v52) :=
  (show Gen.W9 (F := Ideal) m ρ c (Proc.devRef .tc main_v52) = Gen.W8 (F := Ideal) m ρ c (Proc.devRef .tc main_v52) from by host_keep Gen.hostOps4 main_v52).trans (W8_v52 m ρ c)

/-- Relation 1's edge weights at boundary 10: as at the first region's entry. -/
theorem W10_v52 (c : Dev nD) : Gen.W10 (F := Ideal) m ρ c (Proc.devRef .tc main_v52) = Gen.W1 (F := Ideal) m ρ c (Proc.devRef .tc main_v52) :=
  (show Gen.W10 (F := Ideal) m ρ c (Proc.devRef .tc main_v52) = Gen.W9 (F := Ideal) m ρ c (Proc.devRef .tc main_v52) from Gen.W10_of_ne m ρ c main_v52 (by decide)).trans (W9_v52 m ρ c)

/-- Relation 1's edge weights at boundary 11: as at the first region's entry. -/
theorem W11_v52 (c : Dev nD) : Gen.W11 (F := Ideal) m ρ c (Proc.devRef .tc main_v52) = Gen.W1 (F := Ideal) m ρ c (Proc.devRef .tc main_v52) :=
  (show Gen.W11 (F := Ideal) m ρ c (Proc.devRef .tc main_v52) = Gen.W10 (F := Ideal) m ρ c (Proc.devRef .tc main_v52) from by host_keep Gen.hostOps5 main_v52).trans (W10_v52 m ρ c)

/-- Relation 1's edge weights at boundary 12: as at the first region's entry. -/
theorem W12_v52 (c : Dev nD) : Gen.W12 (F := Ideal) m ρ c (Proc.devRef .tc main_v52) = Gen.W1 (F := Ideal) m ρ c (Proc.devRef .tc main_v52) :=
  (show Gen.W12 (F := Ideal) m ρ c (Proc.devRef .tc main_v52) = Gen.W11 (F := Ideal) m ρ c (Proc.devRef .tc main_v52) from Gen.W12_of_ne m ρ c main_v52 (by decide)).trans (W11_v52 m ρ c)

/-- Relation 1's edge weights at boundary 13: as at the first region's entry. -/
theorem W13_v52 (c : Dev nD) : Gen.W13 (F := Ideal) m ρ c (Proc.devRef .tc main_v52) = Gen.W1 (F := Ideal) m ρ c (Proc.devRef .tc main_v52) :=
  (show Gen.W13 (F := Ideal) m ρ c (Proc.devRef .tc main_v52) = Gen.W12 (F := Ideal) m ρ c (Proc.devRef .tc main_v52) from by host_keep Gen.hostOps6 main_v52).trans (W12_v52 m ρ c)

/-- Relation 1's edge weights at boundary 14: as at the first region's entry. -/
theorem W14_v52 (c : Dev nD) : Gen.W14 (F := Ideal) m ρ c (Proc.devRef .tc main_v52) = Gen.W1 (F := Ideal) m ρ c (Proc.devRef .tc main_v52) :=
  (show Gen.W14 (F := Ideal) m ρ c (Proc.devRef .tc main_v52) = Gen.W13 (F := Ideal) m ρ c (Proc.devRef .tc main_v52) from Gen.W14_of_ne m ρ c main_v52 (by decide)).trans (W13_v52 m ρ c)

/-- Relation 1's self-loop weights at boundary 2: as at the first region's entry. -/
theorem W2_v53 (c : Dev nD) : Gen.W2 (F := Ideal) m ρ c (Proc.devRef .tc main_v53) = Gen.W1 (F := Ideal) m ρ c (Proc.devRef .tc main_v53) :=
  Gen.W2_of_ne m ρ c main_v53 (by decide)

/-- Relation 1's self-loop weights at boundary 3: as at the first region's entry. -/
theorem W3_v53 (c : Dev nD) : Gen.W3 (F := Ideal) m ρ c (Proc.devRef .tc main_v53) = Gen.W1 (F := Ideal) m ρ c (Proc.devRef .tc main_v53) :=
  (show Gen.W3 (F := Ideal) m ρ c (Proc.devRef .tc main_v53) = Gen.W2 (F := Ideal) m ρ c (Proc.devRef .tc main_v53) from by host_keep Gen.hostOps1 main_v53).trans (W2_v53 m ρ c)

/-- Relation 1's self-loop weights at boundary 4: as at the first region's entry. -/
theorem W4_v53 (c : Dev nD) : Gen.W4 (F := Ideal) m ρ c (Proc.devRef .tc main_v53) = Gen.W1 (F := Ideal) m ρ c (Proc.devRef .tc main_v53) :=
  (show Gen.W4 (F := Ideal) m ρ c (Proc.devRef .tc main_v53) = Gen.W3 (F := Ideal) m ρ c (Proc.devRef .tc main_v53) from Gen.W4_of_ne m ρ c main_v53 (by decide)).trans (W3_v53 m ρ c)

/-- Relation 1's self-loop weights at boundary 5: as at the first region's entry. -/
theorem W5_v53 (c : Dev nD) : Gen.W5 (F := Ideal) m ρ c (Proc.devRef .tc main_v53) = Gen.W1 (F := Ideal) m ρ c (Proc.devRef .tc main_v53) :=
  (show Gen.W5 (F := Ideal) m ρ c (Proc.devRef .tc main_v53) = Gen.W4 (F := Ideal) m ρ c (Proc.devRef .tc main_v53) from by host_keep Gen.hostOps2 main_v53).trans (W4_v53 m ρ c)

/-- Relation 1's self-loop weights at boundary 6: as at the first region's entry. -/
theorem W6_v53 (c : Dev nD) : Gen.W6 (F := Ideal) m ρ c (Proc.devRef .tc main_v53) = Gen.W1 (F := Ideal) m ρ c (Proc.devRef .tc main_v53) :=
  (show Gen.W6 (F := Ideal) m ρ c (Proc.devRef .tc main_v53) = Gen.W5 (F := Ideal) m ρ c (Proc.devRef .tc main_v53) from Gen.W6_of_ne m ρ c main_v53 (by decide)).trans (W5_v53 m ρ c)

/-- Relation 1's self-loop weights at boundary 7: as at the first region's entry. -/
theorem W7_v53 (c : Dev nD) : Gen.W7 (F := Ideal) m ρ c (Proc.devRef .tc main_v53) = Gen.W1 (F := Ideal) m ρ c (Proc.devRef .tc main_v53) :=
  (show Gen.W7 (F := Ideal) m ρ c (Proc.devRef .tc main_v53) = Gen.W6 (F := Ideal) m ρ c (Proc.devRef .tc main_v53) from by host_keep Gen.hostOps3 main_v53).trans (W6_v53 m ρ c)

/-- Relation 1's self-loop weights at boundary 8: as at the first region's entry. -/
theorem W8_v53 (c : Dev nD) : Gen.W8 (F := Ideal) m ρ c (Proc.devRef .tc main_v53) = Gen.W1 (F := Ideal) m ρ c (Proc.devRef .tc main_v53) :=
  (show Gen.W8 (F := Ideal) m ρ c (Proc.devRef .tc main_v53) = Gen.W7 (F := Ideal) m ρ c (Proc.devRef .tc main_v53) from Gen.W8_of_ne m ρ c main_v53 (by decide)).trans (W7_v53 m ρ c)

/-- Relation 1's self-loop weights at boundary 9: as at the first region's entry. -/
theorem W9_v53 (c : Dev nD) : Gen.W9 (F := Ideal) m ρ c (Proc.devRef .tc main_v53) = Gen.W1 (F := Ideal) m ρ c (Proc.devRef .tc main_v53) :=
  (show Gen.W9 (F := Ideal) m ρ c (Proc.devRef .tc main_v53) = Gen.W8 (F := Ideal) m ρ c (Proc.devRef .tc main_v53) from by host_keep Gen.hostOps4 main_v53).trans (W8_v53 m ρ c)

/-- Relation 1's self-loop weights at boundary 10: as at the first region's entry. -/
theorem W10_v53 (c : Dev nD) : Gen.W10 (F := Ideal) m ρ c (Proc.devRef .tc main_v53) = Gen.W1 (F := Ideal) m ρ c (Proc.devRef .tc main_v53) :=
  (show Gen.W10 (F := Ideal) m ρ c (Proc.devRef .tc main_v53) = Gen.W9 (F := Ideal) m ρ c (Proc.devRef .tc main_v53) from Gen.W10_of_ne m ρ c main_v53 (by decide)).trans (W9_v53 m ρ c)

/-- Relation 1's self-loop weights at boundary 11: as at the first region's entry. -/
theorem W11_v53 (c : Dev nD) : Gen.W11 (F := Ideal) m ρ c (Proc.devRef .tc main_v53) = Gen.W1 (F := Ideal) m ρ c (Proc.devRef .tc main_v53) :=
  (show Gen.W11 (F := Ideal) m ρ c (Proc.devRef .tc main_v53) = Gen.W10 (F := Ideal) m ρ c (Proc.devRef .tc main_v53) from by host_keep Gen.hostOps5 main_v53).trans (W10_v53 m ρ c)

/-- Relation 1's self-loop weights at boundary 12: as at the first region's entry. -/
theorem W12_v53 (c : Dev nD) : Gen.W12 (F := Ideal) m ρ c (Proc.devRef .tc main_v53) = Gen.W1 (F := Ideal) m ρ c (Proc.devRef .tc main_v53) :=
  (show Gen.W12 (F := Ideal) m ρ c (Proc.devRef .tc main_v53) = Gen.W11 (F := Ideal) m ρ c (Proc.devRef .tc main_v53) from Gen.W12_of_ne m ρ c main_v53 (by decide)).trans (W11_v53 m ρ c)

/-- Relation 1's self-loop weights at boundary 13: as at the first region's entry. -/
theorem W13_v53 (c : Dev nD) : Gen.W13 (F := Ideal) m ρ c (Proc.devRef .tc main_v53) = Gen.W1 (F := Ideal) m ρ c (Proc.devRef .tc main_v53) :=
  (show Gen.W13 (F := Ideal) m ρ c (Proc.devRef .tc main_v53) = Gen.W12 (F := Ideal) m ρ c (Proc.devRef .tc main_v53) from by host_keep Gen.hostOps6 main_v53).trans (W12_v53 m ρ c)

/-- Relation 1's self-loop weights at boundary 14: as at the first region's entry. -/
theorem W14_v53 (c : Dev nD) : Gen.W14 (F := Ideal) m ρ c (Proc.devRef .tc main_v53) = Gen.W1 (F := Ideal) m ρ c (Proc.devRef .tc main_v53) :=
  (show Gen.W14 (F := Ideal) m ρ c (Proc.devRef .tc main_v53) = Gen.W13 (F := Ideal) m ρ c (Proc.devRef .tc main_v53) from Gen.W14_of_ne m ρ c main_v53 (by decide)).trans (W13_v53 m ρ c)

end Cert.KernelIdeal.Fold

end
-- ==== Proof.FoldCarry2.lean ====
/-
  Relation 2's edge data through the program's segments. The first host stretch computes, for relation 2, the
  source list, the target list, the edge weights dis[s] · dis[d] and the self-loop weights dis²; both layers use them.
  Between the first region's entry and their last use no host operation writes these four arrays and no region has one
  of them as a window, so at each boundary they hold what they held at the first region's entry. One lemma per array
  and boundary, each one segment further than the one before.
-/
import proofs.«140704_j79388175499709_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! Relation 2's edge lists and weights, computed by the first host stretch, are not written again: at every later
    boundary up to their last use they hold what they held at the first region's entry. -/

/-- Relation 2's source list at boundary 2: as at the first region's entry. -/
theorem W2_v55 (c : Dev nD) : Gen.W2 (F := Ideal) m ρ c (Proc.devRef .tc main_v55) = Gen.W1 (F := Ideal) m ρ c (Proc.devRef .tc main_v55) :=
  Gen.W2_of_ne m ρ c main_v55 (by decide)

/-- Relation 2's source list at boundary 3: as at the first region's entry. -/
theorem W3_v55 (c : Dev nD) : Gen.W3 (F := Ideal) m ρ c (Proc.devRef .tc main_v55) = Gen.W1 (F := Ideal) m ρ c (Proc.devRef .tc main_v55) :=
  (show Gen.W3 (F := Ideal) m ρ c (Proc.devRef .tc main_v55) = Gen.W2 (F := Ideal) m ρ c (Proc.devRef .tc main_v55) from by host_keep Gen.hostOps1 main_v55).trans (W2_v55 m ρ c)

/-- Relation 2's source list at boundary 4: as at the first region's entry. -/
theorem W4_v55 (c : Dev nD) : Gen.W4 (F := Ideal) m ρ c (Proc.devRef .tc main_v55) = Gen.W1 (F := Ideal) m ρ c (Proc.devRef .tc main_v55) :=
  (show Gen.W4 (F := Ideal) m ρ c (Proc.devRef .tc main_v55) = Gen.W3 (F := Ideal) m ρ c (Proc.devRef .tc main_v55) from Gen.W4_of_ne m ρ c main_v55 (by decide)).trans (W3_v55 m ρ c)

/-- Relation 2's source list at boundary 5: as at the first region's entry. -/
theorem W5_v55 (c : Dev nD) : Gen.W5 (F := Ideal) m ρ c (Proc.devRef .tc main_v55) = Gen.W1 (F := Ideal) m ρ c (Proc.devRef .tc main_v55) :=
  (show Gen.W5 (F := Ideal) m ρ c (Proc.devRef .tc main_v55) = Gen.W4 (F := Ideal) m ρ c (Proc.devRef .tc main_v55) from by host_keep Gen.hostOps2 main_v55).trans (W4_v55 m ρ c)

/-- Relation 2's source list at boundary 6: as at the first region's entry. -/
theorem W6_v55 (c : Dev nD) : Gen.W6 (F := Ideal) m ρ c (Proc.devRef .tc main_v55) = Gen.W1 (F := Ideal) m ρ c (Proc.devRef .tc main_v55) :=
  (show Gen.W6 (F := Ideal) m ρ c (Proc.devRef .tc main_v55) = Gen.W5 (F := Ideal) m ρ c (Proc.devRef .tc main_v55) from Gen.W6_of_ne m ρ c main_v55 (by decide)).trans (W5_v55 m ρ c)

/-- Relation 2's source list at boundary 7: as at the first region's entry. -/
theorem W7_v55 (c : Dev nD) : Gen.W7 (F := Ideal) m ρ c (Proc.devRef .tc main_v55) = Gen.W1 (F := Ideal) m ρ c (Proc.devRef .tc main_v55) :=
  (show Gen.W7 (F := Ideal) m ρ c (Proc.devRef .tc main_v55) = Gen.W6 (F := Ideal) m ρ c (Proc.devRef .tc main_v55) from by host_keep Gen.hostOps3 main_v55).trans (W6_v55 m ρ c)

/-- Relation 2's source list at boundary 8: as at the first region's entry. -/
theorem W8_v55 (c : Dev nD) : Gen.W8 (F := Ideal) m ρ c (Proc.devRef .tc main_v55) = Gen.W1 (F := Ideal) m ρ c (Proc.devRef .tc main_v55) :=
  (show Gen.W8 (F := Ideal) m ρ c (Proc.devRef .tc main_v55) = Gen.W7 (F := Ideal) m ρ c (Proc.devRef .tc main_v55) from Gen.W8_of_ne m ρ c main_v55 (by decide)).trans (W7_v55 m ρ c)

/-- Relation 2's source list at boundary 9: as at the first region's entry. -/
theorem W9_v55 (c : Dev nD) : Gen.W9 (F := Ideal) m ρ c (Proc.devRef .tc main_v55) = Gen.W1 (F := Ideal) m ρ c (Proc.devRef .tc main_v55) :=
  (show Gen.W9 (F := Ideal) m ρ c (Proc.devRef .tc main_v55) = Gen.W8 (F := Ideal) m ρ c (Proc.devRef .tc main_v55) from by host_keep Gen.hostOps4 main_v55).trans (W8_v55 m ρ c)

/-- Relation 2's source list at boundary 10: as at the first region's entry. -/
theorem W10_v55 (c : Dev nD) : Gen.W10 (F := Ideal) m ρ c (Proc.devRef .tc main_v55) = Gen.W1 (F := Ideal) m ρ c (Proc.devRef .tc main_v55) :=
  (show Gen.W10 (F := Ideal) m ρ c (Proc.devRef .tc main_v55) = Gen.W9 (F := Ideal) m ρ c (Proc.devRef .tc main_v55) from Gen.W10_of_ne m ρ c main_v55 (by decide)).trans (W9_v55 m ρ c)

/-- Relation 2's source list at boundary 11: as at the first region's entry. -/
theorem W11_v55 (c : Dev nD) : Gen.W11 (F := Ideal) m ρ c (Proc.devRef .tc main_v55) = Gen.W1 (F := Ideal) m ρ c (Proc.devRef .tc main_v55) :=
  (show Gen.W11 (F := Ideal) m ρ c (Proc.devRef .tc main_v55) = Gen.W10 (F := Ideal) m ρ c (Proc.devRef .tc main_v55) from by host_keep Gen.hostOps5 main_v55).trans (W10_v55 m ρ c)

/-- Relation 2's source list at boundary 12: as at the first region's entry. -/
theorem W12_v55 (c : Dev nD) : Gen.W12 (F := Ideal) m ρ c (Proc.devRef .tc main_v55) = Gen.W1 (F := Ideal) m ρ c (Proc.devRef .tc main_v55) :=
  (show Gen.W12 (F := Ideal) m ρ c (Proc.devRef .tc main_v55) = Gen.W11 (F := Ideal) m ρ c (Proc.devRef .tc main_v55) from Gen.W12_of_ne m ρ c main_v55 (by decide)).trans (W11_v55 m ρ c)

/-- Relation 2's source list at boundary 13: as at the first region's entry. -/
theorem W13_v55 (c : Dev nD) : Gen.W13 (F := Ideal) m ρ c (Proc.devRef .tc main_v55) = Gen.W1 (F := Ideal) m ρ c (Proc.devRef .tc main_v55) :=
  (show Gen.W13 (F := Ideal) m ρ c (Proc.devRef .tc main_v55) = Gen.W12 (F := Ideal) m ρ c (Proc.devRef .tc main_v55) from by host_keep Gen.hostOps6 main_v55).trans (W12_v55 m ρ c)

/-- Relation 2's source list at boundary 14: as at the first region's entry. -/
theorem W14_v55 (c : Dev nD) : Gen.W14 (F := Ideal) m ρ c (Proc.devRef .tc main_v55) = Gen.W1 (F := Ideal) m ρ c (Proc.devRef .tc main_v55) :=
  (show Gen.W14 (F := Ideal) m ρ c (Proc.devRef .tc main_v55) = Gen.W13 (F := Ideal) m ρ c (Proc.devRef .tc main_v55) from Gen.W14_of_ne m ρ c main_v55 (by decide)).trans (W13_v55 m ρ c)

/-- Relation 2's source list at boundary 15: as at the first region's entry. -/
theorem W15_v55 (c : Dev nD) : Gen.W15 (F := Ideal) m ρ c (Proc.devRef .tc main_v55) = Gen.W1 (F := Ideal) m ρ c (Proc.devRef .tc main_v55) :=
  (show Gen.W15 (F := Ideal) m ρ c (Proc.devRef .tc main_v55) = Gen.W14 (F := Ideal) m ρ c (Proc.devRef .tc main_v55) from by host_keep Gen.hostOps7 main_v55).trans (W14_v55 m ρ c)

/-- Relation 2's source list at boundary 16: as at the first region's entry. -/
theorem W16_v55 (c : Dev nD) : Gen.W16 (F := Ideal) m ρ c (Proc.devRef .tc main_v55) = Gen.W1 (F := Ideal) m ρ c (Proc.devRef .tc main_v55) :=
  (show Gen.W16 (F := Ideal) m ρ c (Proc.devRef .tc main_v55) = Gen.W15 (F := Ideal) m ρ c (Proc.devRef .tc main_v55) from Gen.W16_of_ne m ρ c main_v55 (by decide)).trans (W15_v55 m ρ c)

/-- Relation 2's target list at boundary 2: as at the first region's entry. -/
theorem W2_v57 (c : Dev nD) : Gen.W2 (F := Ideal) m ρ c (Proc.devRef .tc main_v57) = Gen.W1 (F := Ideal) m ρ c (Proc.devRef .tc main_v57) :=
  Gen.W2_of_ne m ρ c main_v57 (by decide)

/-- Relation 2's target list at boundary 3: as at the first region's entry. -/
theorem W3_v57 (c : Dev nD) : Gen.W3 (F := Ideal) m ρ c (Proc.devRef .tc main_v57) = Gen.W1 (F := Ideal) m ρ c (Proc.devRef .tc main_v57) :=
  (show Gen.W3 (F := Ideal) m ρ c (Proc.devRef .tc main_v57) = Gen.W2 (F := Ideal) m ρ c (Proc.devRef .tc main_v57) from by host_keep Gen.hostOps1 main_v57).trans (W2_v57 m ρ c)

/-- Relation 2's target list at boundary 4: as at the first region's entry. -/
theorem W4_v57 (c : Dev nD) : Gen.W4 (F := Ideal) m ρ c (Proc.devRef .tc main_v57) = Gen.W1 (F := Ideal) m ρ c (Proc.devRef .tc main_v57) :=
  (show Gen.W4 (F := Ideal) m ρ c (Proc.devRef .tc main_v57) = Gen.W3 (F := Ideal) m ρ c (Proc.devRef .tc main_v57) from Gen.W4_of_ne m ρ c main_v57 (by decide)).trans (W3_v57 m ρ c)

/-- Relation 2's target list at boundary 5: as at the first region's entry. -/
theorem W5_v57 (c : Dev nD) : Gen.W5 (F := Ideal) m ρ c (Proc.devRef .tc main_v57) = Gen.W1 (F := Ideal) m ρ c (Proc.devRef .tc main_v57) :=
  (show Gen.W5 (F := Ideal) m ρ c (Proc.devRef .tc main_v57) = Gen.W4 (F := Ideal) m ρ c (Proc.devRef .tc main_v57) from by host_keep Gen.hostOps2 main_v57).trans (W4_v57 m ρ c)

/-- Relation 2's target list at boundary 6: as at the first region's entry. -/
theorem W6_v57 (c : Dev nD) : Gen.W6 (F := Ideal) m ρ c (Proc.devRef .tc main_v57) = Gen.W1 (F := Ideal) m ρ c (Proc.devRef .tc main_v57) :=
  (show Gen.W6 (F := Ideal) m ρ c (Proc.devRef .tc main_v57) = Gen.W5 (F := Ideal) m ρ c (Proc.devRef .tc main_v57) from Gen.W6_of_ne m ρ c main_v57 (by decide)).trans (W5_v57 m ρ c)

/-- Relation 2's target list at boundary 7: as at the first region's entry. -/
theorem W7_v57 (c : Dev nD) : Gen.W7 (F := Ideal) m ρ c (Proc.devRef .tc main_v57) = Gen.W1 (F := Ideal) m ρ c (Proc.devRef .tc main_v57) :=
  (show Gen.W7 (F := Ideal) m ρ c (Proc.devRef .tc main_v57) = Gen.W6 (F := Ideal) m ρ c (Proc.devRef .tc main_v57) from by host_keep Gen.hostOps3 main_v57).trans (W6_v57 m ρ c)

/-- Relation 2's target list at boundary 8: as at the first region's entry. -/
theorem W8_v57 (c : Dev nD) : Gen.W8 (F := Ideal) m ρ c (Proc.devRef .tc main_v57) = Gen.W1 (F := Ideal) m ρ c (Proc.devRef .tc main_v57) :=
  (show Gen.W8 (F := Ideal) m ρ c (Proc.devRef .tc main_v57) = Gen.W7 (F := Ideal) m ρ c (Proc.devRef .tc main_v57) from Gen.W8_of_ne m ρ c main_v57 (by decide)).trans (W7_v57 m ρ c)

/-- Relation 2's target list at boundary 9: as at the first region's entry. -/
theorem W9_v57 (c : Dev nD) : Gen.W9 (F := Ideal) m ρ c (Proc.devRef .tc main_v57) = Gen.W1 (F := Ideal) m ρ c (Proc.devRef .tc main_v57) :=
  (show Gen.W9 (F := Ideal) m ρ c (Proc.devRef .tc main_v57) = Gen.W8 (F := Ideal) m ρ c (Proc.devRef .tc main_v57) from by host_keep Gen.hostOps4 main_v57).trans (W8_v57 m ρ c)

/-- Relation 2's target list at boundary 10: as at the first region's entry. -/
theorem W10_v57 (c : Dev nD) : Gen.W10 (F := Ideal) m ρ c (Proc.devRef .tc main_v57) = Gen.W1 (F := Ideal) m ρ c (Proc.devRef .tc main_v57) :=
  (show Gen.W10 (F := Ideal) m ρ c (Proc.devRef .tc main_v57) = Gen.W9 (F := Ideal) m ρ c (Proc.devRef .tc main_v57) from Gen.W10_of_ne m ρ c main_v57 (by decide)).trans (W9_v57 m ρ c)

/-- Relation 2's target list at boundary 11: as at the first region's entry. -/
theorem W11_v57 (c : Dev nD) : Gen.W11 (F := Ideal) m ρ c (Proc.devRef .tc main_v57) = Gen.W1 (F := Ideal) m ρ c (Proc.devRef .tc main_v57) :=
  (show Gen.W11 (F := Ideal) m ρ c (Proc.devRef .tc main_v57) = Gen.W10 (F := Ideal) m ρ c (Proc.devRef .tc main_v57) from by host_keep Gen.hostOps5 main_v57).trans (W10_v57 m ρ c)

/-- Relation 2's target list at boundary 12: as at the first region's entry. -/
theorem W12_v57 (c : Dev nD) : Gen.W12 (F := Ideal) m ρ c (Proc.devRef .tc main_v57) = Gen.W1 (F := Ideal) m ρ c (Proc.devRef .tc main_v57) :=
  (show Gen.W12 (F := Ideal) m ρ c (Proc.devRef .tc main_v57) = Gen.W11 (F := Ideal) m ρ c (Proc.devRef .tc main_v57) from Gen.W12_of_ne m ρ c main_v57 (by decide)).trans (W11_v57 m ρ c)

/-- Relation 2's target list at boundary 13: as at the first region's entry. -/
theorem W13_v57 (c : Dev nD) : Gen.W13 (F := Ideal) m ρ c (Proc.devRef .tc main_v57) = Gen.W1 (F := Ideal) m ρ c (Proc.devRef .tc main_v57) :=
  (show Gen.W13 (F := Ideal) m ρ c (Proc.devRef .tc main_v57) = Gen.W12 (F := Ideal) m ρ c (Proc.devRef .tc main_v57) from by host_keep Gen.hostOps6 main_v57).trans (W12_v57 m ρ c)

/-- Relation 2's target list at boundary 14: as at the first region's entry. -/
theorem W14_v57 (c : Dev nD) : Gen.W14 (F := Ideal) m ρ c (Proc.devRef .tc main_v57) = Gen.W1 (F := Ideal) m ρ c (Proc.devRef .tc main_v57) :=
  (show Gen.W14 (F := Ideal) m ρ c (Proc.devRef .tc main_v57) = Gen.W13 (F := Ideal) m ρ c (Proc.devRef .tc main_v57) from Gen.W14_of_ne m ρ c main_v57 (by decide)).trans (W13_v57 m ρ c)

/-- Relation 2's target list at boundary 15: as at the first region's entry. -/
theorem W15_v57 (c : Dev nD) : Gen.W15 (F := Ideal) m ρ c (Proc.devRef .tc main_v57) = Gen.W1 (F := Ideal) m ρ c (Proc.devRef .tc main_v57) :=
  (show Gen.W15 (F := Ideal) m ρ c (Proc.devRef .tc main_v57) = Gen.W14 (F := Ideal) m ρ c (Proc.devRef .tc main_v57) from by host_keep Gen.hostOps7 main_v57).trans (W14_v57 m ρ c)

/-- Relation 2's target list at boundary 16: as at the first region's entry. -/
theorem W16_v57 (c : Dev nD) : Gen.W16 (F := Ideal) m ρ c (Proc.devRef .tc main_v57) = Gen.W1 (F := Ideal) m ρ c (Proc.devRef .tc main_v57) :=
  (show Gen.W16 (F := Ideal) m ρ c (Proc.devRef .tc main_v57) = Gen.W15 (F := Ideal) m ρ c (Proc.devRef .tc main_v57) from Gen.W16_of_ne m ρ c main_v57 (by decide)).trans (W15_v57 m ρ c)

/-- Relation 2's edge weights at boundary 2: as at the first region's entry. -/
theorem W2_v79 (c : Dev nD) : Gen.W2 (F := Ideal) m ρ c (Proc.devRef .tc main_v79) = Gen.W1 (F := Ideal) m ρ c (Proc.devRef .tc main_v79) :=
  Gen.W2_of_ne m ρ c main_v79 (by decide)

/-- Relation 2's edge weights at boundary 3: as at the first region's entry. -/
theorem W3_v79 (c : Dev nD) : Gen.W3 (F := Ideal) m ρ c (Proc.devRef .tc main_v79) = Gen.W1 (F := Ideal) m ρ c (Proc.devRef .tc main_v79) :=
  (show Gen.W3 (F := Ideal) m ρ c (Proc.devRef .tc main_v79) = Gen.W2 (F := Ideal) m ρ c (Proc.devRef .tc main_v79) from by host_keep Gen.hostOps1 main_v79).trans (W2_v79 m ρ c)

/-- Relation 2's edge weights at boundary 4: as at the first region's entry. -/
theorem W4_v79 (c : Dev nD) : Gen.W4 (F := Ideal) m ρ c (Proc.devRef .tc main_v79) = Gen.W1 (F := Ideal) m ρ c (Proc.devRef .tc main_v79) :=
  (show Gen.W4 (F := Ideal) m ρ c (Proc.devRef .tc main_v79) = Gen.W3 (F := Ideal) m ρ c (Proc.devRef .tc main_v79) from Gen.W4_of_ne m ρ c main_v79 (by decide)).trans (W3_v79 m ρ c)

/-- Relation 2's edge weights at boundary 5: as at the first region's entry. -/
theorem W5_v79 (c : Dev nD) : Gen.W5 (F := Ideal) m ρ c (Proc.devRef .tc main_v79) = Gen.W1 (F := Ideal) m ρ c (Proc.devRef .tc main_v79) :=
  (show Gen.W5 (F := Ideal) m ρ c (Proc.devRef .tc main_v79) = Gen.W4 (F := Ideal) m ρ c (Proc.devRef .tc main_v79) from by host_keep Gen.hostOps2 main_v79).trans (W4_v79 m ρ c)

/-- Relation 2's edge weights at boundary 6: as at the first region's entry. -/
theorem W6_v79 (c : Dev nD) : Gen.W6 (F := Ideal) m ρ c (Proc.devRef .tc main_v79) = Gen.W1 (F := Ideal) m ρ c (Proc.devRef .tc main_v79) :=
  (show Gen.W6 (F := Ideal) m ρ c (Proc.devRef .tc main_v79) = Gen.W5 (F := Ideal) m ρ c (Proc.devRef .tc main_v79) from Gen.W6_of_ne m ρ c main_v79 (by decide)).trans (W5_v79 m ρ c)

/-- Relation 2's edge weights at boundary 7: as at the first region's entry. -/
theorem W7_v79 (c : Dev nD) : Gen.W7 (F := Ideal) m ρ c (Proc.devRef .tc main_v79) = Gen.W1 (F := Ideal) m ρ c (Proc.devRef .tc main_v79) :=
  (show Gen.W7 (F := Ideal) m ρ c (Proc.devRef .tc main_v79) = Gen.W6 (F := Ideal) m ρ c (Proc.devRef .tc main_v79) from by host_keep Gen.hostOps3 main_v79).trans (W6_v79 m ρ c)

/-- Relation 2's edge weights at boundary 8: as at the first region's entry. -/
theorem W8_v79 (c : Dev nD) : Gen.W8 (F := Ideal) m ρ c (Proc.devRef .tc main_v79) = Gen.W1 (F := Ideal) m ρ c (Proc.devRef .tc main_v79) :=
  (show Gen.W8 (F := Ideal) m ρ c (Proc.devRef .tc main_v79) = Gen.W7 (F := Ideal) m ρ c (Proc.devRef .tc main_v79) from Gen.W8_of_ne m ρ c main_v79 (by decide)).trans (W7_v79 m ρ c)

/-- Relation 2's edge weights at boundary 9: as at the first region's entry. -/
theorem W9_v79 (c : Dev nD) : Gen.W9 (F := Ideal) m ρ c (Proc.devRef .tc main_v79) = Gen.W1 (F := Ideal) m ρ c (Proc.devRef .tc main_v79) :=
  (show Gen.W9 (F := Ideal) m ρ c (Proc.devRef .tc main_v79) = Gen.W8 (F := Ideal) m ρ c (Proc.devRef .tc main_v79) from by host_keep Gen.hostOps4 main_v79).trans (W8_v79 m ρ c)

/-- Relation 2's edge weights at boundary 10: as at the first region's entry. -/
theorem W10_v79 (c : Dev nD) : Gen.W10 (F := Ideal) m ρ c (Proc.devRef .tc main_v79) = Gen.W1 (F := Ideal) m ρ c (Proc.devRef .tc main_v79) :=
  (show Gen.W10 (F := Ideal) m ρ c (Proc.devRef .tc main_v79) = Gen.W9 (F := Ideal) m ρ c (Proc.devRef .tc main_v79) from Gen.W10_of_ne m ρ c main_v79 (by decide)).trans (W9_v79 m ρ c)

/-- Relation 2's edge weights at boundary 11: as at the first region's entry. -/
theorem W11_v79 (c : Dev nD) : Gen.W11 (F := Ideal) m ρ c (Proc.devRef .tc main_v79) = Gen.W1 (F := Ideal) m ρ c (Proc.devRef .tc main_v79) :=
  (show Gen.W11 (F := Ideal) m ρ c (Proc.devRef .tc main_v79) = Gen.W10 (F := Ideal) m ρ c (Proc.devRef .tc main_v79) from by host_keep Gen.hostOps5 main_v79).trans (W10_v79 m ρ c)

/-- Relation 2's edge weights at boundary 12: as at the first region's entry. -/
theorem W12_v79 (c : Dev nD) : Gen.W12 (F := Ideal) m ρ c (Proc.devRef .tc main_v79) = Gen.W1 (F := Ideal) m ρ c (Proc.devRef .tc main_v79) :=
  (show Gen.W12 (F := Ideal) m ρ c (Proc.devRef .tc main_v79) = Gen.W11 (F := Ideal) m ρ c (Proc.devRef .tc main_v79) from Gen.W12_of_ne m ρ c main_v79 (by decide)).trans (W11_v79 m ρ c)

/-- Relation 2's edge weights at boundary 13: as at the first region's entry. -/
theorem W13_v79 (c : Dev nD) : Gen.W13 (F := Ideal) m ρ c (Proc.devRef .tc main_v79) = Gen.W1 (F := Ideal) m ρ c (Proc.devRef .tc main_v79) :=
  (show Gen.W13 (F := Ideal) m ρ c (Proc.devRef .tc main_v79) = Gen.W12 (F := Ideal) m ρ c (Proc.devRef .tc main_v79) from by host_keep Gen.hostOps6 main_v79).trans (W12_v79 m ρ c)

/-- Relation 2's edge weights at boundary 14: as at the first region's entry. -/
theorem W14_v79 (c : Dev nD) : Gen.W14 (F := Ideal) m ρ c (Proc.devRef .tc main_v79) = Gen.W1 (F := Ideal) m ρ c (Proc.devRef .tc main_v79) :=
  (show Gen.W14 (F := Ideal) m ρ c (Proc.devRef .tc main_v79) = Gen.W13 (F := Ideal) m ρ c (Proc.devRef .tc main_v79) from Gen.W14_of_ne m ρ c main_v79 (by decide)).trans (W13_v79 m ρ c)

/-- Relation 2's edge weights at boundary 15: as at the first region's entry. -/
theorem W15_v79 (c : Dev nD) : Gen.W15 (F := Ideal) m ρ c (Proc.devRef .tc main_v79) = Gen.W1 (F := Ideal) m ρ c (Proc.devRef .tc main_v79) :=
  (show Gen.W15 (F := Ideal) m ρ c (Proc.devRef .tc main_v79) = Gen.W14 (F := Ideal) m ρ c (Proc.devRef .tc main_v79) from by host_keep Gen.hostOps7 main_v79).trans (W14_v79 m ρ c)

/-- Relation 2's edge weights at boundary 16: as at the first region's entry. -/
theorem W16_v79 (c : Dev nD) : Gen.W16 (F := Ideal) m ρ c (Proc.devRef .tc main_v79) = Gen.W1 (F := Ideal) m ρ c (Proc.devRef .tc main_v79) :=
  (show Gen.W16 (F := Ideal) m ρ c (Proc.devRef .tc main_v79) = Gen.W15 (F := Ideal) m ρ c (Proc.devRef .tc main_v79) from Gen.W16_of_ne m ρ c main_v79 (by decide)).trans (W15_v79 m ρ c)

/-- Relation 2's self-loop weights at boundary 2: as at the first region's entry. -/
theorem W2_v80 (c : Dev nD) : Gen.W2 (F := Ideal) m ρ c (Proc.devRef .tc main_v80) = Gen.W1 (F := Ideal) m ρ c (Proc.devRef .tc main_v80) :=
  Gen.W2_of_ne m ρ c main_v80 (by decide)

/-- Relation 2's self-loop weights at boundary 3: as at the first region's entry. -/
theorem W3_v80 (c : Dev nD) : Gen.W3 (F := Ideal) m ρ c (Proc.devRef .tc main_v80) = Gen.W1 (F := Ideal) m ρ c (Proc.devRef .tc main_v80) :=
  (show Gen.W3 (F := Ideal) m ρ c (Proc.devRef .tc main_v80) = Gen.W2 (F := Ideal) m ρ c (Proc.devRef .tc main_v80) from by host_keep Gen.hostOps1 main_v80).trans (W2_v80 m ρ c)

/-- Relation 2's self-loop weights at boundary 4: as at the first region's entry. -/
theorem W4_v80 (c : Dev nD) : Gen.W4 (F := Ideal) m ρ c (Proc.devRef .tc main_v80) = Gen.W1 (F := Ideal) m ρ c (Proc.devRef .tc main_v80) :=
  (show Gen.W4 (F := Ideal) m ρ c (Proc.devRef .tc main_v80) = Gen.W3 (F := Ideal) m ρ c (Proc.devRef .tc main_v80) from Gen.W4_of_ne m ρ c main_v80 (by decide)).trans (W3_v80 m ρ c)

/-- Relation 2's self-loop weights at boundary 5: as at the first region's entry. -/
theorem W5_v80 (c : Dev nD) : Gen.W5 (F := Ideal) m ρ c (Proc.devRef .tc main_v80) = Gen.W1 (F := Ideal) m ρ c (Proc.devRef .tc main_v80) :=
  (show Gen.W5 (F := Ideal) m ρ c (Proc.devRef .tc main_v80) = Gen.W4 (F := Ideal) m ρ c (Proc.devRef .tc main_v80) from by host_keep Gen.hostOps2 main_v80).trans (W4_v80 m ρ c)

/-- Relation 2's self-loop weights at boundary 6: as at the first region's entry. -/
theorem W6_v80 (c : Dev nD) : Gen.W6 (F := Ideal) m ρ c (Proc.devRef .tc main_v80) = Gen.W1 (F := Ideal) m ρ c (Proc.devRef .tc main_v80) :=
  (show Gen.W6 (F := Ideal) m ρ c (Proc.devRef .tc main_v80) = Gen.W5 (F := Ideal) m ρ c (Proc.devRef .tc main_v80) from Gen.W6_of_ne m ρ c main_v80 (by decide)).trans (W5_v80 m ρ c)

/-- Relation 2's self-loop weights at boundary 7: as at the first region's entry. -/
theorem W7_v80 (c : Dev nD) : Gen.W7 (F := Ideal) m ρ c (Proc.devRef .tc main_v80) = Gen.W1 (F := Ideal) m ρ c (Proc.devRef .tc main_v80) :=
  (show Gen.W7 (F := Ideal) m ρ c (Proc.devRef .tc main_v80) = Gen.W6 (F := Ideal) m ρ c (Proc.devRef .tc main_v80) from by host_keep Gen.hostOps3 main_v80).trans (W6_v80 m ρ c)

/-- Relation 2's self-loop weights at boundary 8: as at the first region's entry. -/
theorem W8_v80 (c : Dev nD) : Gen.W8 (F := Ideal) m ρ c (Proc.devRef .tc main_v80) = Gen.W1 (F := Ideal) m ρ c (Proc.devRef .tc main_v80) :=
  (show Gen.W8 (F := Ideal) m ρ c (Proc.devRef .tc main_v80) = Gen.W7 (F := Ideal) m ρ c (Proc.devRef .tc main_v80) from Gen.W8_of_ne m ρ c main_v80 (by decide)).trans (W7_v80 m ρ c)

/-- Relation 2's self-loop weights at boundary 9: as at the first region's entry. -/
theorem W9_v80 (c : Dev nD) : Gen.W9 (F := Ideal) m ρ c (Proc.devRef .tc main_v80) = Gen.W1 (F := Ideal) m ρ c (Proc.devRef .tc main_v80) :=
  (show Gen.W9 (F := Ideal) m ρ c (Proc.devRef .tc main_v80) = Gen.W8 (F := Ideal) m ρ c (Proc.devRef .tc main_v80) from by host_keep Gen.hostOps4 main_v80).trans (W8_v80 m ρ c)

/-- Relation 2's self-loop weights at boundary 10: as at the first region's entry. -/
theorem W10_v80 (c : Dev nD) : Gen.W10 (F := Ideal) m ρ c (Proc.devRef .tc main_v80) = Gen.W1 (F := Ideal) m ρ c (Proc.devRef .tc main_v80) :=
  (show Gen.W10 (F := Ideal) m ρ c (Proc.devRef .tc main_v80) = Gen.W9 (F := Ideal) m ρ c (Proc.devRef .tc main_v80) from Gen.W10_of_ne m ρ c main_v80 (by decide)).trans (W9_v80 m ρ c)

/-- Relation 2's self-loop weights at boundary 11: as at the first region's entry. -/
theorem W11_v80 (c : Dev nD) : Gen.W11 (F := Ideal) m ρ c (Proc.devRef .tc main_v80) = Gen.W1 (F := Ideal) m ρ c (Proc.devRef .tc main_v80) :=
  (show Gen.W11 (F := Ideal) m ρ c (Proc.devRef .tc main_v80) = Gen.W10 (F := Ideal) m ρ c (Proc.devRef .tc main_v80) from by host_keep Gen.hostOps5 main_v80).trans (W10_v80 m ρ c)

/-- Relation 2's self-loop weights at boundary 12: as at the first region's entry. -/
theorem W12_v80 (c : Dev nD) : Gen.W12 (F := Ideal) m ρ c (Proc.devRef .tc main_v80) = Gen.W1 (F := Ideal) m ρ c (Proc.devRef .tc main_v80) :=
  (show Gen.W12 (F := Ideal) m ρ c (Proc.devRef .tc main_v80) = Gen.W11 (F := Ideal) m ρ c (Proc.devRef .tc main_v80) from Gen.W12_of_ne m ρ c main_v80 (by decide)).trans (W11_v80 m ρ c)

/-- Relation 2's self-loop weights at boundary 13: as at the first region's entry. -/
theorem W13_v80 (c : Dev nD) : Gen.W13 (F := Ideal) m ρ c (Proc.devRef .tc main_v80) = Gen.W1 (F := Ideal) m ρ c (Proc.devRef .tc main_v80) :=
  (show Gen.W13 (F := Ideal) m ρ c (Proc.devRef .tc main_v80) = Gen.W12 (F := Ideal) m ρ c (Proc.devRef .tc main_v80) from by host_keep Gen.hostOps6 main_v80).trans (W12_v80 m ρ c)

/-- Relation 2's self-loop weights at boundary 14: as at the first region's entry. -/
theorem W14_v80 (c : Dev nD) : Gen.W14 (F := Ideal) m ρ c (Proc.devRef .tc main_v80) = Gen.W1 (F := Ideal) m ρ c (Proc.devRef .tc main_v80) :=
  (show Gen.W14 (F := Ideal) m ρ c (Proc.devRef .tc main_v80) = Gen.W13 (F := Ideal) m ρ c (Proc.devRef .tc main_v80) from Gen.W14_of_ne m ρ c main_v80 (by decide)).trans (W13_v80 m ρ c)

/-- Relation 2's self-loop weights at boundary 15: as at the first region's entry. -/
theorem W15_v80 (c : Dev nD) : Gen.W15 (F := Ideal) m ρ c (Proc.devRef .tc main_v80) = Gen.W1 (F := Ideal) m ρ c (Proc.devRef .tc main_v80) :=
  (show Gen.W15 (F := Ideal) m ρ c (Proc.devRef .tc main_v80) = Gen.W14 (F := Ideal) m ρ c (Proc.devRef .tc main_v80) from by host_keep Gen.hostOps7 main_v80).trans (W14_v80 m ρ c)

/-- Relation 2's self-loop weights at boundary 16: as at the first region's entry. -/
theorem W16_v80 (c : Dev nD) : Gen.W16 (F := Ideal) m ρ c (Proc.devRef .tc main_v80) = Gen.W1 (F := Ideal) m ρ c (Proc.devRef .tc main_v80) :=
  (show Gen.W16 (F := Ideal) m ρ c (Proc.devRef .tc main_v80) = Gen.W15 (F := Ideal) m ρ c (Proc.devRef .tc main_v80) from Gen.W16_of_ne m ρ c main_v80 (by decide)).trans (W15_v80 m ρ c)

end Cert.KernelIdeal.Fold

end
-- ==== Proof.FoldMid.lean ====
/-
  The layers' intermediate arrays between where they are produced and where they are last read: the embedded features
  (read by the three product regions of layer 1), the first two contributions of each layer (read by the layer's
  summing region), the features after layer 1 (read by the three product regions of layer 2). A region that reads one
  of them has it as an input window and leaves it as found; the host stretches in between write other arrays. So at
  each boundary in that range the array holds what it held where it was produced.
-/
import proofs.«140704_j79388175499709_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The layers' intermediate arrays between the boundary where they are produced and their last use: later regions
    only read them and later host stretches do not write them. -/

/-- At boundary 3, the embedded features: as where they were produced. -/
theorem W3_v81 (c : Dev nD) : Gen.W3 (F := Ideal) m ρ c (Proc.devRef .tc main_v81) = Gen.W2 (F := Ideal) m ρ c (Proc.devRef .tc main_v81) :=
  by host_keep Gen.hostOps1 main_v81

/-- At boundary 4, the embedded features: as where they were produced. -/
theorem W4_v81 (c : Dev nD) : Gen.W4 (F := Ideal) m ρ c (Proc.devRef .tc main_v81) = Gen.W2 (F := Ideal) m ρ c (Proc.devRef .tc main_v81) :=
  (show Gen.W4 (F := Ideal) m ρ c (Proc.devRef .tc main_v81) = Gen.W3 (F := Ideal) m ρ c (Proc.devRef .tc main_v81) from (Gen.W4_arr m ρ c 0).trans (((Gen.dat1 (Gen.V3 m ρ) c).arrAt_in 0 rfl _).trans (Gen.A_eq1 (Gen.V3 m ρ) c 0))).trans (W3_v81 m ρ c)

/-- At boundary 5, the embedded features: as where they were produced. -/
theorem W5_v81 (c : Dev nD) : Gen.W5 (F := Ideal) m ρ c (Proc.devRef .tc main_v81) = Gen.W2 (F := Ideal) m ρ c (Proc.devRef .tc main_v81) :=
  (show Gen.W5 (F := Ideal) m ρ c (Proc.devRef .tc main_v81) = Gen.W4 (F := Ideal) m ρ c (Proc.devRef .tc main_v81) from by host_keep Gen.hostOps2 main_v81).trans (W4_v81 m ρ c)

/-- At boundary 6, the embedded features: as where they were produced. -/
theorem W6_v81 (c : Dev nD) : Gen.W6 (F := Ideal) m ρ c (Proc.devRef .tc main_v81) = Gen.W2 (F := Ideal) m ρ c (Proc.devRef .tc main_v81) :=
  (show Gen.W6 (F := Ideal) m ρ c (Proc.devRef .tc main_v81) = Gen.W5 (F := Ideal) m ρ c (Proc.devRef .tc main_v81) from (Gen.W6_arr m ρ c 0).trans (((Gen.dat2 (Gen.V5 m ρ) c).arrAt_in 0 rfl _).trans (Gen.A_eq2 (Gen.V5 m ρ) c 0))).trans (W5_v81 m ρ c)

/-- At boundary 7, the embedded features: as where they were produced. -/
theorem W7_v81 (c : Dev nD) : Gen.W7 (F := Ideal) m ρ c (Proc.devRef .tc main_v81) = Gen.W2 (F := Ideal) m ρ c (Proc.devRef .tc main_v81) :=
  (show Gen.W7 (F := Ideal) m ρ c (Proc.devRef .tc main_v81) = Gen.W6 (F := Ideal) m ρ c (Proc.devRef .tc main_v81) from by host_keep Gen.hostOps3 main_v81).trans (W6_v81 m ρ c)

/-- At boundary 6, relation 0's contribution to layer 1: as where they were produced. -/
theorem W6_v106 (c : Dev nD) : Gen.W6 (F := Ideal) m ρ c (Proc.devRef .tc main_v106) = Gen.W5 (F := Ideal) m ρ c (Proc.devRef .tc main_v106) :=
  Gen.W6_of_ne m ρ c main_v106 (by decide)

/-- At boundary 7, relation 0's contribution to layer 1: as where they were produced. -/
theorem W7_v106 (c : Dev nD) : Gen.W7 (F := Ideal) m ρ c (Proc.devRef .tc main_v106) = Gen.W5 (F := Ideal) m ρ c (Proc.devRef .tc main_v106) :=
  (show Gen.W7 (F := Ideal) m ρ c (Proc.devRef .tc main_v106) = Gen.W6 (F := Ideal) m ρ c (Proc.devRef .tc main_v106) from by host_keep Gen.hostOps3 main_v106).trans (W6_v106 m ρ c)

/-- At boundary 8, relation 0's contribution to layer 1: as where they were produced. -/
theorem W8_v106 (c : Dev nD) : Gen.W8 (F := Ideal) m ρ c (Proc.devRef .tc main_v106) = Gen.W5 (F := Ideal) m ρ c (Proc.devRef .tc main_v106) :=
  (show Gen.W8 (F := Ideal) m ρ c (Proc.devRef .tc main_v106) = Gen.W7 (F := Ideal) m ρ c (Proc.devRef .tc main_v106) from Gen.W8_of_ne m ρ c main_v106 (by decide)).trans (W7_v106 m ρ c)

/-- At boundary 9, relation 0's contribution to layer 1: as where they were produced. -/
theorem W9_v106 (c : Dev nD) : Gen.W9 (F := Ideal) m ρ c (Proc.devRef .tc main_v106) = Gen.W5 (F := Ideal) m ρ c (Proc.devRef .tc main_v106) :=
  (show Gen.W9 (F := Ideal) m ρ c (Proc.devRef .tc main_v106) = Gen.W8 (F := Ideal) m ρ c (Proc.devRef .tc main_v106) from by host_keep Gen.hostOps4 main_v106).trans (W8_v106 m ρ c)

/-- At boundary 8, relation 1's contribution to layer 1: as where they were produced. -/
theorem W8_v131 (c : Dev nD) : Gen.W8 (F := Ideal) m ρ c (Proc.devRef .tc main_v131) = Gen.W7 (F := Ideal) m ρ c (Proc.devRef .tc main_v131) :=
  Gen.W8_of_ne m ρ c main_v131 (by decide)

/-- At boundary 9, relation 1's contribution to layer 1: as where they were produced. -/
theorem W9_v131 (c : Dev nD) : Gen.W9 (F := Ideal) m ρ c (Proc.devRef .tc main_v131) = Gen.W7 (F := Ideal) m ρ c (Proc.devRef .tc main_v131) :=
  (show Gen.W9 (F := Ideal) m ρ c (Proc.devRef .tc main_v131) = Gen.W8 (F := Ideal) m ρ c (Proc.devRef .tc main_v131) from by host_keep Gen.hostOps4 main_v131).trans (W8_v131 m ρ c)

/-- At boundary 11, the features after layer 1: as where they were produced. -/
theorem W11_v157 (c : Dev nD) : Gen.W11 (F := Ideal) m ρ c (Proc.devRef .tc main_v157) = Gen.W10 (F := Ideal) m ρ c (Proc.devRef .tc main_v157) :=
  by host_keep Gen.hostOps5 main_v157

/-- At boundary 12, the features after layer 1: as where they were produced. -/
theorem W12_v157 (c : Dev nD) : Gen.W12 (F := Ideal) m ρ c (Proc.devRef .tc main_v157) = Gen.W10 (F := Ideal) m ρ c (Proc.devRef .tc main_v157) :=
  (show Gen.W12 (F := Ideal) m ρ c (Proc.devRef .tc main_v157) = Gen.W11 (F := Ideal) m ρ c (Proc.devRef .tc main_v157) from (Gen.W12_arr m ρ c 0).trans (((Gen.dat5 (Gen.V11 m ρ) c).arrAt_in 0 rfl _).trans (Gen.A_eq5 (Gen.V11 m ρ) c 0))).trans (W11_v157 m ρ c)

/-- At boundary 13, the features after layer 1: as where they were produced. -/
theorem W13_v157 (c : Dev nD) : Gen.W13 (F := Ideal) m ρ c (Proc.devRef .tc main_v157) = Gen.W10 (F := Ideal) m ρ c (Proc.devRef .tc main_v157) :=
  (show Gen.W13 (F := Ideal) m ρ c (Proc.devRef .tc main_v157) = Gen.W12 (F := Ideal) m ρ c (Proc.devRef .tc main_v157) from by host_keep Gen.hostOps6 main_v157).trans (W12_v157 m ρ c)

/-- At boundary 14, the features after layer 1: as where they were produced. -/
theorem W14_v157 (c : Dev nD) : Gen.W14 (F := Ideal) m ρ c (Proc.devRef .tc main_v157) = Gen.W10 (F := Ideal) m ρ c (Proc.devRef .tc main_v157) :=
  (show Gen.W14 (F := Ideal) m ρ c (Proc.devRef .tc main_v157) = Gen.W13 (F := Ideal) m ρ c (Proc.devRef .tc main_v157) from (Gen.W14_arr m ρ c 0).trans (((Gen.dat6 (Gen.V13 m ρ) c).arrAt_in 0 rfl _).trans (Gen.A_eq6 (Gen.V13 m ρ) c 0))).trans (W13_v157 m ρ c)

/-- At boundary 15, the features after layer 1: as where they were produced. -/
theorem W15_v157 (c : Dev nD) : Gen.W15 (F := Ideal) m ρ c (Proc.devRef .tc main_v157) = Gen.W10 (F := Ideal) m ρ c (Proc.devRef .tc main_v157) :=
  (show Gen.W15 (F := Ideal) m ρ c (Proc.devRef .tc main_v157) = Gen.W14 (F := Ideal) m ρ c (Proc.devRef .tc main_v157) from by host_keep Gen.hostOps7 main_v157).trans (W14_v157 m ρ c)

/-- At boundary 14, relation 0's contribution to layer 2: as where they were produced. -/
theorem W14_v182 (c : Dev nD) : Gen.W14 (F := Ideal) m ρ c (Proc.devRef .tc main_v182) = Gen.W13 (F := Ideal) m ρ c (Proc.devRef .tc main_v182) :=
  Gen.W14_of_ne m ρ c main_v182 (by decide)

/-- At boundary 15, relation 0's contribution to layer 2: as where they were produced. -/
theorem W15_v182 (c : Dev nD) : Gen.W15 (F := Ideal) m ρ c (Proc.devRef .tc main_v182) = Gen.W13 (F := Ideal) m ρ c (Proc.devRef .tc main_v182) :=
  (show Gen.W15 (F := Ideal) m ρ c (Proc.devRef .tc main_v182) = Gen.W14 (F := Ideal) m ρ c (Proc.devRef .tc main_v182) from by host_keep Gen.hostOps7 main_v182).trans (W14_v182 m ρ c)

/-- At boundary 16, relation 0's contribution to layer 2: as where they were produced. -/
theorem W16_v182 (c : Dev nD) : Gen.W16 (F := Ideal) m ρ c (Proc.devRef .tc main_v182) = Gen.W13 (F := Ideal) m ρ c (Proc.devRef .tc main_v182) :=
  (show Gen.W16 (F := Ideal) m ρ c (Proc.devRef .tc main_v182) = Gen.W15 (F := Ideal) m ρ c (Proc.devRef .tc main_v182) from Gen.W16_of_ne m ρ c main_v182 (by decide)).trans (W15_v182 m ρ c)

/-- At boundary 17, relation 0's contribution to layer 2: as where they were produced. -/
theorem W17_v182 (c : Dev nD) : Gen.W17 (F := Ideal) m ρ c (Proc.devRef .tc main_v182) = Gen.W13 (F := Ideal) m ρ c (Proc.devRef .tc main_v182) :=
  (show Gen.W17 (F := Ideal) m ρ c (Proc.devRef .tc main_v182) = Gen.W16 (F := Ideal) m ρ c (Proc.devRef .tc main_v182) from by host_keep Gen.hostOps8 main_v182).trans (W16_v182 m ρ c)

/-- At boundary 16, relation 1's contribution to layer 2: as where they were produced. -/
theorem W16_v207 (c : Dev nD) : Gen.W16 (F := Ideal) m ρ c (Proc.devRef .tc main_v207) = Gen.W15 (F := Ideal) m ρ c (Proc.devRef .tc main_v207) :=
  Gen.W16_of_ne m ρ c main_v207 (by decide)

/-- At boundary 17, relation 1's contribution to layer 2: as where they were produced. -/
theorem W17_v207 (c : Dev nD) : Gen.W17 (F := Ideal) m ρ c (Proc.devRef .tc main_v207) = Gen.W15 (F := Ideal) m ρ c (Proc.devRef .tc main_v207) :=
  (show Gen.W17 (F := Ideal) m ρ c (Proc.devRef .tc main_v207) = Gen.W16 (F := Ideal) m ρ c (Proc.devRef .tc main_v207) from by host_keep Gen.hostOps8 main_v207).trans (W16_v207 m ρ c)

end Cert.KernelIdeal.Fold

end
-- ==== Proof.Spec.lean ====
/-
  The function both programs compute, written once over whole arrays.

  A two-layer relational graph convolution over 50000 nodes and three relations of 800000 edges each.
  With `h₀ = relu (x · W_e + b_e)`, each layer maps `h` to `relu (Σ_r conv_r (h · W_r))`, where for a relation
  with source list `s` and target list `d`
    deg v   = 1 + #{edges into v},   dis = deg^(-1/2),
    conv hw = scatter-add over edges of  hw[s] · dis[s] · dis[d]  into row d,  plus  hw · dis² (the self loop),  plus the bias row,
  and the result is `h₂ · W_out + b_out`.  Negative node numbers wrap around by 50000 before a gather, exactly as the
  host does it.  The gathers, scatter-adds and the reciprocal square root are kept as the host's own operations: both
  programs apply the same ones to the same operands, so nothing about them is needed beyond their names.
  `layerSum0` is the layer sum started from an explicit zero array (how the reference accumulates); `layerSum` is the
  plain sum of the three contributions; at the extended reals they agree because `0 + a = a`.
-/
import proofs.«140704_j79388175499709_1_alg».proof.ReferenceIdeal
import proofs.«140704_j79388175499709_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F]

/-- The contents of a buffer of a given shape and element type. -/
abbrev Arr (T : BufTy) : Type := T.Contents (Elt F)

/-- The all-zero [50000,128] array. -/
def zeros : Arr (F := F) ⟨S50000x128, .f32⟩ :=
  broadcastInDim S50000x128 ![] bcast_S_S50000x128 (constant S_ .f32 0x00000000#32)

/-- `max x 0`, entry by entry. -/
def relu (x : Arr (F := F) ⟨S50000x128, .f32⟩) : Arr (F := F) ⟨S50000x128, .f32⟩ := maximumf x zeros

/-- A node list with negative entries wrapped around by 50000. -/
def wrapIdx (s : Arr (F := F) ⟨S800000, .i32⟩) : Arr (F := F) ⟨S800000, .i32⟩ :=
  select (cmpi .slt s (broadcastInDim S800000 ![] bcast_S_S800000 (constantI S_ 32 0#32)))
    (addi s (broadcastInDim S800000 ![] bcast_S_S800000 (constantI S_ 32 50000#32))) s

/-- A node list as a one-column index array. -/
def col (s : Arr (F := F) ⟨S800000, .i32⟩) : Arr (F := F) ⟨S800000x1, .i32⟩ :=
  broadcastInDim S800000x1 ![0] bcast_S800000_S800000x1_0 s

/-- `deg^(-1/2)` per node, the degree counting the edges into the node and its self loop. -/
def dis (d : Arr (F := F) ⟨S800000, .i32⟩) : Arr (F := F) ⟨S50000, .f32⟩ :=
  Host.rsqrt (addf (Host.scatterAdd scatter_S50000_S800000x1_S800000_n_0_0_1
      (broadcastInDim S50000 ![] bcast_S_S50000 (constant S_ .f32 0x00000000#32)) (col d)
      (broadcastInDim S800000 ![] bcast_S_S800000 (constant S_ .f32 0x3F800000#32)))
    (broadcastInDim S50000 ![] bcast_S_S50000 (constant S_ .f32 0x3F800000#32)))

/-- The weight of each edge: `dis[s] · dis[d]`. -/
def coef (s d : Arr (F := F) ⟨S800000, .i32⟩) : Arr (F := F) ⟨S800000, .f32⟩ :=
  mulf (Host.gather gather_S50000_S800000x1_S800000_n_0_n_n_0_1_1 (dis d) (col (wrapIdx s)))
    (Host.gather gather_S50000_S800000x1_S800000_n_0_n_n_0_1_1 (dis d) (col (wrapIdx d)))

/-- The weight of each node's self loop: `dis²`. -/
def dis2 (d : Arr (F := F) ⟨S800000, .i32⟩) : Arr (F := F) ⟨S50000, .f32⟩ := mulf (dis d) (dis d)

/-- A 128-vector repeated down the 50000 rows. -/
def rowBias (b : Arr (F := F) ⟨S128, .f32⟩) : Arr (F := F) ⟨S50000x128, .f32⟩ :=
  broadcastInDim S50000x128 ![0, 1] bcast_S1x128_S50000x128_0_1 (broadcastInDim S1x128 ![1] bcast_S128_S1x128_1 b)

/-- One relation's contribution from the edge weights `cf`, the self-loop weights `d2`, the transformed features
    `hw` and the bias `b`: the weighted neighbour sum, plus the self loop, plus the bias. -/
def contribOf (s d : Arr (F := F) ⟨S800000, .i32⟩) (cf : Arr (F := F) ⟨S800000, .f32⟩) (d2 : Arr (F := F) ⟨S50000, .f32⟩)
    (hw : Arr (F := F) ⟨S50000x128, .f32⟩) (b : Arr (F := F) ⟨S128, .f32⟩) : Arr (F := F) ⟨S50000x128, .f32⟩ :=
  addf (addf (Host.scatterAdd scatter_S50000x128_S800000x1_S800000x128_1_0_0_1 zeros (col d)
        (mulf (Host.gather gather_S50000x128_S800000x1_S800000x128_1_0_n_n_0_1_1128 hw (col (wrapIdx s)))
          (broadcastInDim S800000x128 ![0, 1] bcast_S800000x1_S800000x128_0_1 (broadcastInDim S800000x1 ![0] bcast_S800000_S800000x1_0 cf))))
      (mulf hw (broadcastInDim S50000x128 ![0, 1] bcast_S50000x1_S50000x128_0_1 (broadcastInDim S50000x1 ![0] bcast_S50000_S50000x1_0 d2))))
    (rowBias b)

/-- One relation's contribution with its weights computed from the edge lists. -/
def contrib (s d : Arr (F := F) ⟨S800000, .i32⟩) (hw : Arr (F := F) ⟨S50000x128, .f32⟩) (b : Arr (F := F) ⟨S128, .f32⟩) :
    Arr (F := F) ⟨S50000x128, .f32⟩ := contribOf s d (coef s d) (dis2 d) hw b

/-- Node features times one relation's weight matrix. -/
def mm (h : Arr (F := F) ⟨S50000x128, .f32⟩) (w : Arr (F := F) ⟨S128x128, .f32⟩) : Arr (F := F) ⟨S50000x128, .f32⟩ :=
  Host.dotGeneral dot_S50000x128_S128x128_S50000x128_1_0_0_1_n_n none h w

/-- The feature embedding `relu (x · W + b)`. -/
def embed (x : Arr (F := F) ⟨S50000x300, .f32⟩) (w : Arr (F := F) ⟨S300x128, .f32⟩) (b : Arr (F := F) ⟨S128, .f32⟩) :
    Arr (F := F) ⟨S50000x128, .f32⟩ :=
  relu (addf (Host.dotGeneral dot_S50000x300_S300x128_S50000x128_1_0_0_1_n_n none x w) (rowBias b))

/-- The output head `h · W + b`. -/
def head (h : Arr (F := F) ⟨S50000x128, .f32⟩) (w : Arr (F := F) ⟨S128x64, .f32⟩) (b : Arr (F := F) ⟨S64, .f32⟩) :
    Arr (F := F) ⟨S50000x64, .f32⟩ :=
  addf (Host.dotGeneral dot_S50000x128_S128x64_S50000x64_1_0_0_1_n_n none h w)
    (broadcastInDim S50000x64 ![0, 1] bcast_S1x64_S50000x64_0_1 (broadcastInDim S1x64 ![1] bcast_S64_S1x64_1 b))

/-- Relation 0's source row of the edge list, as a flat vector of node numbers. -/
def src0 (e : Arr (F := F) ⟨S3x2x800000, .i32⟩) : Arr (F := F) ⟨S800000, .i32⟩ :=
  shapeCast _ (extractStridedSlice S1x1x800000 ![0, 0, 0] e slices_S3x2x800000_S1x1x800000_0_0_0) shapeCasts_S1x1x800000_S800000
/-- Relation 0's target row of the edge list. -/
def dst0 (e : Arr (F := F) ⟨S3x2x800000, .i32⟩) : Arr (F := F) ⟨S800000, .i32⟩ :=
  shapeCast _ (extractStridedSlice S1x1x800000 ![0, 1, 0] e slices_S3x2x800000_S1x1x800000_0_1_0) shapeCasts_S1x1x800000_S800000
/-- Relation 0's weight matrix out of the stacked weights. -/
def wgt0 (w : Arr (F := F) ⟨S3x128x128, .f32⟩) : Arr (F := F) ⟨S128x128, .f32⟩ :=
  shapeCast _ (extractStridedSlice S1x128x128 ![0, 0, 0] w slices_S3x128x128_S1x128x128_0_0_0) shapeCasts_S1x128x128_S128x128
/-- Relation 0's bias row out of the stacked biases. -/
def bia0 (b : Arr (F := F) ⟨S3x128, .f32⟩) : Arr (F := F) ⟨S128, .f32⟩ :=
  shapeCast _ (extractStridedSlice S1x128 ![0, 0] b slices_S3x128_S1x128_0_0) shapeCasts_S1x128_S128

/-- Relation 1's source row of the edge list, as a flat vector of node numbers. -/
def src1 (e : Arr (F := F) ⟨S3x2x800000, .i32⟩) : Arr (F := F) ⟨S800000, .i32⟩ :=
  shapeCast _ (extractStridedSlice S1x1x800000 ![1, 0, 0] e slices_S3x2x800000_S1x1x800000_1_0_0) shapeCasts_S1x1x800000_S800000
/-- Relation 1's target row of the edge list. -/
def dst1 (e : Arr (F := F) ⟨S3x2x800000, .i32⟩) : Arr (F := F) ⟨S800000, .i32⟩ :=
  shapeCast _ (extractStridedSlice S1x1x800000 ![1, 1, 0] e slices_S3x2x800000_S1x1x800000_1_1_0) shapeCasts_S1x1x800000_S800000
/-- Relation 1's weight matrix out of the stacked weights. -/
def wgt1 (w : Arr (F := F) ⟨S3x128x128, .f32⟩) : Arr (F := F) ⟨S128x128, .f32⟩ :=
  shapeCast _ (extractStridedSlice S1x128x128 ![1, 0, 0] w slices_S3x128x128_S1x128x128_1_0_0) shapeCasts_S1x128x128_S128x128
/-- Relation 1's bias row out of the stacked biases. -/
def bia1 (b : Arr (F := F) ⟨S3x128, .f32⟩) : Arr (F := F) ⟨S128, .f32⟩ :=
  shapeCast _ (extractStridedSlice S1x128 ![1, 0] b slices_S3x128_S1x128_1_0) shapeCasts_S1x128_S128

/-- Relation 2's source row of the edge list, as a flat vector of node numbers. -/
def src2 (e : Arr (F := F) ⟨S3x2x800000, .i32⟩) : Arr (F := F) ⟨S800000, .i32⟩ :=
  shapeCast _ (extractStridedSlice S1x1x800000 ![2, 0, 0] e slices_S3x2x800000_S1x1x800000_2_0_0) shapeCasts_S1x1x800000_S800000
/-- Relation 2's target row of the edge list. -/
def dst2 (e : Arr (F := F) ⟨S3x2x800000, .i32⟩) : Arr (F := F) ⟨S800000, .i32⟩ :=
  shapeCast _ (extractStridedSlice S1x1x800000 ![2, 1, 0] e slices_S3x2x800000_S1x1x800000_2_1_0) shapeCasts_S1x1x800000_S800000
/-- Relation 2's weight matrix out of the stacked weights. -/
def wgt2 (w : Arr (F := F) ⟨S3x128x128, .f32⟩) : Arr (F := F) ⟨S128x128, .f32⟩ :=
  shapeCast _ (extractStridedSlice S1x128x128 ![2, 0, 0] w slices_S3x128x128_S1x128x128_2_0_0) shapeCasts_S1x128x128_S128x128
/-- Relation 2's bias row out of the stacked biases. -/
def bia2 (b : Arr (F := F) ⟨S3x128, .f32⟩) : Arr (F := F) ⟨S128, .f32⟩ :=
  shapeCast _ (extractStridedSlice S1x128 ![2, 0] b slices_S3x128_S1x128_2_0) shapeCasts_S1x128_S128

/-- The three contributions added left to right and rectified. -/
def combine (c0 c1 c2 : Arr (F := F) ⟨S50000x128, .f32⟩) : Arr (F := F) ⟨S50000x128, .f32⟩ := relu (addf (addf c0 c1) c2)

/-- The same sum started from an explicit zero array. -/
def combine0 (c0 c1 c2 : Arr (F := F) ⟨S50000x128, .f32⟩) : Arr (F := F) ⟨S50000x128, .f32⟩ :=
  relu (addf (addf (addf zeros c0) c1) c2)

/-- One layer, the sum of the relations' contributions taken by `comb`. -/
def layerWith (comb : Arr (F := F) ⟨S50000x128, .f32⟩ → Arr (F := F) ⟨S50000x128, .f32⟩ → Arr (F := F) ⟨S50000x128, .f32⟩ → Arr (F := F) ⟨S50000x128, .f32⟩)
    (e : Arr (F := F) ⟨S3x2x800000, .i32⟩) (h : Arr (F := F) ⟨S50000x128, .f32⟩) (w : Arr (F := F) ⟨S3x128x128, .f32⟩) (b : Arr (F := F) ⟨S3x128, .f32⟩) :
    Arr (F := F) ⟨S50000x128, .f32⟩ :=
  comb (contrib (src0 e) (dst0 e) (mm h (wgt0 w)) (bia0 b))
    (contrib (src1 e) (dst1 e) (mm h (wgt1 w)) (bia1 b))
    (contrib (src2 e) (dst2 e) (mm h (wgt2 w)) (bia2 b))

/-- The whole network, with the layer sums taken by `comb`. -/
def netWith (comb : Arr (F := F) ⟨S50000x128, .f32⟩ → Arr (F := F) ⟨S50000x128, .f32⟩ → Arr (F := F) ⟨S50000x128, .f32⟩ → Arr (F := F) ⟨S50000x128, .f32⟩)
    (x : Arr (F := F) ⟨S50000x300, .f32⟩) (e : Arr (F := F) ⟨S3x2x800000, .i32⟩) (ew : Arr (F := F) ⟨S300x128, .f32⟩) (eb : Arr (F := F) ⟨S128, .f32⟩)
    (w0 : Arr (F := F) ⟨S3x128x128, .f32⟩) (b0 : Arr (F := F) ⟨S3x128, .f32⟩) (w1 : Arr (F := F) ⟨S3x128x128, .f32⟩) (b1 : Arr (F := F) ⟨S3x128, .f32⟩)
    (lw : Arr (F := F) ⟨S128x64, .f32⟩) (lb : Arr (F := F) ⟨S64, .f32⟩) : Arr (F := F) ⟨S50000x64, .f32⟩ :=
  head (layerWith comb e (layerWith comb e (embed x ew eb) w0 b0) w1 b1) lw lb

end Cert.Spec

end
-- ==== Proof.FoldPre.lean ====
/-
  What the first host stretch leaves. Its 102 operations are three independent parts of 34, one per relation: part r
  slices relation r's source and target lists out of the edge list, counts each node's incoming edges by a scatter-add
  of ones, adds the self loop, takes the reciprocal square root (dis), gathers dis at the wrapped source and target of
  every edge and multiplies the two (the edge weights), and squares dis (the self-loop weights). A part reads only the
  edge list and its own results, and writes neither the edge list nor another part's results. So each of the twelve
  arrays, at the first region's entry, is its part's term over the edge list as launched: the specification's source
  list, target list, edge weights and self-loop weights of that relation.
-/
import proofs.«140704_j79388175499709_1_alg».proof.Proof.Gen.KernelIdeal.Frame
import proofs.«140704_j79388175499709_1_alg».proof.Proof.Spec
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal Cert.KernelIdeal.Gen

section Blocks
variable {F : FTy → Type} [FloatOps F]

/-- Relation 0's part of the first host stretch: its edge lists, the normalised degrees and the weights. -/
abbrev blk0 : List (HloOp τ sig (Elt F)) :=
  [ StableHlo.unary main_arg1 main_v0 ((extractStridedSlice S1x1x800000 ![0, 0, 0] · slices_S3x2x800000_S1x1x800000_0_0_0) : (⟨S3x2x800000, .i32⟩ : BufTy).Contents (Elt F) → (⟨S1x1x800000, .i32⟩ : BufTy).Contents (Elt F)),
    StableHlo.reshape main_v0 main_v1 rfl shapeCasts_S1x1x800000_S800000,
    StableHlo.unary main_arg1 main_v2 ((extractStridedSlice S1x1x800000 ![0, 1, 0] · slices_S3x2x800000_S1x1x800000_0_1_0) : (⟨S3x2x800000, .i32⟩ : BufTy).Contents (Elt F) → (⟨S1x1x800000, .i32⟩ : BufTy).Contents (Elt F)),
    StableHlo.reshape main_v2 main_v3 rfl shapeCasts_S1x1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v17 main_v24 main_v25 (mulf : (⟨S800000, .f32⟩ : BufTy).Contents (Elt F) → (⟨S800000, .f32⟩ : BufTy).Contents (Elt F) → (⟨S800000, .f32⟩ : BufTy).Contents (Elt F)),
    StableHlo.binary main_v10 main_v10 main_v26 (mulf : (⟨S50000, .f32⟩ : BufTy).Contents (Elt F) → (⟨S50000, .f32⟩ : BufTy).Contents (Elt F) → (⟨S50000, .f32⟩ : BufTy).Contents (Elt F)) ]

/-- Relation 1's part of the first host stretch: its edge lists, the normalised degrees and the weights. -/
abbrev blk1 : List (HloOp τ sig (Elt F)) :=
  [ StableHlo.unary main_arg1 main_v27 ((extractStridedSlice S1x1x800000 ![1, 0, 0] · slices_S3x2x800000_S1x1x800000_1_0_0) : (⟨S3x2x800000, .i32⟩ : BufTy).Contents (Elt F) → (⟨S1x1x800000, .i32⟩ : BufTy).Contents (Elt F)),
    StableHlo.reshape main_v27 main_v28 rfl shapeCasts_S1x1x800000_S800000,
    StableHlo.unary main_arg1 main_v29 ((extractStridedSlice S1x1x800000 ![1, 1, 0] · slices_S3x2x800000_S1x1x800000_1_1_0) : (⟨S3x2x800000, .i32⟩ : BufTy).Contents (Elt F) → (⟨S1x1x800000, .i32⟩ : BufTy).Contents (Elt F)),
    StableHlo.reshape main_v29 main_v30 rfl shapeCasts_S1x1x800000_S800000,
    StableHlo.nullary main_cst_5 (constant S_ .f32 0x3F800000#32),
    StableHlo.unary main_cst_5 main_v31 (broadcastInDim S800000 ![] bcast_S_S800000 : (⟨S_, .f32⟩ : BufTy).Contents (Elt F) → (⟨S800000, .f32⟩ : BufTy).Contents (Elt F)),
    StableHlo.nullary main_cst_6 (constant S_ .f32 0x00000000#32),
    StableHlo.unary main_cst_6 main_v32 (broadcastInDim S50000 ![] bcast_S_S50000 : (⟨S_, .f32⟩ : BufTy).Contents (Elt F) → (⟨S50000, .f32⟩ : BufTy).Contents (Elt F)),
    StableHlo.unary main_v30 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_7 (constant S_ .f32 0x3F800000#32),
    StableHlo.unary main_cst_7 main_v35 (broadcastInDim S50000 ![] bcast_S_S50000 : (⟨S_, .f32⟩ : BufTy).Contents (Elt F) → (⟨S50000, .f32⟩ : BufTy).Contents (Elt F)),
    StableHlo.binary main_v34 main_v35 main_v36 (addf : (⟨S50000, .f32⟩ : BufTy).Contents (Elt F) → (⟨S50000, .f32⟩ : BufTy).Contents (Elt F) → (⟨S50000, .f32⟩ : BufTy).Contents (Elt F)),
    StableHlo.unary main_v36 main_v37 (Host.rsqrt : (⟨S50000, .f32⟩ : BufTy).Contents (Elt F) → (⟨S50000, .f32⟩ : BufTy).Contents (Elt F)),
    StableHlo.nullary main_c_8 (constantI S_ 32 0#32),
    StableHlo.unary main_c_8 main_v38 (broadcastInDim S800000 ![] bcast_S_S800000 : (⟨S_, .i32⟩ : BufTy).Contents (Elt F) → (⟨S800000, .i32⟩ : BufTy).Contents (Elt F)),
    StableHlo.binary main_v28 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v40 (broadcastInDim S800000 ![] bcast_S_S800000 : (⟨S_, .i32⟩ : BufTy).Contents (Elt F) → (⟨S800000, .i32⟩ : BufTy).Contents (Elt F)),
    StableHlo.binary main_v28 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v28 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_10 (constantI S_ 32 0#32),
    StableHlo.unary main_c_10 main_v45 (broadcastInDim S800000 ![] bcast_S_S800000 : (⟨S_, .i32⟩ : BufTy).Contents (Elt F) → (⟨S800000, .i32⟩ : BufTy).Contents (Elt F)),
    StableHlo.binary main_v30 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v47 (broadcastInDim S800000 ![] bcast_S_S800000 : (⟨S_, .i32⟩ : BufTy).Contents (Elt F) → (⟨S800000, .i32⟩ : BufTy).Contents (Elt F)),
    StableHlo.binary main_v30 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v30 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.binary main_v37 main_v50 main_v51 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v44 main_v51 main_v52 (mulf : (⟨S800000, .f32⟩ : BufTy).Contents (Elt F) → (⟨S800000, .f32⟩ : BufTy).Contents (Elt F) → (⟨S800000, .f32⟩ : BufTy).Contents (Elt F)),
    StableHlo.binary main_v37 main_v37 main_v53 (mulf : (⟨S50000, .f32⟩ : BufTy).Contents (Elt F) → (⟨S50000, .f32⟩ : BufTy).Contents (Elt F) → (⟨S50000, .f32⟩ : BufTy).Contents (Elt F)) ]

/-- Relation 2's part of the first host stretch: its edge lists, the normalised degrees and the weights. -/
abbrev blk2 : List (HloOp τ sig (Elt F)) :=
  [ StableHlo.unary main_arg1 main_v54 ((extractStridedSlice S1x1x800000 ![2, 0, 0] · slices_S3x2x800000_S1x1x800000_2_0_0) : (⟨S3x2x800000, .i32⟩ : BufTy).Contents (Elt F) → (⟨S1x1x800000, .i32⟩ : BufTy).Contents (Elt F)),
    StableHlo.reshape main_v54 main_v55 rfl shapeCasts_S1x1x800000_S800000,
    StableHlo.unary main_arg1 main_v56 ((extractStridedSlice S1x1x800000 ![2, 1, 0] · slices_S3x2x800000_S1x1x800000_2_1_0) : (⟨S3x2x800000, .i32⟩ : BufTy).Contents (Elt F) → (⟨S1x1x800000, .i32⟩ : BufTy).Contents (Elt F)),
    StableHlo.reshape main_v56 main_v57 rfl shapeCasts_S1x1x800000_S800000,
    StableHlo.nullary main_cst_12 (constant S_ .f32 0x3F800000#32),
    StableHlo.unary main_cst_12 main_v58 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v59 (broadcastInDim S50000 ![] bcast_S_S50000 : (⟨S_, .f32⟩ : BufTy).Contents (Elt F) → (⟨S50000, .f32⟩ : BufTy).Contents (Elt F)),
    StableHlo.unary main_v57 main_v60 (broadcastInDim S800000x1 ![0] bcast_S800000_S800000x1_0 : (⟨S800000, .i32⟩ : BufTy).Contents (Elt F) → (⟨S800000x1, .i32⟩ : BufTy).Contents (Elt F)),
    StableHlo.ternary main_v59 main_v60 main_v58 main_v61 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.unary main_cst_14 main_v62 (broadcastInDim S50000 ![] bcast_S_S50000 : (⟨S_, .f32⟩ : BufTy).Contents (Elt F) → (⟨S50000, .f32⟩ : BufTy).Contents (Elt F)),
    StableHlo.binary main_v61 main_v62 main_v63 (addf : (⟨S50000, .f32⟩ : BufTy).Contents (Elt F) → (⟨S50000, .f32⟩ : BufTy).Contents (Elt F) → (⟨S50000, .f32⟩ : BufTy).Contents (Elt F)),
    StableHlo.unary main_v63 main_v64 (Host.rsqrt : (⟨S50000, .f32⟩ : BufTy).Contents (Elt F) → (⟨S50000, .f32⟩ : BufTy).Contents (Elt F)),
    StableHlo.nullary main_c_15 (constantI S_ 32 0#32),
    StableHlo.unary main_c_15 main_v65 (broadcastInDim S800000 ![] bcast_S_S800000 : (⟨S_, .i32⟩ : BufTy).Contents (Elt F) → (⟨S800000, .i32⟩ : BufTy).Contents (Elt F)),
    StableHlo.binary main_v55 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v67 (broadcastInDim S800000 ![] bcast_S_S800000 : (⟨S_, .i32⟩ : BufTy).Contents (Elt F) → (⟨S800000, .i32⟩ : BufTy).Contents (Elt F)),
    StableHlo.binary main_v55 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v55 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v64 main_v70 main_v71 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_17 (constantI S_ 32 0#32),
    StableHlo.unary main_c_17 main_v72 (broadcastInDim S800000 ![] bcast_S_S800000 : (⟨S_, .i32⟩ : BufTy).Contents (Elt F) → (⟨S800000, .i32⟩ : BufTy).Contents (Elt F)),
    StableHlo.binary main_v57 main_v72 main_v73 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v74 (broadcastInDim S800000 ![] bcast_S_S800000 : (⟨S_, .i32⟩ : BufTy).Contents (Elt F) → (⟨S800000, .i32⟩ : BufTy).Contents (Elt F)),
    StableHlo.binary main_v57 main_v74 main_v75 (addi : (⟨S800000, .i32⟩ : BufTy).Contents (Elt F) → (⟨S800000, .i32⟩ : BufTy).Contents (Elt F) → (⟨S800000, .i32⟩ : BufTy).Contents (Elt F)),
    StableHlo.ternary main_v73 main_v75 main_v57 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v76 main_v77 (broadcastInDim S800000x1 ![0] bcast_S800000_S800000x1_0 : (⟨S800000, .i32⟩ : BufTy).Contents (Elt F) → (⟨S800000x1, .i32⟩ : BufTy).Contents (Elt F)),
    StableHlo.binary main_v64 main_v77 main_v78 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v71 main_v78 main_v79 (mulf : (⟨S800000, .f32⟩ : BufTy).Contents (Elt F) → (⟨S800000, .f32⟩ : BufTy).Contents (Elt F) → (⟨S800000, .f32⟩ : BufTy).Contents (Elt F)),
    StableHlo.binary main_v64 main_v64 main_v80 (mulf : (⟨S50000, .f32⟩ : BufTy).Contents (Elt F) → (⟨S50000, .f32⟩ : BufTy).Contents (Elt F) → (⟨S50000, .f32⟩ : BufTy).Contents (Elt F)) ]

/-- The first host stretch is the three relations' parts one after the other. -/
theorem hostOps0_split : (Gen.hostOps0 : List (HloOp τ sig (Elt F))) = blk0 ++ (blk1 ++ blk2) := rfl

end Blocks

/-! What each relation's part of the first host stretch leaves, as a function of the contents it starts from. -/

section Parts
variable (V : Valuation τ sig (Elt Ideal))

set_option maxHeartbeats 8000000 in
/-- Part 0 leaves relation 0's source list of the edge list it found. -/
theorem blk0_v1 : StableHlo.after (blk0 (F := Ideal)) V (Proc.devRef .tc main_v1) = Cert.Spec.src0 (V (Proc.devRef .tc main_arg1)) := by
  after_results_simp
  rfl

set_option maxHeartbeats 8000000 in
/-- Part 0 leaves relation 0's target list of the edge list it found. -/
theorem blk0_v3 : StableHlo.after (blk0 (F := Ideal)) V (Proc.devRef .tc main_v3) = Cert.Spec.dst0 (V (Proc.devRef .tc main_arg1)) := by
  after_results_simp
  rfl

set_option maxHeartbeats 8000000 in
/-- Part 0 leaves relation 0's edge weights of the edge list it found. -/
theorem blk0_v25 : StableHlo.after (blk0 (F := Ideal)) V (Proc.devRef .tc main_v25) = Cert.Spec.coef (Cert.Spec.src0 (V (Proc.devRef .tc main_arg1))) (Cert.Spec.dst0 (V (Proc.devRef .tc main_arg1))) := by
  after_results_simp
  rfl

set_option maxHeartbeats 8000000 in
/-- Part 0 leaves relation 0's self-loop weights of the edge list it found. -/
theorem blk0_v26 : StableHlo.after (blk0 (F := Ideal)) V (Proc.devRef .tc main_v26) = Cert.Spec.dis2 (Cert.Spec.dst0 (V (Proc.devRef .tc main_arg1))) := by
  after_results_simp
  rfl

set_option maxHeartbeats 8000000 in
/-- Part 1 leaves relation 1's source list of the edge list it found. -/
theorem blk1_v28 : StableHlo.after (blk1 (F := Ideal)) V (Proc.devRef .tc main_v28) = Cert.Spec.src1 (V (Proc.devRef .tc main_arg1)) := by
  after_results_simp
  rfl

set_option maxHeartbeats 8000000 in
/-- Part 1 leaves relation 1's target list of the edge list it found. -/
theorem blk1_v30 : StableHlo.after (blk1 (F := Ideal)) V (Proc.devRef .tc main_v30) = Cert.Spec.dst1 (V (Proc.devRef .tc main_arg1)) := by
  after_results_simp
  rfl

set_option maxHeartbeats 8000000 in
/-- Part 1 leaves relation 1's edge weights of the edge list it found. -/
theorem blk1_v52 : StableHlo.after (blk1 (F := Ideal)) V (Proc.devRef .tc main_v52) = Cert.Spec.coef (Cert.Spec.src1 (V (Proc.devRef .tc main_arg1))) (Cert.Spec.dst1 (V (Proc.devRef .tc main_arg1))) := by
  after_results_simp
  rfl

set_option maxHeartbeats 8000000 in
/-- Part 1 leaves relation 1's self-loop weights of the edge list it found. -/
theorem blk1_v53 : StableHlo.after (blk1 (F := Ideal)) V (Proc.devRef .tc main_v53) = Cert.Spec.dis2 (Cert.Spec.dst1 (V (Proc.devRef .tc main_arg1))) := by
  after_results_simp
  rfl

set_option maxHeartbeats 8000000 in
/-- Part 2 leaves relation 2's source list of the edge list it found. -/
theorem blk2_v55 : StableHlo.after (blk2 (F := Ideal)) V (Proc.devRef .tc main_v55) = Cert.Spec.src2 (V (Proc.devRef .tc main_arg1)) := by
  after_results_simp
  rfl

set_option maxHeartbeats 8000000 in
/-- Part 2 leaves relation 2's target list of the edge list it found. -/
theorem blk2_v57 : StableHlo.after (blk2 (F := Ideal)) V (Proc.devRef .tc main_v57) = Cert.Spec.dst2 (V (Proc.devRef .tc main_arg1)) := by
  after_results_simp
  rfl

set_option maxHeartbeats 8000000 in
/-- Part 2 leaves relation 2's edge weights of the edge list it found. -/
theorem blk2_v79 : StableHlo.after (blk2 (F := Ideal)) V (Proc.devRef .tc main_v79) = Cert.Spec.coef (Cert.Spec.src2 (V (Proc.devRef .tc main_arg1))) (Cert.Spec.dst2 (V (Proc.devRef .tc main_arg1))) := by
  after_results_simp
  rfl

set_option maxHeartbeats 8000000 in
/-- Part 2 leaves relation 2's self-loop weights of the edge list it found. -/
theorem blk2_v80 : StableHlo.after (blk2 (F := Ideal)) V (Proc.devRef .tc main_v80) = Cert.Spec.dis2 (Cert.Spec.dst2 (V (Proc.devRef .tc main_arg1))) := by
  after_results_simp
  rfl

end Parts

variable (m : (ℓ : Loc nD τ sig) → Buf (Elt Ideal) ℓ) (ρ : Dev nD → PrngReg)

/-- A buffer that no operation of a host stretch writes keeps its contents through the stretch. -/
local macro "host_keep" ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The contents at the first region's entry: the three parts run one after the other from the launch memory, and
    no part writes the edge list or another part's results. -/

/-- The contents at the first region's entry: the three parts run one after the other from the launch memory. -/
theorem W1_split (c : Dev nD) (b : DevRef τ sig) :
    Gen.W1 (F := Ideal) m ρ c b = StableHlo.after blk2 (StableHlo.after blk1 (StableHlo.after blk0 (Gen.W0 m ρ c))) b := by
  show StableHlo.after Gen.hostOps0 (Gen.W0 m ρ c) b = _
  rw [hostOps0_split, StableHlo.after_append, StableHlo.after_append]

/-- The first part does not write the edge list. -/
theorem pre0_arg1 (c : Dev nD) : StableHlo.after (blk0 (F := Ideal)) (Gen.W0 m ρ c) (Proc.devRef .tc main_arg1) = m ((c : Thread nD τ).loc main_arg1) :=
  Eq.trans (by host_keep blk0 main_arg1) rfl

/-- Nor does the second part. -/
theorem pre1_arg1 (c : Dev nD) : StableHlo.after (blk1 (F := Ideal)) (StableHlo.after blk0 (Gen.W0 m ρ c)) (Proc.devRef .tc main_arg1) = m ((c : Thread nD τ).loc main_arg1) :=
  Eq.trans (by host_keep blk1 main_arg1) (pre0_arg1 m ρ c)

/-- At the first region's entry: relation 0's source list of the edge list as launched. -/
theorem W1_v1 (c : Dev nD) : Gen.W1 (F := Ideal) m ρ c (Proc.devRef .tc main_v1) = Cert.Spec.src0 (m ((c : Thread nD τ).loc main_arg1)) := by
  rw [W1_split]
  exact Eq.trans (by host_keep blk2 main_v1) (Eq.trans (by host_keep blk1 main_v1) (blk0_v1 (Gen.W0 m ρ c)))

/-- At the first region's entry: relation 0's target list of the edge list as launched. -/
theorem W1_v3 (c : Dev nD) : Gen.W1 (F := Ideal) m ρ c (Proc.devRef .tc main_v3) = Cert.Spec.dst0 (m ((c : Thread nD τ).loc main_arg1)) := by
  rw [W1_split]
  exact Eq.trans (by host_keep blk2 main_v3) (Eq.trans (by host_keep blk1 main_v3) (blk0_v3 (Gen.W0 m ρ c)))

/-- At the first region's entry: relation 0's edge weights of the edge list as launched. -/
theorem W1_v25 (c : Dev nD) : Gen.W1 (F := Ideal) m ρ c (Proc.devRef .tc main_v25) = Cert.Spec.coef (Cert.Spec.src0 (m ((c : Thread nD τ).loc main_arg1))) (Cert.Spec.dst0 (m ((c : Thread nD τ).loc main_arg1))) := by
  rw [W1_split]
  exact Eq.trans (by host_keep blk2 main_v25) (Eq.trans (by host_keep blk1 main_v25) (blk0_v25 (Gen.W0 m ρ c)))

/-- At the first region's entry: relation 0's self-loop weights of the edge list as launched. -/
theorem W1_v26 (c : Dev nD) : Gen.W1 (F := Ideal) m ρ c (Proc.devRef .tc main_v26) = Cert.Spec.dis2 (Cert.Spec.dst0 (m ((c : Thread nD τ).loc main_arg1))) := by
  rw [W1_split]
  exact Eq.trans (by host_keep blk2 main_v26) (Eq.trans (by host_keep blk1 main_v26) (blk0_v26 (Gen.W0 m ρ c)))

/-- At the first region's entry: relation 1's source list of the edge list as launched. -/
theorem W1_v28 (c : Dev nD) : Gen.W1 (F := Ideal) m ρ c (Proc.devRef .tc main_v28) = Cert.Spec.src1 (m ((c : Thread nD τ).loc main_arg1)) := by
  rw [W1_split]
  refine Eq.trans (by host_keep blk2 main_v28) ((blk1_v28 (StableHlo.after blk0 (Gen.W0 m ρ c))).trans ?_)
  rw [pre0_arg1 m ρ c]

/-- At the first region's entry: relation 1's target list of the edge list as launched. -/
theorem W1_v30 (c : Dev nD) : Gen.W1 (F := Ideal) m ρ c (Proc.devRef .tc main_v30) = Cert.Spec.dst1 (m ((c : Thread nD τ).loc main_arg1)) := by
  rw [W1_split]
  refine Eq.trans (by host_keep blk2 main_v30) ((blk1_v30 (StableHlo.after blk0 (Gen.W0 m ρ c))).trans ?_)
  rw [pre0_arg1 m ρ c]

/-- At the first region's entry: relation 1's edge weights of the edge list as launched. -/
theorem W1_v52 (c : Dev nD) : Gen.W1 (F := Ideal) m ρ c (Proc.devRef .tc main_v52) = Cert.Spec.coef (Cert.Spec.src1 (m ((c : Thread nD τ).loc main_arg1))) (Cert.Spec.dst1 (m ((c : Thread nD τ).loc main_arg1))) := by
  rw [W1_split]
  refine Eq.trans (by host_keep blk2 main_v52) ((blk1_v52 (StableHlo.after blk0 (Gen.W0 m ρ c))).trans ?_)
  rw [pre0_arg1 m ρ c]

/-- At the first region's entry: relation 1's self-loop weights of the edge list as launched. -/
theorem W1_v53 (c : Dev nD) : Gen.W1 (F := Ideal) m ρ c (Proc.devRef .tc main_v53) = Cert.Spec.dis2 (Cert.Spec.dst1 (m ((c : Thread nD τ).loc main_arg1))) := by
  rw [W1_split]
  refine Eq.trans (by host_keep blk2 main_v53) ((blk1_v53 (StableHlo.after blk0 (Gen.W0 m ρ c))).trans ?_)
  rw [pre0_arg1 m ρ c]

/-- At the first region's entry: relation 2's source list of the edge list as launched. -/
theorem W1_v55 (c : Dev nD) : Gen.W1 (F := Ideal) m ρ c (Proc.devRef .tc main_v55) = Cert.Spec.src2 (m ((c : Thread nD τ).loc main_arg1)) := by
  rw [W1_split]
  refine (blk2_v55 (StableHlo.after blk1 (StableHlo.after blk0 (Gen.W0 m ρ c)))).trans ?_
  rw [pre1_arg1 m ρ c]

/-- At the first region's entry: relation 2's target list of the edge list as launched. -/
theorem W1_v57 (c : Dev nD) : Gen.W1 (F := Ideal) m ρ c (Proc.devRef .tc main_v57) = Cert.Spec.dst2 (m ((c : Thread nD τ).loc main_arg1)) := by
  rw [W1_split]
  refine (blk2_v57 (StableHlo.after blk1 (StableHlo.after blk0 (Gen.W0 m ρ c)))).trans ?_
  rw [pre1_arg1 m ρ c]

/-- At the first region's entry: relation 2's edge weights of the edge list as launched. -/
theorem W1_v79 (c : Dev nD) : Gen.W1 (F := Ideal) m ρ c (Proc.devRef .tc main_v79) = Cert.Spec.coef (Cert.Spec.src2 (m ((c : Thread nD τ).loc main_arg1))) (Cert.Spec.dst2 (m ((c : Thread nD τ).loc main_arg1))) := by
  rw [W1_split]
  refine (blk2_v79 (StableHlo.after blk1 (StableHlo.after blk0 (Gen.W0 m ρ c)))).trans ?_
  rw [pre1_arg1 m ρ c]

/-- At the first region's entry: relation 2's self-loop weights of the edge list as launched. -/
theorem W1_v80 (c : Dev nD) : Gen.W1 (F := Ideal) m ρ c (Proc.devRef .tc main_v80) = Cert.Spec.dis2 (Cert.Spec.dst2 (m ((c : Thread nD τ).loc main_arg1))) := by
  rw [W1_split]
  refine (blk2_v80 (StableHlo.after blk1 (StableHlo.after blk0 (Gen.W0 m ρ c)))).trans ?_
  rw [pre1_arg1 m ρ c]

end Cert.KernelIdeal.Fold

end
-- ==== Proof.FoldOps.lean ====
/-
  What each later host stretch computes, as a function of the buffer contents it starts from. A two-operation stretch
  slices one relation's 128 x 128 matrix out of the stacked weights. A long stretch computes one relation's contribution
  to a layer: it gathers the rows of the transformed features at the wrapped sources, scales them by the edge weights,
  scatter-adds them into the target rows of a zero array, adds the transformed features scaled by the self-loop
  weights, and adds the relation's bias row — the specification's contribution of the arrays found — and, for the first
  two relations of a layer, it also slices the next relation's weight matrix.
-/
import proofs.«140704_j79388175499709_1_alg».proof.Proof.Gen.KernelIdeal.Launch
import proofs.«140704_j79388175499709_1_alg».proof.Proof.Spec
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

/-! What each later host stretch leaves in the arrays it produces, as a function of the contents it starts from: a
    relation's slice of the stacked weights, and a relation's contribution (the weighted neighbour sum, the self loop
    and the bias row) from the edge lists, the weights and the transformed features found in the buffers. -/

variable (V : Valuation τ sig (Elt Ideal))

/-- The stretch slices relation 0's weight matrix of layer 1 out of the stacked weights it found. -/
theorem ops1_v83 : StableHlo.after (Gen.hostOps1 (F := Ideal)) V (Proc.devRef .tc main_v83) = Cert.Spec.wgt0 (V (Proc.devRef .tc main_arg4)) := by
  after_results_simp
  rfl

/-- The stretch slices relation 0's weight matrix of layer 2 out of the stacked weights it found. -/
theorem ops5_v159 : StableHlo.after (Gen.hostOps5 (F := Ideal)) V (Proc.devRef .tc main_v159) = Cert.Spec.wgt0 (V (Proc.devRef .tc main_arg6)) := by
  after_results_simp
  rfl

set_option maxHeartbeats 8000000 in
/-- The stretch leaves relation 0's contribution to layer 1, computed from the arrays it found. -/
theorem ops2_v106 : StableHlo.after (Gen.hostOps2 (F := Ideal)) V (Proc.devRef .tc main_v106)
    = Cert.Spec.contribOf (V (Proc.devRef .tc main_v1)) (V (Proc.devRef .tc main_v3)) (V (Proc.devRef .tc main_v25)) (V (Proc.devRef .tc main_v26)) (V (Proc.devRef .tc main_v84)) (Cert.Spec.bia0 (V (Proc.devRef .tc main_arg5))) := by
  after_results_simp
  rfl

/-- The stretch slices relation 1's weight matrix of layer 1 out of the stacked weights it found. -/
theorem ops2_v108 : StableHlo.after (Gen.hostOps2 (F := Ideal)) V (Proc.devRef .tc main_v108) = Cert.Spec.wgt1 (V (Proc.devRef .tc main_arg4)) := by
  after_results_simp
  rfl

set_option maxHeartbeats 8000000 in
/-- The stretch leaves relation 1's contribution to layer 1, computed from the arrays it found. -/
theorem ops3_v131 : StableHlo.after (Gen.hostOps3 (F := Ideal)) V (Proc.devRef .tc main_v131)
    = Cert.Spec.contribOf (V (Proc.devRef .tc main_v28)) (V (Proc.devRef .tc main_v30)) (V (Proc.devRef .tc main_v52)) (V (Proc.devRef .tc main_v53)) (V (Proc.devRef .tc main_v109)) (Cert.Spec.bia1 (V (Proc.devRef .tc main_arg5))) := by
  after_results_simp
  rfl

/-- The stretch slices relation 2's weight matrix of layer 1 out of the stacked weights it found. -/
theorem ops3_v133 : StableHlo.after (Gen.hostOps3 (F := Ideal)) V (Proc.devRef .tc main_v133) = Cert.Spec.wgt2 (V (Proc.devRef .tc main_arg4)) := by
  after_results_simp
  rfl

set_option maxHeartbeats 8000000 in
/-- The stretch leaves relation 2's contribution to layer 1, computed from the arrays it found. -/
theorem ops4_v156 : StableHlo.after (Gen.hostOps4 (F := Ideal)) V (Proc.devRef .tc main_v156)
    = Cert.Spec.contribOf (V (Proc.devRef .tc main_v55)) (V (Proc.devRef .tc main_v57)) (V (Proc.devRef .tc main_v79)) (V (Proc.devRef .tc main_v80)) (V (Proc.devRef .tc main_v134)) (Cert.Spec.bia2 (V (Proc.devRef .tc main_arg5))) := by
  after_results_simp
  rfl

set_option maxHeartbeats 8000000 in
/-- The stretch leaves relation 0's contribution to layer 2, computed from the arrays it found. -/
theorem ops6_v182 : StableHlo.after (Gen.hostOps6 (F := Ideal)) V (Proc.devRef .tc main_v182)
    = Cert.Spec.contribOf (V (Proc.devRef .tc main_v1)) (V (Proc.devRef .tc main_v3)) (V (Proc.devRef .tc main_v25)) (V (Proc.devRef .tc main_v26)) (V (Proc.devRef .tc main_v160)) (Cert.Spec.bia0 (V (Proc.devRef .tc main_arg7))) := by
  after_results_simp
  rfl

/-- The stretch slices relation 1's weight matrix of layer 2 out of the stacked weights it found. -/
theorem ops6_v184 : StableHlo.after (Gen.hostOps6 (F := Ideal)) V (Proc.devRef .tc main_v184) = Cert.Spec.wgt1 (V (Proc.devRef .tc main_arg6)) := by
  after_results_simp
  rfl

set_option maxHeartbeats 8000000 in
/-- The stretch leaves relation 1's contribution to layer 2, computed from the arrays it found. -/
theorem ops7_v207 : StableHlo.after (Gen.hostOps7 (F := Ideal)) V (Proc.devRef .tc main_v207)
    = Cert.Spec.contribOf (V (Proc.devRef .tc main_v28)) (V (Proc.devRef .tc main_v30)) (V (Proc.devRef .tc main_v52)) (V (Proc.devRef .tc main_v53)) (V (Proc.devRef .tc main_v185)) (Cert.Spec.bia1 (V (Proc.devRef .tc main_arg7))) := by
  after_results_simp
  rfl

/-- The stretch slices relation 2's weight matrix of layer 2 out of the stacked weights it found. -/
theorem ops7_v209 : StableHlo.after (Gen.hostOps7 (F := Ideal)) V (Proc.devRef .tc main_v209) = Cert.Spec.wgt2 (V (Proc.devRef .tc main_arg6)) := by
  after_results_simp
  rfl

set_option maxHeartbeats 8000000 in
/-- The stretch leaves relation 2's contribution to layer 2, computed from the arrays it found. -/
theorem ops8_v232 : StableHlo.after (Gen.hostOps8 (F := Ideal)) V (Proc.devRef .tc main_v232)
    = Cert.Spec.contribOf (V (Proc.devRef .tc main_v55)) (V (Proc.devRef .tc main_v57)) (V (Proc.devRef .tc main_v79)) (V (Proc.devRef .tc main_v80)) (V (Proc.devRef .tc main_v210)) (Cert.Spec.bia2 (V (Proc.devRef .tc main_arg7))) := by
  after_results_simp
  rfl

end Cert.KernelIdeal.Fold

end
-- ==== Proof.DotsR.lean ====
/-
  Matrix products read at a position. For each product record of the whole arrays, the sum over the record's contraction
  index is re-indexed to a plain sum over `Fin K`, with the two factors read at explicit (row, column) pairs: the
  left factor at (output row, k), the right factor at (k, output column). This is the form in which a product over a
  row block and the product over the whole array can be compared term by term.
-/
import proofs.«140704_j79388175499709_1_alg».proof.ReferenceIdeal
import proofs.«140704_j79388175499709_1_alg».proof.Proof.Gen.ReferenceIdeal
import Idealize.ShloMosaic.PureOps.Ideal.Laws
import Idealize.ShloMosaic.Lib.ValueIdx

noncomputable section

namespace Cert.ReferenceIdeal.Dots

open Idealize.ShloMosaic Cert.ReferenceIdeal Cert.ReferenceIdeal.Facts₀ Cert.ReferenceIdeal.Facts

/-! ### `dot_S50000x300_S300x128_S50000x128_1_0_0_1_n_n`: [50000,300] times [300,128] -/

theorem e_lhs0 (i : S50000x128.Idx) (q : dot_S50000x300_S300x128_S50000x128_1_0_0_1_n_n.contr.Idx) : (dot_S50000x300_S300x128_S50000x128_1_0_0_1_n_n.lhsIdx i q 0).val = (i 0).val := by
  unfold DotDims.lhsIdx
  rw [dif_neg (show ¬(0 : Fin S50000x300.rank) ∈ dot_S50000x300_S300x128_S50000x128_1_0_0_1_n_n.lhsBatch by decide), dif_pos (show (0 : Fin S50000x300.rank) ∈ dot_S50000x300_S300x128_S50000x128_1_0_0_1_n_n.lhsNonContracting by decide)]
  rfl
theorem e_lhs1 (i : S50000x128.Idx) (q : dot_S50000x300_S300x128_S50000x128_1_0_0_1_n_n.contr.Idx) : (dot_S50000x300_S300x128_S50000x128_1_0_0_1_n_n.lhsIdx i q 1).val = (q ⟨0, by decide⟩).val :=
  dot_S50000x300_S300x128_S50000x128_1_0_0_1_n_n.lhsIdx_val_of_single rfl i q
theorem e_rhs0 (i : S50000x128.Idx) (q : dot_S50000x300_S300x128_S50000x128_1_0_0_1_n_n.contr.Idx) : (dot_S50000x300_S300x128_S50000x128_1_0_0_1_n_n.rhsIdx i q 0).val = (q ⟨0, by decide⟩).val :=
  dot_S50000x300_S300x128_S50000x128_1_0_0_1_n_n.rhsIdx_val_of_single rfl i q
theorem e_rhs1 (i : S50000x128.Idx) (q : dot_S50000x300_S300x128_S50000x128_1_0_0_1_n_n.contr.Idx) : (dot_S50000x300_S300x128_S50000x128_1_0_0_1_n_n.rhsIdx i q 1).val = (i 1).val := by
  unfold DotDims.rhsIdx
  rw [dif_neg (show ¬(1 : Fin S300x128.rank) ∈ dot_S50000x300_S300x128_S50000x128_1_0_0_1_n_n.rhsBatch by decide), dif_pos (show (1 : Fin S300x128.rank) ∈ dot_S50000x300_S300x128_S50000x128_1_0_0_1_n_n.rhsNonContracting by decide)]
  rfl

/-- The contraction sum of this product at output position `i` is the plain sum, over the 300 inner positions `k`, of
    entry `(i 0, k)` of the left factor times entry `(k, i 1)` of the right factor. -/
theorem e_sum (x : S50000x300.Idx → EReal) (y : S300x128.Idx → EReal) (i : S50000x128.Idx) :
    ∑ q : dot_S50000x300_S300x128_S50000x128_1_0_0_1_n_n.contr.Idx, x (dot_S50000x300_S300x128_S50000x128_1_0_0_1_n_n.lhsIdx i q) * y (dot_S50000x300_S300x128_S50000x128_1_0_0_1_n_n.rhsIdx i q)
      = ∑ k : Fin 300, x (ValueIdx.ix2 (n0 := 50000) (n1 := 300) (i 0) k) * y (ValueIdx.ix2 (n0 := 300) (n1 := 128) k (i 1)) := by
  rw [← Equiv.sum_comp (ValueIdx.contrEquiv1 dot_S50000x300_S300x128_S50000x128_1_0_0_1_n_n 300 rfl rfl).symm]
  refine Finset.sum_congr rfl fun k _ => ?_
  have hk := ValueIdx.contrEquiv1_symm_val dot_S50000x300_S300x128_S50000x128_1_0_0_1_n_n 300 rfl rfl k
  have el : dot_S50000x300_S300x128_S50000x128_1_0_0_1_n_n.lhsIdx i ((ValueIdx.contrEquiv1 dot_S50000x300_S300x128_S50000x128_1_0_0_1_n_n 300 rfl rfl).symm k) = ValueIdx.ix2 (n0 := 50000) (n1 := 300) (i 0) k := funext fun a => Fin.ext (by
    match a with
    | ⟨0, _⟩ => exact e_lhs0 _ _
    | ⟨1, _⟩ => exact (e_lhs1 _ _).trans hk)
  have er : dot_S50000x300_S300x128_S50000x128_1_0_0_1_n_n.rhsIdx i ((ValueIdx.contrEquiv1 dot_S50000x300_S300x128_S50000x128_1_0_0_1_n_n 300 rfl rfl).symm k) = ValueIdx.ix2 (n0 := 300) (n1 := 128) k (i 1) := funext fun a => Fin.ext (by
    match a with
    | ⟨0, _⟩ => exact (e_rhs0 _ _).trans hk
    | ⟨1, _⟩ => exact e_rhs1 _ _)
  rw [el, er]

/-! ### `dot_S50000x128_S128x128_S50000x128_1_0_0_1_n_n`: [50000,128] times [128,128] -/

theorem g_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem g_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem g_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem g_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The contraction sum of this product at output position `i` is the plain sum, over the 128 inner positions `k`, of
    entry `(i 0, k)` of the left factor times entry `(k, i 1)` of the right factor. -/
theorem g_sum (x : S50000x128.Idx → EReal) (y : S128x128.Idx → EReal) (i : S50000x128.Idx) :
    ∑ q : dot_S50000x128_S128x128_S50000x128_1_0_0_1_n_n.contr.Idx, x (dot_S50000x128_S128x128_S50000x128_1_0_0_1_n_n.lhsIdx i q) * y (dot_S50000x128_S128x128_S50000x128_1_0_0_1_n_n.rhsIdx i q)
      = ∑ k : Fin 128, x (ValueIdx.ix2 (n0 := 50000) (n1 := 128) (i 0) k) * y (ValueIdx.ix2 (n0 := 128) (n1 := 128) k (i 1)) := by
  rw [← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ValueIdx.ix2 (n0 := 50000) (n1 := 128) (i 0) k := funext fun a => Fin.ext (by
    match a with
    | ⟨0, _⟩ => exact g_lhs0 _ _
    | ⟨1, _⟩ => exact (g_lhs1 _ _).trans hk)
  have er : dot_S50000x128_S128x128_S50000x128_1_0_0_1_n_n.rhsIdx i ((ValueIdx.contrEquiv1 dot_S50000x128_S128x128_S50000x128_1_0_0_1_n_n 128 rfl rfl).symm k) = ValueIdx.ix2 (n0 := 128) (n1 := 128) k (i 1) := funext fun a => Fin.ext (by
    match a with
    | ⟨0, _⟩ => exact (g_rhs0 _ _).trans hk
    | ⟨1, _⟩ => exact g_rhs1 _ _)
  rw [el, er]

/-! ### `dot_S50000x128_S128x64_S50000x64_1_0_0_1_n_n`: [50000,128] times [128,64] -/

theorem o_lhs0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem o_lhs1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem o_rhs0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem o_rhs1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The contraction sum of this product at output position `i` is the plain sum, over the 128 inner positions `k`, of
    entry `(i 0, k)` of the left factor times entry `(k, i 1)` of the right factor. -/
theorem o_sum (x : S50000x128.Idx → EReal) (y : S128x64.Idx → EReal) (i : S50000x64.Idx) :
    ∑ q : dot_S50000x128_S128x64_S50000x64_1_0_0_1_n_n.contr.Idx, x (dot_S50000x128_S128x64_S50000x64_1_0_0_1_n_n.lhsIdx i q) * y (dot_S50000x128_S128x64_S50000x64_1_0_0_1_n_n.rhsIdx i q)
      = ∑ k : Fin 128, x (ValueIdx.ix2 (n0 := 50000) (n1 := 128) (i 0) k) * y (ValueIdx.ix2 (n0 := 128) (n1 := 64) k (i 1)) := by
  rw [← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ValueIdx.ix2 (n0 := 50000) (n1 := 128) (i 0) k := funext fun a => Fin.ext (by
    match a with
    | ⟨0, _⟩ => exact o_lhs0 _ _
    | ⟨1, _⟩ => exact (o_lhs1 _ _).trans hk)
  have er : dot_S50000x128_S128x64_S50000x64_1_0_0_1_n_n.rhsIdx i ((ValueIdx.contrEquiv1 dot_S50000x128_S128x64_S50000x64_1_0_0_1_n_n 128 rfl rfl).symm k) = ValueIdx.ix2 (n0 := 128) (n1 := 64) k (i 1) := funext fun a => Fin.ext (by
    match a with
    | ⟨0, _⟩ => exact (o_rhs0 _ _).trans hk
    | ⟨1, _⟩ => exact o_rhs1 _ _)
  rw [el, er]

end Cert.ReferenceIdeal.Dots

end
-- ==== Proof.SpecAt.lean ====
/-
  The pieces of the specification read at one position, on the extended reals.
  A matrix product is the sum over the inner positions of the products of the entries; a bias repeated down the rows
  contributes the entry of its column; the rectifier is the maximum with 0; the zero array is 0 everywhere, so a sum
  started from it is the sum itself (`0 + a = a` holds for every extended real, infinite ones included).
-/
import proofs.«140704_j79388175499709_1_alg».proof.Proof.Spec
import proofs.«140704_j79388175499709_1_alg».proof.Proof.DotsR
import Idealize.ShloMosaic.Lib.Pipeline.Value
import Idealize.ShloMosaic.Lib.ValueIdx

noncomputable section

namespace Cert.Spec.At

open Idealize.ShloMosaic Idealize.ShloMosaic.ValueIdx Cert.ReferenceIdeal Cert.ReferenceIdeal.Facts₀ Cert.ReferenceIdeal.Facts Cert.Spec

/-- The zero array is 0 at every position. -/
theorem zeros_apply (i : S50000x128.Idx) : zeros (F := Ideal) i = (0 : EReal) := by
  unfold zeros
  exact (broadcastInDim_apply _ _ _ i (fun a => a.elim0) (fun a => a.elim0)).trans Ideal.ofBits_zero_f32

/-- The rectifier at a position. -/
theorem relu_apply (x : Arr (F := Ideal) ⟨S50000x128, .f32⟩) (i : S50000x128.Idx) : relu x i = max (x i) (0 : EReal) := by
  unfold relu
  show max (x i) (zeros (F := Ideal) i) = _
  rw [zeros_apply]

/-- A bias repeated down the rows, at position (r, c), is the bias's entry c. -/
theorem rowBias_apply (b : Arr (F := Ideal) ⟨S128, .f32⟩) (i : S50000x128.Idx) :
    rowBias b i = b (ix1 (n := 128) (i 1)) := by
  unfold rowBias
  rw [broadcastInDim_apply _ _ _ i (ix2 (n0 := 1) (n1 := 128) 0 (i 1)) (fun a => by match a with | ⟨0, _⟩ => rfl | ⟨1, _⟩ => rfl)]
  exact broadcastInDim_apply _ _ _ _ (ix1 (n := 128) (i 1)) (fun a => by match a with | ⟨0, _⟩ => rfl)

/-- Features times a relation's weights, at a position. -/
theorem mm_apply (h : Arr (F := Ideal) ⟨S50000x128, .f32⟩) (w : Arr (F := Ideal) ⟨S128x128, .f32⟩) (i : S50000x128.Idx) :
    mm h w i = ∑ k : Fin 128, h (ix2 (n0 := 50000) (n1 := 128) (i 0) k) * w (ix2 (n0 := 128) (n1 := 128) k (i 1)) := by
  unfold mm
  simp only [Host.dotGeneral]
  exact (Ideal.dotGeneral_apply _ _ _ _ _ i).trans (Cert.ReferenceIdeal.Dots.g_sum _ _ i)

/-- The embedding at a position. -/
theorem embed_apply (x : Arr (F := Ideal) ⟨S50000x300, .f32⟩) (w : Arr (F := Ideal) ⟨S300x128, .f32⟩) (b : Arr (F := Ideal) ⟨S128, .f32⟩)
    (i : S50000x128.Idx) :
    embed x w b i = max ((∑ k : Fin 300, x (ix2 (n0 := 50000) (n1 := 300) (i 0) k) * w (ix2 (n0 := 300) (n1 := 128) k (i 1))) + b (ix1 (n := 128) (i 1))) (0 : EReal) := by
  unfold embed
  rw [relu_apply]
  show max (Host.dotGeneral (F := Ideal) dot_S50000x300_S300x128_S50000x128_1_0_0_1_n_n none x w i + rowBias b i) 0 = _
  rw [rowBias_apply]
  simp only [Host.dotGeneral]
  rw [(Ideal.dotGeneral_apply _ _ _ _ _ i).trans (Cert.ReferenceIdeal.Dots.e_sum _ _ i)]

/-- The output head at a position. -/
theorem head_apply (h : Arr (F := Ideal) ⟨S50000x128, .f32⟩) (w : Arr (F := Ideal) ⟨S128x64, .f32⟩) (b : Arr (F := Ideal) ⟨S64, .f32⟩)
    (i : S50000x64.Idx) :
    head h w b i = (∑ k : Fin 128, h (ix2 (n0 := 50000) (n1 := 128) (i 0) k) * w (ix2 (n0 := 128) (n1 := 64) k (i 1))) + b (ix1 (n := 64) (i 1)) := by
  unfold head
  show Host.dotGeneral (F := Ideal) dot_S50000x128_S128x64_S50000x64_1_0_0_1_n_n none h w i
      + broadcastInDim S50000x64 ![0, 1] bcast_S1x64_S50000x64_0_1 (broadcastInDim S1x64 ![1] bcast_S64_S1x64_1 b) i = _
  rw [broadcastInDim_apply _ _ _ i (ix2 (n0 := 1) (n1 := 64) 0 (i 1)) (fun a => by match a with | ⟨0, _⟩ => rfl | ⟨1, _⟩ => rfl),
    broadcastInDim_apply _ _ _ _ (ix1 (n := 64) (i 1)) (fun a => by match a with | ⟨0, _⟩ => rfl)]
  simp only [Host.dotGeneral]
  rw [(Ideal.dotGeneral_apply _ _ _ _ _ i).trans (Cert.ReferenceIdeal.Dots.o_sum _ _ i)]

/-- The rectified sum of three contributions at a position. -/
theorem combine_apply (c0 c1 c2 : Arr (F := Ideal) ⟨S50000x128, .f32⟩) (i : S50000x128.Idx) :
    combine c0 c1 c2 i = max (c0 i + c1 i + c2 i) (0 : EReal) := by
  unfold combine
  rw [relu_apply]
  rfl

/-- Starting the layer sum from the zero array changes nothing. -/
theorem combine0_eq (c0 c1 c2 : Arr (F := Ideal) ⟨S50000x128, .f32⟩) : combine0 c0 c1 c2 = combine c0 c1 c2 := by
  funext i
  rw [combine_apply]
  unfold combine0
  rw [relu_apply]
  show max (zeros (F := Ideal) i + c0 i + c1 i + c2 i) 0 = _
  rw [zeros_apply, zero_add]

end Cert.Spec.At

end
-- ==== Proof.DotsK.lean ====
/-
  Matrix products read at a position. For each product record of the kernel's row blocks, the sum over the record's contraction
  index is re-indexed to a plain sum over `Fin K`, with the two factors read at explicit (row, column) pairs: the
  left factor at (output row, k), the right factor at (k, output column). This is the form in which a product over a
  row block and the product over the whole array can be compared term by term.
-/
import proofs.«140704_j79388175499709_1_alg».proof.KernelIdeal
import proofs.«140704_j79388175499709_1_alg».proof.Proof.Gen.KernelIdeal
import Idealize.ShloMosaic.PureOps.Ideal.Laws
import Idealize.ShloMosaic.Lib.ValueIdx

noncomputable section

namespace Cert.KernelIdeal.Dots

open Idealize.ShloMosaic Cert.KernelIdeal Cert.KernelIdeal.Facts₀ Cert.KernelIdeal.Facts

/-! ### `dot_S5000x300_S300x128_S5000x128_1_0_0_1_n_n`: [5000,300] times [300,128] -/

theorem e_lhs0 (i : S5000x128.Idx) (q : dot_S5000x300_S300x128_S5000x128_1_0_0_1_n_n.contr.Idx) : (dot_S5000x300_S300x128_S5000x128_1_0_0_1_n_n.lhsIdx i q 0).val = (i 0).val := by
  unfold DotDims.lhsIdx
  rw [dif_neg (show ¬(0 : Fin S5000x300.rank) ∈ dot_S5000x300_S300x128_S5000x128_1_0_0_1_n_n.lhsBatch by decide), dif_pos (show (0 : Fin S5000x300.rank) ∈ dot_S5000x300_S300x128_S5000x128_1_0_0_1_n_n.lhsNonContracting by decide)]
  rfl
theorem e_lhs1 (i : S5000x128.Idx) (q : dot_S5000x300_S300x128_S5000x128_1_0_0_1_n_n.contr.Idx) : (dot_S5000x300_S300x128_S5000x128_1_0_0_1_n_n.lhsIdx i q 1).val = (q ⟨0, by decide⟩).val :=
  dot_S5000x300_S300x128_S5000x128_1_0_0_1_n_n.lhsIdx_val_of_single rfl i q
theorem e_rhs0 (i : S5000x128.Idx) (q : dot_S5000x300_S300x128_S5000x128_1_0_0_1_n_n.contr.Idx) : (dot_S5000x300_S300x128_S5000x128_1_0_0_1_n_n.rhsIdx i q 0).val = (q ⟨0, by decide⟩).val :=
  dot_S5000x300_S300x128_S5000x128_1_0_0_1_n_n.rhsIdx_val_of_single rfl i q
theorem e_rhs1 (i : S5000x128.Idx) (q : dot_S5000x300_S300x128_S5000x128_1_0_0_1_n_n.contr.Idx) : (dot_S5000x300_S300x128_S5000x128_1_0_0_1_n_n.rhsIdx i q 1).val = (i 1).val := by
  unfold DotDims.rhsIdx
  rw [dif_neg (show ¬(1 : Fin S300x128.rank) ∈ dot_S5000x300_S300x128_S5000x128_1_0_0_1_n_n.rhsBatch by decide), dif_pos (show (1 : Fin S300x128.rank) ∈ dot_S5000x300_S300x128_S5000x128_1_0_0_1_n_n.rhsNonContracting by decide)]
  rfl

/-- The contraction sum of this product at output position `i` is the plain sum, over the 300 inner positions `k`, of
    entry `(i 0, k)` of the left factor times entry `(k, i 1)` of the right factor. -/
theorem e_sum (x : S5000x300.Idx → EReal) (y : S300x128.Idx → EReal) (i : S5000x128.Idx) :
    ∑ q : dot_S5000x300_S300x128_S5000x128_1_0_0_1_n_n.contr.Idx, x (dot_S5000x300_S300x128_S5000x128_1_0_0_1_n_n.lhsIdx i q) * y (dot_S5000x300_S300x128_S5000x128_1_0_0_1_n_n.rhsIdx i q)
      = ∑ k : Fin 300, x (ValueIdx.ix2 (n0 := 5000) (n1 := 300) (i 0) k) * y (ValueIdx.ix2 (n0 := 300) (n1 := 128) k (i 1)) := by
  rw [← Equiv.sum_comp (ValueIdx.contrEquiv1 dot_S5000x300_S300x128_S5000x128_1_0_0_1_n_n 300 rfl rfl).symm]
  refine Finset.sum_congr rfl fun k _ => ?_
  have hk := ValueIdx.contrEquiv1_symm_val dot_S5000x300_S300x128_S5000x128_1_0_0_1_n_n 300 rfl rfl k
  have el : dot_S5000x300_S300x128_S5000x128_1_0_0_1_n_n.lhsIdx i ((ValueIdx.contrEquiv1 dot_S5000x300_S300x128_S5000x128_1_0_0_1_n_n 300 rfl rfl).symm k) = ValueIdx.ix2 (n0 := 5000) (n1 := 300) (i 0) k := funext fun a => Fin.ext (by
    match a with
    | ⟨0, _⟩ => exact e_lhs0 _ _
    | ⟨1, _⟩ => exact (e_lhs1 _ _).trans hk)
  have er : dot_S5000x300_S300x128_S5000x128_1_0_0_1_n_n.rhsIdx i ((ValueIdx.contrEquiv1 dot_S5000x300_S300x128_S5000x128_1_0_0_1_n_n 300 rfl rfl).symm k) = ValueIdx.ix2 (n0 := 300) (n1 := 128) k (i 1) := funext fun a => Fin.ext (by
    match a with
    | ⟨0, _⟩ => exact (e_rhs0 _ _).trans hk
    | ⟨1, _⟩ => exact e_rhs1 _ _)
  rw [el, er]

/-! ### `dot_S5000x128_S128x128_S5000x128_1_0_0_1_n_n`: [5000,128] times [128,128] -/

theorem g_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem g_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem g_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem g_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction sum of this product at output position `i` is the plain sum, over the 128 inner positions `k`, of
    entry `(i 0, k)` of the left factor times entry `(k, i 1)` of the right factor. -/
theorem g_sum (x : S5000x128.Idx → EReal) (y : S128x128.Idx → EReal) (i : S5000x128.Idx) :
    ∑ q : dot_S5000x128_S128x128_S5000x128_1_0_0_1_n_n.contr.Idx, x (dot_S5000x128_S128x128_S5000x128_1_0_0_1_n_n.lhsIdx i q) * y (dot_S5000x128_S128x128_S5000x128_1_0_0_1_n_n.rhsIdx i q)
      = ∑ k : Fin 128, x (ValueIdx.ix2 (n0 := 5000) (n1 := 128) (i 0) k) * y (ValueIdx.ix2 (n0 := 128) (n1 := 128) k (i 1)) := by
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = ValueIdx.ix2 (n0 := 5000) (n1 := 128) (i 0) k := funext fun a => Fin.ext (by
    match a with
    | ⟨0, _⟩ => exact g_lhs0 _ _
    | ⟨1, _⟩ => exact (g_lhs1 _ _).trans hk)
  have er : dot_S5000x128_S128x128_S5000x128_1_0_0_1_n_n.rhsIdx i ((ValueIdx.contrEquiv1 dot_S5000x128_S128x128_S5000x128_1_0_0_1_n_n 128 rfl rfl).symm k) = ValueIdx.ix2 (n0 := 128) (n1 := 128) k (i 1) := funext fun a => Fin.ext (by
    match a with
    | ⟨0, _⟩ => exact (g_rhs0 _ _).trans hk
    | ⟨1, _⟩ => exact g_rhs1 _ _)
  rw [el, er]

/-! ### `dot_S5000x128_S128x64_S5000x64_1_0_0_1_n_n`: [5000,128] times [128,64] -/

theorem o_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem o_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem o_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem o_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The contraction sum of this product at output position `i` is the plain sum, over the 128 inner positions `k`, of
    entry `(i 0, k)` of the left factor times entry `(k, i 1)` of the right factor. -/
theorem o_sum (x : S5000x128.Idx → EReal) (y : S128x64.Idx → EReal) (i : S5000x64.Idx) :
    ∑ q : dot_S5000x128_S128x64_S5000x64_1_0_0_1_n_n.contr.Idx, x (dot_S5000x128_S128x64_S5000x64_1_0_0_1_n_n.lhsIdx i q) * y (dot_S5000x128_S128x64_S5000x64_1_0_0_1_n_n.rhsIdx i q)
      = ∑ k : Fin 128, x (ValueIdx.ix2 (n0 := 5000) (n1 := 128) (i 0) k) * y (ValueIdx.ix2 (n0 := 128) (n1 := 64) k (i 1)) := by
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = ValueIdx.ix2 (n0 := 5000) (n1 := 128) (i 0) k := funext fun a => Fin.ext (by
    match a with
    | ⟨0, _⟩ => exact o_lhs0 _ _
    | ⟨1, _⟩ => exact (o_lhs1 _ _).trans hk)
  have er : dot_S5000x128_S128x64_S5000x64_1_0_0_1_n_n.rhsIdx i ((ValueIdx.contrEquiv1 dot_S5000x128_S128x64_S5000x64_1_0_0_1_n_n 128 rfl rfl).symm k) = ValueIdx.ix2 (n0 := 128) (n1 := 64) k (i 1) := funext fun a => Fin.ext (by
    match a with
    | ⟨0, _⟩ => exact (o_rhs0 _ _).trans hk
    | ⟨1, _⟩ => exact o_rhs1 _ _)
  rw [el, er]

end Cert.KernelIdeal.Dots

end
-- ==== Proof.Reg0.lean ====
/-
  Region 0: the feature embedding relu (x · W + b), ten row blocks of 5000 rows at a time.
  Each block multiplies its 5000 rows of the [50000,300] input by the whole [300,128] weight matrix into a zero
  accumulator (the casts to bf16 are the identity on the extended reals), adds the bias row and takes the maximum with 0,
  so entry (r, c) of block t is max (Σ_k x (5000 t + r, k) · W (k, c) + b c) 0, the embedding's entry (5000 t + r, c).
  The ten blocks tile the 50000 rows.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a <;> rfl

/-- The body's result at position (r, c) of a block: row r of the loaded rows against column c of the weights, plus
    the bias's entry c, rectified. -/
theorem pay_apply (x0 : Vec Ideal S5000x300 .f32) (x1 : Vec Ideal S300x128 .f32) (x2 : Vec Ideal S128 .f32) (j : S5000x128.Idx) :
    k0_pay1 x0 x1 x2 j = max ((∑ k : Fin 300, x0 (ix2 (n0 := 5000) (n1 := 300) (j 0) k) * x1 (ix2 (n0 := 300) (n1 := 128) k (j 1))) + x2 (ix1 (n := 128) (j 1))) (0 : EReal) := by
  have hm : matmul (F := Ideal) dot_S5000x300_S300x128_S5000x128_1_0_0_1_n_n none (truncf .bf16 x0 bitsLt_bf16_f32) (truncf .bf16 x1 bitsLt_bf16_f32) (constant S5000x128 .f32 0x00000000#32) j
      = ∑ k : Fin 300, x0 (ix2 (n0 := 5000) (n1 := 300) (j 0) k) * x1 (ix2 (n0 := 300) (n1 := 128) k (j 1)) := by
    exact (Ideal.matmul_constant_zero_apply dot_S5000x300_S300x128_S5000x128_1_0_0_1_n_n none _ _ j).trans (Cert.KernelIdeal.Dots.e_sum _ _ j)
  have hb : broadcastTo S5000x128 (shapeCast S1x128 x2 shapeCasts_S128_S1x128) broadcasts_S1x128_S5000x128 j = x2 (ix1 (n := 128) (j 1)) :=
    (broadcastTo_apply _ _ j (ix2 (n0 := 1) (n1 := 128) 0 (j 1)) (fun a => by match a with | ⟨0, _⟩ => rfl | ⟨1, _⟩ => rfl)).trans
      ((shapeCast_addUnit_apply ![128] x2 _ _).trans (congrArg x2 (funext fun a => by match a with | ⟨0, _⟩ => rfl)))
  unfold k0_pay1
  show max (matmul (F := Ideal) dot_S5000x300_S300x128_S5000x128_1_0_0_1_n_n none (truncf .bf16 x0 bitsLt_bf16_f32) (truncf .bf16 x1 bitsLt_bf16_f32) (constant S5000x128 .f32 0x00000000#32) j
      + broadcastTo S5000x128 (shapeCast S1x128 x2 shapeCasts_S128_S1x128) broadcasts_S1x128_S5000x128 j) (Ideal.ofBits .f32 0x00000000#32) = _
  rw [hm, hb, Ideal.ofBits_zero_f32]

/-- The block index maps over the ten grid points: the rows' block moves with the output's block, the weights and
    the bias stay. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) ≤ 9 :=
  (by decide +kernel : ∀ t : Fin grid0.N, _)

/-- Every row block is some grid point's. -/
theorem idx_onto : ∀ q : Fin 10, ∃ t : Fin cfg0.N, win0_3.index t = ![q.val, 0] :=
  (by decide +kernel : ∀ q : Fin 10, ∃ t : Fin grid0.N, win0_3.index t = ![q.val, 0])

/-- What grid point t writes back is block t of the whole-array function. -/
theorem flushed_eq (c : Dev nD) (t : Fin cfg0.N) :
    (dat0 V c).flushed 3 t = ((cfg0.win 3).blk t).view.read (Elt Ideal) (Cert.Spec.embed (F := Ideal) (V c main_arg0) (V c main_arg2) (V c main_arg3)) := by
  show (cfg0.win 3).cut (grid0.coords t) ((dat0 V c).after 3 t) = _
  rw [after0_3]
  unfold out0_3
  rw [View.canon_unit_zero hz]
  simp only [View.ld_unit_zero (S := S5000x300) hz, View.ld_unit_zero (S := S300x128) hz, View.ld_unit_zero (S := S128) hz1]
  obtain ⟨e0, e1, e2, e3, e4, e5, e6⟩ := idx_facts t
  funext j
  show k0_pay1 (iblk0 V c 0 t) (iblk0 V c 1 t) (iblk0 V c 2 t) j = Cert.Spec.embed (F := Ideal) (V c main_arg0) (V c main_arg2) (V c main_arg3) (((cfg0.win 3).blk t).view.emb j)
  refine (pay_apply (iblk0 V c 0 t) (iblk0 V c 1 t) (iblk0 V c 2 t) j).trans ((Cert.Spec.At.embed_apply (V c main_arg0) (V c main_arg2) (V c main_arg3) _).trans ?_).symm
  have h0 : ∀ k : Fin 300, (ix2 (n0 := 50000) (n1 := 300) ((((cfg0.win 3).blk t).view.emb j) 0) k : S50000x300.Idx) = ((cfg0.win 0).blk t).view.emb (ix2 (n0 := 5000) (n1 := 300) (j 0) k) := by
    intro k; funext a; apply Fin.ext
    match a with
    | ⟨0, _⟩ => show win0_3.index t (0 : Fin 2) * 5000 + 1 * (j 0).val = win0_0.index t (0 : Fin 2) * 5000 + 1 * (j 0).val; omega
    | ⟨1, _⟩ => show k.val = win0_0.index t (1 : Fin 2) * 300 + 1 * k.val; omega
  have h1 : ∀ k : Fin 300, (ix2 (n0 := 300) (n1 := 128) k ((((cfg0.win 3).blk t).view.emb j) 1) : S300x128.Idx) = ((cfg0.win 1).blk t).view.emb (ix2 (n0 := 300) (n1 := 128) k (j 1)) := by
    intro k; funext a; apply Fin.ext
    match a with
    | ⟨0, _⟩ => show k.val = win0_1.index t (0 : Fin 2) * 300 + 1 * k.val; omega
    | ⟨1, _⟩ => show win0_3.index t (1 : Fin 2) * 128 + 1 * (j 1).val = win0_1.index t (1 : Fin 2) * 128 + 1 * (j 1).val; omega
  have h2 : (ix1 (n := 128) ((((cfg0.win 3).blk t).view.emb j) 1) : S128.Idx) = ((cfg0.win 2).blk t).view.emb (ix1 (n := 128) (j 1)) := by
    funext a; apply Fin.ext
    match a with
    | ⟨0, _⟩ => show win0_3.index t (1 : Fin 2) * 128 + 1 * (j 1).val = win0_2.index t (0 : Fin 1) * 128 + 1 * (j 1).val; omega
  rw [h2]
  simp only [h0, h1]
  rfl

/-- A position of the output array lies in grid point t's block exactly when each coordinate lies in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v81).slice (win0_3.rect t)).set ↔ _
  rw [View.set_slice_whole, Rect.mem_set_unit]
  exact Iff.rfl

/-- Every position is in some grid point's block: row r is in row block r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array is that function of the arrays the region found. -/
theorem final (c : Dev nD) :
    (dat0 V c).arrAt 3 cfg0.N = Cert.Spec.embed (F := Ideal) (V c main_arg0) (V c main_arg2) (V c main_arg3) :=
  (dat0 V c).arrAt_eq_of_cover 3 _ (fun t _ => flushed_eq V c t) cover

end Cert.KernelIdeal.Reg0

end
-- ==== Proof.Reg1.lean ====
/-
  Region 1: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k1_pay1 x0 x1 j = ∑ k : Fin 128, x0 (ix2 (n0 := 5000) (n1 := 128) (j 0) k) * x1 (ix2 (n0 := 128) (n1 := 128) k (j 1)) := by
  unfold k1_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some grid point's. -/
theorem idx_onto : ∀ q : Fin 10, ∃ t : Fin cfg1.N, win1_2.index t = ![q.val, 0] :=
  (by decide +kernel : ∀ q : Fin 10, ∃ t : Fin grid1.N, win1_2.index t = ![q.val, 0])

/-- What grid point t writes back is block t of the whole product. -/
theorem flushed_eq (c : Dev nD) (t : Fin cfg1.N) :
    (dat1 V c).flushed 2 t = ((cfg1.win 2).blk t).view.read (Elt Ideal) (Cert.Spec.mm (F := Ideal) (V c main_v81) (V c main_v83)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (iblk1 V c 0 t) (iblk1 V c 1 t) j = Cert.Spec.mm (F := Ideal) (V c main_v81) (V c main_v83) (((cfg1.win 2).blk t).view.emb j)
  refine (pay_apply (iblk1 V c 0 t) (iblk1 V c 1 t) j).trans ((Cert.Spec.At.mm_apply (V c main_v81) (V c main_v83) _).trans ?_).symm
  refine Finset.sum_congr rfl fun k _ => ?_
  have h0 : (ix2 (n0 := 50000) (n1 := 128) ((((cfg1.win 2).blk t).view.emb j) 0) k : S50000x128.Idx) = ((cfg1.win 0).blk t).view.emb (ix2 (n0 := 5000) (n1 := 128) (j 0) k) := by
    funext a; apply Fin.ext
    match a with
    | ⟨0, _⟩ => show win1_2.index t (0 : Fin 2) * 5000 + 1 * (j 0).val = win1_0.index t (0 : Fin 2) * 5000 + 1 * (j 0).val; omega
    | ⟨1, _⟩ => show k.val = win1_0.index t (1 : Fin 2) * 128 + 1 * k.val; omega
  have h1 : (ix2 (n0 := 128) (n1 := 128) k ((((cfg1.win 2).blk t).view.emb j) 1) : S128x128.Idx) = ((cfg1.win 1).blk t).view.emb (ix2 (n0 := 128) (n1 := 128) k (j 1)) := by
    funext a; apply Fin.ext
    match a with
    | ⟨0, _⟩ => show k.val = win1_1.index t (0 : Fin 2) * 128 + 1 * k.val; omega
    | ⟨1, _⟩ => show win1_2.index t (1 : Fin 2) * 128 + 1 * (j 1).val = win1_1.index t (1 : Fin 2) * 128 + 1 * (j 1).val; omega
  rw [h0, h1]
  rfl

/-- A position of the output array lies in grid point t's block exactly when each coordinate lies in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v84).slice (win1_2.rect t)).set ↔ _
  rw [View.set_slice_whole, Rect.mem_set_unit]
  exact Iff.rfl

/-- Every position is in some grid point's block: row r is in row block r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the whole product of the arrays the region found. -/
theorem final (c : Dev nD) :
    (dat1 V c).arrAt 2 cfg1.N = Cert.Spec.mm (F := Ideal) (V c main_v81) (V c main_v83) :=
  (dat1 V c).arrAt_eq_of_cover 2 _ (fun t _ => flushed_eq V c t) cover

end Cert.KernelIdeal.Reg1

end
-- ==== Proof.Reg2.lean ====
/-
  Region 2: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k2_pay1 x0 x1 j = ∑ k : Fin 128, x0 (ix2 (n0 := 5000) (n1 := 128) (j 0) k) * x1 (ix2 (n0 := 128) (n1 := 128) k (j 1)) := by
  unfold k2_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some grid point's. -/
theorem idx_onto : ∀ q : Fin 10, ∃ t : Fin cfg2.N, win2_2.index t = ![q.val, 0] :=
  (by decide +kernel : ∀ q : Fin 10, ∃ t : Fin grid2.N, win2_2.index t = ![q.val, 0])

/-- What grid point t writes back is block t of the whole product. -/
theorem flushed_eq (c : Dev nD) (t : Fin cfg2.N) :
    (dat2 V c).flushed 2 t = ((cfg2.win 2).blk t).view.read (Elt Ideal) (Cert.Spec.mm (F := Ideal) (V c main_v81) (V c main_v108)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = Cert.Spec.mm (F := Ideal) (V c main_v81) (V c main_v108) (((cfg2.win 2).blk t).view.emb j)
  refine (pay_apply (iblk2 V c 0 t) (iblk2 V c 1 t) j).trans ((Cert.Spec.At.mm_apply (V c main_v81) (V c main_v108) _).trans ?_).symm
  refine Finset.sum_congr rfl fun k _ => ?_
  have h0 : (ix2 (n0 := 50000) (n1 := 128) ((((cfg2.win 2).blk t).view.emb j) 0) k : S50000x128.Idx) = ((cfg2.win 0).blk t).view.emb (ix2 (n0 := 5000) (n1 := 128) (j 0) k) := by
    funext a; apply Fin.ext
    match a with
    | ⟨0, _⟩ => show win2_2.index t (0 : Fin 2) * 5000 + 1 * (j 0).val = win2_0.index t (0 : Fin 2) * 5000 + 1 * (j 0).val; omega
    | ⟨1, _⟩ => show k.val = win2_0.index t (1 : Fin 2) * 128 + 1 * k.val; omega
  have h1 : (ix2 (n0 := 128) (n1 := 128) k ((((cfg2.win 2).blk t).view.emb j) 1) : S128x128.Idx) = ((cfg2.win 1).blk t).view.emb (ix2 (n0 := 128) (n1 := 128) k (j 1)) := by
    funext a; apply Fin.ext
    match a with
    | ⟨0, _⟩ => show k.val = win2_1.index t (0 : Fin 2) * 128 + 1 * k.val; omega
    | ⟨1, _⟩ => show win2_2.index t (1 : Fin 2) * 128 + 1 * (j 1).val = win2_1.index t (1 : Fin 2) * 128 + 1 * (j 1).val; omega
  rw [h0, h1]
  rfl

/-- A position of the output array lies in grid point t's block exactly when each coordinate lies in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v109).slice (win2_2.rect t)).set ↔ _
  rw [View.set_slice_whole, Rect.mem_set_unit]
  exact Iff.rfl

/-- Every position is in some grid point's block: row r is in row block r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the whole product of the arrays the region found. -/
theorem final (c : Dev nD) :
    (dat2 V c).arrAt 2 cfg2.N = Cert.Spec.mm (F := Ideal) (V c main_v81) (V c main_v108) :=
  (dat2 V c).arrAt_eq_of_cover 2 _ (fun t _ => flushed_eq V c t) cover

end Cert.KernelIdeal.Reg2

end
-- ==== Proof.Reg3.lean ====
/-
  Region 3: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k3_pay1 x0 x1 j = ∑ k : Fin 128, x0 (ix2 (n0 := 5000) (n1 := 128) (j 0) k) * x1 (ix2 (n0 := 128) (n1 := 128) k (j 1)) := by
  unfold k3_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some grid point's. -/
theorem idx_onto : ∀ q : Fin 10, ∃ t : Fin cfg3.N, win3_2.index t = ![q.val, 0] :=
  (by decide +kernel : ∀ q : Fin 10, ∃ t : Fin grid3.N, win3_2.index t = ![q.val, 0])

/-- What grid point t writes back is block t of the whole product. -/
theorem flushed_eq (c : Dev nD) (t : Fin cfg3.N) :
    (dat3 V c).flushed 2 t = ((cfg3.win 2).blk t).view.read (Elt Ideal) (Cert.Spec.mm (F := Ideal) (V c main_v81) (V c main_v133)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  show k3_pay1 (iblk3 V c 0 t) (iblk3 V c 1 t) j = Cert.Spec.mm (F := Ideal) (V c main_v81) (V c main_v133) (((cfg3.win 2).blk t).view.emb j)
  refine (pay_apply (iblk3 V c 0 t) (iblk3 V c 1 t) j).trans ((Cert.Spec.At.mm_apply (V c main_v81) (V c main_v133) _).trans ?_).symm
  refine Finset.sum_congr rfl fun k _ => ?_
  have h0 : (ix2 (n0 := 50000) (n1 := 128) ((((cfg3.win 2).blk t).view.emb j) 0) k : S50000x128.Idx) = ((cfg3.win 0).blk t).view.emb (ix2 (n0 := 5000) (n1 := 128) (j 0) k) := by
    funext a; apply Fin.ext
    match a with
    | ⟨0, _⟩ => show win3_2.index t (0 : Fin 2) * 5000 + 1 * (j 0).val = win3_0.index t (0 : Fin 2) * 5000 + 1 * (j 0).val; omega
    | ⟨1, _⟩ => show k.val = win3_0.index t (1 : Fin 2) * 128 + 1 * k.val; omega
  have h1 : (ix2 (n0 := 128) (n1 := 128) k ((((cfg3.win 2).blk t).view.emb j) 1) : S128x128.Idx) = ((cfg3.win 1).blk t).view.emb (ix2 (n0 := 128) (n1 := 128) k (j 1)) := by
    funext a; apply Fin.ext
    match a with
    | ⟨0, _⟩ => show k.val = win3_1.index t (0 : Fin 2) * 128 + 1 * k.val; omega
    | ⟨1, _⟩ => show win3_2.index t (1 : Fin 2) * 128 + 1 * (j 1).val = win3_1.index t (1 : Fin 2) * 128 + 1 * (j 1).val; omega
  rw [h0, h1]
  rfl

/-- A position of the output array lies in grid point t's block exactly when each coordinate lies in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v134).slice (win3_2.rect t)).set ↔ _
  rw [View.set_slice_whole, Rect.mem_set_unit]
  exact Iff.rfl

/-- Every position is in some grid point's block: row r is in row block r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the output array is the whole product of the arrays the region found. -/
theorem final (c : Dev nD) :
    (dat3 V c).arrAt 2 cfg3.N = Cert.Spec.mm (F := Ideal) (V c main_v81) (V c main_v133) :=
  (dat3 V c).arrAt_eq_of_cover 2 _ (fun t _ => flushed_eq V c t) cover

end Cert.KernelIdeal.Reg3

end
-- ==== Proof.Reg4.lean ====
/-
  Region 4: the three relations' contributions added entry by entry, left to right, and rectified, ten row blocks
  of 5000 rows at a time. Each block reads the same rows of the three input arrays as it writes of the output, so
  entry (r, c) of block t is max (c0 + c1 + c2) 0 at row 5000 t + r; the ten blocks tile the 50000 rows.
-/
import proofs.«140704_j79388175499709_1_alg».proof.Proof.Gen.KernelIdeal.Frame
import proofs.«140704_j79388175499709_1_alg».proof.Proof.SpecAt
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a position of a block. -/
theorem pay_apply (x0 x2 x5 : Vec Ideal S5000x128 .f32) (j : S5000x128.Idx) :
    k4_pay1 x0 x2 x5 j = max (x0 j + x2 j + x5 j) (0 : EReal) := by
  unfold k4_pay1
  simp only [shapeCast_self]
  show max (x0 j + x2 j + x5 j) (Ideal.ofBits .f32 0x00000000#32) = _
  rw [Ideal.ofBits_zero_f32]

/-- The block index maps over the ten grid points: all four windows move together down the rows. -/
theorem idx_facts : ∀ t : Fin cfg4.N, win4_0.index t (0 : Fin 2) = win4_3.index t (0 : Fin 2)
    ∧ win4_1.index t (0 : Fin 2) = win4_3.index t (0 : Fin 2) ∧ win4_2.index t (0 : Fin 2) = win4_3.index t (0 : Fin 2)
    ∧ win4_0.index t (1 : Fin 2) = 0 ∧ win4_1.index t (1 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some grid point's. -/
theorem idx_onto : ∀ q : Fin 10, ∃ t : Fin cfg4.N, win4_3.index t = ![q.val, 0] :=
  (by decide +kernel : ∀ q : Fin 10, ∃ t : Fin grid4.N, win4_3.index t = ![q.val, 0])

/-- What grid point t writes back is block t of the rectified sum. -/
theorem flushed_eq (c : Dev nD) (t : Fin cfg4.N) :
    (dat4 V c).flushed 3 t = ((cfg4.win 3).blk t).view.read (Elt Ideal) (Cert.Spec.combine (F := Ideal) (V c main_v106) (V c main_v131) (V c main_v156)) := by
  show (cfg4.win 3).cut (grid4.coords t) ((dat4 V c).after 3 t) = _
  rw [after4_3]
  unfold out4_3
  rw [View.canon_unit_zero hz]
  simp only [View.ld_unit_zero (S := S5000x128) hz]
  obtain ⟨e0, e1, e2, e3, e4, e5, e6, e7⟩ := idx_facts t
  funext j
  show k4_pay1 (iblk4 V c 0 t) (iblk4 V c 1 t) (iblk4 V c 2 t) j = Cert.Spec.combine (F := Ideal) (V c main_v106) (V c main_v131) (V c main_v156) (((cfg4.win 3).blk t).view.emb j)
  refine (pay_apply (iblk4 V c 0 t) (iblk4 V c 1 t) (iblk4 V c 2 t) j).trans ((Cert.Spec.At.combine_apply (V c main_v106) (V c main_v131) (V c main_v156) _).trans ?_).symm
  have h0 : ((cfg4.win 3).blk t).view.emb j = ((cfg4.win 0).blk t).view.emb j := by
    funext a; apply Fin.ext
    match a with
    | ⟨0, _⟩ => show win4_3.index t (0 : Fin 2) * 5000 + 1 * (j 0).val = win4_0.index t (0 : Fin 2) * 5000 + 1 * (j 0).val; omega
    | ⟨1, _⟩ => show win4_3.index t (1 : Fin 2) * 128 + 1 * (j 1).val = win4_0.index t (1 : Fin 2) * 128 + 1 * (j 1).val; omega
  have h1 : ((cfg4.win 3).blk t).view.emb j = ((cfg4.win 1).blk t).view.emb j := by
    funext a; apply Fin.ext
    match a with
    | ⟨0, _⟩ => show win4_3.index t (0 : Fin 2) * 5000 + 1 * (j 0).val = win4_1.index t (0 : Fin 2) * 5000 + 1 * (j 0).val; omega
    | ⟨1, _⟩ => show win4_3.index t (1 : Fin 2) * 128 + 1 * (j 1).val = win4_1.index t (1 : Fin 2) * 128 + 1 * (j 1).val; omega
  have h2 : ((cfg4.win 3).blk t).view.emb j = ((cfg4.win 2).blk t).view.emb j := by
    funext a; apply Fin.ext
    match a with
    | ⟨0, _⟩ => show win4_3.index t (0 : Fin 2) * 5000 + 1 * (j 0).val = win4_2.index t (0 : Fin 2) * 5000 + 1 * (j 0).val; omega
    | ⟨1, _⟩ => show win4_3.index t (1 : Fin 2) * 128 + 1 * (j 1).val = win4_2.index t (1 : Fin 2) * 128 + 1 * (j 1).val; omega
  have a0 : V c main_v106 (((cfg4.win 3).blk t).view.emb j) = iblk4 V c 0 t j := by rw [h0]; rfl
  have a1 : V c main_v131 (((cfg4.win 3).blk t).view.emb j) = iblk4 V c 1 t j := by rw [h1]; rfl
  have a2 : V c main_v156 (((cfg4.win 3).blk t).view.emb j) = iblk4 V c 2 t j := by rw [h2]; rfl
  rw [a0, a1, a2]

/-- A position of the output array lies in grid point t's block exactly when each coordinate lies in the block's range. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v157).slice (win4_3.rect t)).set ↔ _
  rw [View.set_slice_whole, Rect.mem_set_unit]
  exact Iff.rfl

/-- Every position is in some grid point's block: row r is in row block r / 5000. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- After the region the output array is that function of the arrays the region found. -/
theorem final (c : Dev nD) :
    (dat4 V c).arrAt 3 cfg4.N = Cert.Spec.combine (F := Ideal) (V c main_v106) (V c main_v131) (V c main_v156) :=
  (dat4 V c).arrAt_eq_of_cover 3 _ (fun t _ => flushed_eq V c t) cover

end Cert.KernelIdeal.Reg4

end
-- ==== Proof.Reg5.lean ====
/-
  Region 5: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k5_pay1 x0 x1 j = ∑ k : Fin 128, x0 (ix2 (n0 := 5000) (n1 := 128) (j 0) k) * x1 (ix2 (n0 := 128) (n1 := 128) k (j 1)) := by
  unfold k5_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block is some grid point's. -/
theorem idx_onto : ∀ q : Fin 10, ∃ t : Fin cfg5.N, win5_2.index t = ![q.val, 0] :=
  (by decide +kernel : ∀ q : Fin 10, ∃ t : Fin grid5.N, win5_2.index t = ![q.val, 0])

/-- What grid point t writes back is block t of the whole product. -/
theorem flushed_eq (c : Dev nD) (t : Fin cfg5.N) :
    (dat5 V c).flushed 2 t = ((cfg5.win 2).blk t).view.read (Elt Ideal) (Cert.Spec.mm (F := Ideal) (V c main_v157) (V c main_v159)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  obtain ⟨e0, e1, e2, e3, e4, e5⟩ := idx_facts t
  funext j
  show k5_pay1 (iblk5 V c 0 t) (iblk5 V c 1 t) j = Cert.Spec.mm (F := Ideal) (V c main_v157) (V c main_v159) (((cfg5.win 2).blk t).view.emb j)
  refine (pay_apply (iblk5 V c 0 t) (iblk5 V c 1 t) j).trans ((Cert.Spec.At.mm_apply (V c main_v157) (V c main_v159) _).trans ?_).symm
  refine Finset.sum_congr rfl fun k _ => ?_
  have h0 : (ix2 (n0 := 50000) (n1 := 128) ((((cfg5.win 2).blk t).view.emb j) 0) k : S50000x128.Idx) = ((cfg5.win 0).blk t).view.emb (ix2 (n0 := 5000) (n1 := 128) (j 0) k) := by
    funext a; apply Fin.ext
    match a with
    | ⟨0, _⟩ => show win5_2.index t (0 : Fin 2) * 5000 + 1 * (j 0).val = win5_0.index t (0 : Fin 2) * 5000 + 1 * (j 0).val; omega
    | ⟨1, _⟩ => show k.val = win5_0.index t (1 : Fin 2) * 128 + 1 * k.val; omega
  have h1 : (ix2 (n0 := 128) (n1 := 128) k ((((cfg5.win 2).blk t).view.emb j) 1) : S128x128.Idx) = ((cfg5.win 1).blk t).view.emb (ix2 (n0 := 128) (n1 := 128) k (j 1)) := by
    funext a; apply Fin.ext
    match a with
    | ⟨0, _⟩ => show k.val = win5_1.index t (0 : Fin 2) * 128 + 1 * k.val; omega
    | ⟨1, _⟩ => show win5_2.index t (1 : Fin 2) * 128 + 1 * (j 1).val = win5_1.index t (1 : Fin 2) * 128 + 1 * (j 1).val; omega
  rw [h0, h1]
  rfl

/-- A position of the output array lies in grid point t's block exactly when each coordinate lies in the block's range. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v160).slice (win5_2.rect t)).set ↔ _
  rw [View.set_slice_whole, Rect.mem_set_unit]
  exact Iff.rfl

/-- Every position is in some grid point's block: row r is in row block r / 5000. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region the output array is the whole product of the arrays the region found. -/
theorem final (c : Dev nD) :
    (dat5 V c).arrAt 2 cfg5.N = Cert.Spec.mm (F := Ideal) (V c main_v157) (V c main_v159) :=
  (dat5 V c).arrAt_eq_of_cover 2 _ (fun t _ => flushed_eq V c t) cover

end Cert.KernelIdeal.Reg5

end
-- ==== Proof.Reg6.lean ====
/-
  Region 6: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k6_pay1 x0 x1 j = ∑ k : Fin 128, x0 (ix2 (n0 := 5000) (n1 := 128) (j 0) k) * x1 (ix2 (n0 := 128) (n1 := 128) k (j 1)) := by
  unfold k6_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 9 :=
  (by decide +kernel : ∀ t : Fin grid6.N, _)

/-- Every row block is some grid point's. -/
theorem idx_onto : ∀ q : Fin 10, ∃ t : Fin cfg6.N, win6_2.index t = ![q.val, 0] :=
  (by decide +kernel : ∀ q : Fin 10, ∃ t : Fin grid6.N, win6_2.index t = ![q.val, 0])

/-- What grid point t writes back is block t of the whole product. -/
theorem flushed_eq (c : Dev nD) (t : Fin cfg6.N) :
    (dat6 V c).flushed 2 t = ((cfg6.win 2).blk t).view.read (Elt Ideal) (Cert.Spec.mm (F := Ideal) (V c main_v157) (V c main_v184)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5⟩ := idx_facts t
  funext j
  show k6_pay1 (iblk6 V c 0 t) (iblk6 V c 1 t) j = Cert.Spec.mm (F := Ideal) (V c main_v157) (V c main_v184) (((cfg6.win 2).blk t).view.emb j)
  refine (pay_apply (iblk6 V c 0 t) (iblk6 V c 1 t) j).trans ((Cert.Spec.At.mm_apply (V c main_v157) (V c main_v184) _).trans ?_).symm
  refine Finset.sum_congr rfl fun k _ => ?_
  have h0 : (ix2 (n0 := 50000) (n1 := 128) ((((cfg6.win 2).blk t).view.emb j) 0) k : S50000x128.Idx) = ((cfg6.win 0).blk t).view.emb (ix2 (n0 := 5000) (n1 := 128) (j 0) k) := by
    funext a; apply Fin.ext
    match a with
    | ⟨0, _⟩ => show win6_2.index t (0 : Fin 2) * 5000 + 1 * (j 0).val = win6_0.index t (0 : Fin 2) * 5000 + 1 * (j 0).val; omega
    | ⟨1, _⟩ => show k.val = win6_0.index t (1 : Fin 2) * 128 + 1 * k.val; omega
  have h1 : (ix2 (n0 := 128) (n1 := 128) k ((((cfg6.win 2).blk t).view.emb j) 1) : S128x128.Idx) = ((cfg6.win 1).blk t).view.emb (ix2 (n0 := 128) (n1 := 128) k (j 1)) := by
    funext a; apply Fin.ext
    match a with
    | ⟨0, _⟩ => show k.val = win6_1.index t (0 : Fin 2) * 128 + 1 * k.val; omega
    | ⟨1, _⟩ => show win6_2.index t (1 : Fin 2) * 128 + 1 * (j 1).val = win6_1.index t (1 : Fin 2) * 128 + 1 * (j 1).val; omega
  rw [h0, h1]
  rfl

/-- A position of the output array lies in grid point t's block exactly when each coordinate lies in the block's range. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v185).slice (win6_2.rect t)).set ↔ _
  rw [View.set_slice_whole, Rect.mem_set_unit]
  exact Iff.rfl

/-- Every position is in some grid point's block: row r is in row block r / 5000. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- After the region the output array is the whole product of the arrays the region found. -/
theorem final (c : Dev nD) :
    (dat6 V c).arrAt 2 cfg6.N = Cert.Spec.mm (F := Ideal) (V c main_v157) (V c main_v184) :=
  (dat6 V c).arrAt_eq_of_cover 2 _ (fun t _ => flushed_eq V c t) cover

end Cert.KernelIdeal.Reg6

end
-- ==== Proof.Reg7.lean ====
/-
  Region 7: the node features times one relation's weight matrix, computed ten row blocks of 5000 rows at a time.
  Every block multiplies its 5000 rows of the features by the whole 128 x 128 weight matrix into a zero accumulator
  (the casts to bf16 in between are the identity on the extended reals), so entry (r, c) of block t is
  the sum over k of features (5000 t + r, k) times weights (k, c): exactly entry (5000 t + r, c) of the whole product.
  The ten blocks tile the 50000 rows, so the output array ends as the whole product.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg7

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at position (r, c) of a block: row r of the loaded features against column c of the weights. -/
theorem pay_apply (x0 : Vec Ideal S5000x128 .f32) (x1 : Vec Ideal S128x128 .f32) (j : S5000x128.Idx) :
    k7_pay1 x0 x1 j = ∑ k : Fin 128, x0 (ix2 (n0 := 5000) (n1 := 128) (j 0) k) * x1 (ix2 (n0 := 128) (n1 := 128) k (j 1)) := by
  unfold k7_pay1
  simp only [shapeCast_self]
  exact (Ideal.matmul_constant_zero_apply dot_S5000x128_S128x128_S5000x128_1_0_0_1_n_n none _ _ j).trans (Cert.KernelIdeal.Dots.g_sum _ _ j)

/-- The block index maps over the ten grid points: the features' block moves with the output's block down the rows,
    the weights' block stays, and there are ten row blocks. -/
theorem idx_facts : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) ≤ 9 :=
  (by decide +kernel : ∀ t : Fin grid7.N, _)

/-- Every row block is some grid point's. -/
theorem idx_onto : ∀ q : Fin 10, ∃ t : Fin cfg7.N, win7_2.index t = ![q.val, 0] :=
  (by decide +kernel : ∀ q : Fin 10, ∃ t : Fin grid7.N, win7_2.index t = ![q.val, 0])

/-- What grid point t writes back is block t of the whole product. -/
theorem flushed_eq (c : Dev nD) (t : Fin cfg7.N) :
    (dat7 V c).flushed 2 t = ((cfg7.win 2).blk t).view.read (Elt Ideal) (Cert.Spec.mm (F := Ideal) (V c main_v157) (V c main_v209)) := by
  show (cfg7.win 2).cut (grid7.coords t) ((dat7 V c).after 2 t) = _
  rw [after7_2]
  unfold out7_2
  rw [View.canon_unit_zero hz]
  simp only [View.ld_unit_zero (S := S5000x128) hz, View.ld_unit_zero (S := S128x128) hz]
  obtain ⟨e0, e1, e2, e3, e4, e5⟩ := idx_facts t
  funext j
  show k7_pay1 (iblk7 V c 0 t) (iblk7 V c 1 t) j = Cert.Spec.mm (F := Ideal) (V c main_v157) (V c main_v209) (((cfg7.win 2).blk t).view.emb j)
  refine (pay_apply (iblk7 V c 0 t) (iblk7 V c 1 t) j).trans ((Cert.Spec.At.mm_apply (V c main_v157) (V c main_v209) _).trans ?_).symm
  refine Finset.sum_congr rfl fun k _ => ?_
  have h0 : (ix2 (n0 := 50000) (n1 := 128) ((((cfg7.win 2).blk t).view.emb j) 0) k : S50000x128.Idx) = ((cfg7.win 0).blk t).view.emb (ix2 (n0 := 5000) (n1 := 128) (j 0) k) := by
    funext a; apply Fin.ext
    match a with
    | ⟨0, _⟩ => show win7_2.index t (0 : Fin 2) * 5000 + 1 * (j 0).val = win7_0.index t (0 : Fin 2) * 5000 + 1 * (j 0).val; omega
    | ⟨1, _⟩ => show k.val = win7_0.index t (1 : Fin 2) * 128 + 1 * k.val; omega
  have h1 : (ix2 (n0 := 128) (n1 := 128) k ((((cfg7.win 2).blk t).view.emb j) 1) : S128x128.Idx) = ((cfg7.win 1).blk t).view.emb (ix2 (n0 := 128) (n1 := 128) k (j 1)) := by
    funext a; apply Fin.ext
    match a with
    | ⟨0, _⟩ => show k.val = win7_1.index t (0 : Fin 2) * 128 + 1 * k.val; omega
    | ⟨1, _⟩ => show win7_2.index t (1 : Fin 2) * 128 + 1 * (j 1).val = win7_1.index t (1 : Fin 2) * 128 + 1 * (j 1).val; omega
  rw [h0, h1]
  rfl

/-- A position of the output array lies in grid point t's block exactly when each coordinate lies in the block's range. -/
theorem mem_blk (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v210).slice (win7_2.rect t)).set ↔ _
  rw [View.set_slice_whole, Rect.mem_set_unit]
  exact Iff.rfl

/-- Every position is in some grid point's block: row r is in row block r / 5000. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- After the region the output array is the whole product of the arrays the region found. -/
theorem final (c : Dev nD) :
    (dat7 V c).arrAt 2 cfg7.N = Cert.Spec.mm (F := Ideal) (V c main_v157) (V c main_v209) :=
  (dat7 V c).arrAt_eq_of_cover 2 _ (fun t _ => flushed_eq V c t) cover

end Cert.KernelIdeal.Reg7

end
-- ==== Proof.Reg8.lean ====
/-
  Region 8: the three relations' contributions added entry by entry, left to right, and rectified, ten row blocks
  of 5000 rows at a time. Each block reads the same rows of the three input arrays as it writes of the output, so
  entry (r, c) of block t is max (c0 + c1 + c2) 0 at row 5000 t + r; the ten blocks tile the 50000 rows.
-/
import proofs.«140704_j79388175499709_1_alg».proof.Proof.Gen.KernelIdeal.Frame
import proofs.«140704_j79388175499709_1_alg».proof.Proof.SpecAt
import Idealize.ShloMosaic.Lib.Pipeline.Value

set_option maxRecDepth 16384

noncomputable section

namespace Cert.KernelIdeal.Reg8

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a position of a block. -/
theorem pay_apply (x0 x2 x5 : Vec Ideal S5000x128 .f32) (j : S5000x128.Idx) :
    k8_pay1 x0 x2 x5 j = max (x0 j + x2 j + x5 j) (0 : EReal) := by
  unfold k8_pay1
  simp only [shapeCast_self]
  show max (x0 j + x2 j + x5 j) (Ideal.ofBits .f32 0x00000000#32) = _
  rw [Ideal.ofBits_zero_f32]

/-- The block index maps over the ten grid points: all four windows move together down the rows. -/
theorem idx_facts : ∀ t : Fin cfg8.N, win8_0.index t (0 : Fin 2) = win8_3.index t (0 : Fin 2)
    ∧ win8_1.index t (0 : Fin 2) = win8_3.index t (0 : Fin 2) ∧ win8_2.index t (0 : Fin 2) = win8_3.index t (0 : Fin 2)
    ∧ win8_0.index t (1 : Fin 2) = 0 ∧ win8_1.index t (1 : Fin 2) = 0 ∧ win8_2.index t (1 : Fin 2) = 0
    ∧ win8_3.index t (1 : Fin 2) = 0 ∧ win8_3.index t (0 : Fin 2) ≤ 9 :=
  (by decide +kernel : ∀ t : Fin grid8.N, _)

/-- Every row block is some grid point's. -/
theorem idx_onto : ∀ q : Fin 10, ∃ t : Fin cfg8.N, win8_3.index t = ![q.val, 0] :=
  (by decide +kernel : ∀ q : Fin 10, ∃ t : Fin grid8.N, win8_3.index t = ![q.val, 0])

/-- What grid point t writes back is block t of the rectified sum. -/
theorem flushed_eq (c : Dev nD) (t : Fin cfg8.N) :
    (dat8 V c).flushed 3 t = ((cfg8.win 3).blk t).view.read (Elt Ideal) (Cert.Spec.combine (F := Ideal) (V c main_v182) (V c main_v207) (V c main_v232)) := by
  show (cfg8.win 3).cut (grid8.coords t) ((dat8 V c).after 3 t) = _
  rw [after8_3]
  unfold out8_3
  rw [View.canon_unit_zero hz]
  simp only [View.ld_unit_zero (S := S5000x128) hz]
  obtain ⟨e0, e1, e2, e3, e4, e5, e6, e7⟩ := idx_facts t
  funext j
  show k8_pay1 (iblk8 V c 0 t) (iblk8 V c 1 t) (iblk8 V c 2 t) j = Cert.Spec.combine (F := Ideal) (V c main_v182) (V c main_v207) (V c main_v232) (((cfg8.win 3).blk t).view.emb j)
  refine (pay_apply (iblk8 V c 0 t) (iblk8 V c 1 t) (iblk8 V c 2 t) j).trans ((Cert.Spec.At.combine_apply (V c main_v182) (V c main_v207) (V c main_v232) _).trans ?_).symm
  have h0 : ((cfg8.win 3).blk t).view.emb j = ((cfg8.win 0).blk t).view.emb j := by
    funext a; apply Fin.ext
    match a with
    | ⟨0, _⟩ => show win8_3.index t (0 : Fin 2) * 5000 + 1 * (j 0).val = win8_0.index t (0 : Fin 2) * 5000 + 1 * (j 0).val; omega
    | ⟨1, _⟩ => show win8_3.index t (1 : Fin 2) * 128 + 1 * (j 1).val = win8_0.index t (1 : Fin 2) * 128 + 1 * (j 1).val; omega
  have h1 : ((cfg8.win 3).blk t).view.emb j = ((cfg8.win 1).blk t).view.emb j := by
    funext a; apply Fin.ext
    match a with
    | ⟨0, _⟩ => show win8_3.index t (0 : Fin 2) * 5000 + 1 * (j 0).val = win8_1.index t (0 : Fin 2) * 5000 + 1 * (j 0).val; omega
    | ⟨1, _⟩ => show win8_3.index t (1 : Fin 2) * 128 + 1 * (j 1).val = win8_1.index t (1 : Fin 2) * 128 + 1 * (j 1).val; omega
  have h2 : ((cfg8.win 3).blk t).view.emb j = ((cfg8.win 2).blk t).view.emb j := by
    funext a; apply Fin.ext
    match a with
    | ⟨0, _⟩ => show win8_3.index t (0 : Fin 2) * 5000 + 1 * (j 0).val = win8_2.index t (0 : Fin 2) * 5000 + 1 * (j 0).val; omega
    | ⟨1, _⟩ => show win8_3.index t (1 : Fin 2) * 128 + 1 * (j 1).val = win8_2.index t (1 : Fin 2) * 128 + 1 * (j 1).val; omega
  have a0 : V c main_v182 (((cfg8.win 3).blk t).view.emb j) = iblk8 V c 0 t j := by rw [h0]; rfl
  have a1 : V c main_v207 (((cfg8.win 3).blk t).view.emb j) = iblk8 V c 1 t j := by rw [h1]; rfl
  have a2 : V c main_v232 (((cfg8.win 3).blk t).view.emb j) = iblk8 V c 2 t j := by rw [h2]; rfl
  rw [a0, a1, a2]

/-- A position of the output array lies in grid point t's block exactly when each coordinate lies in the block's range. -/
theorem mem_blk (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v233).slice (win8_3.rect t)).set ↔ _
  rw [View.set_slice_whole, Rect.mem_set_unit]
  exact Iff.rfl

/-- Every position is in some grid point's block: row r is in row block r / 5000. -/
theorem cover (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  obtain ⟨t, ht⟩ := idx_onto ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [mem_blk]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

/-- After the region the output array is that function of the arrays the region found. -/
theorem final (c : Dev nD) :
    (dat8 V c).arrAt 3 cfg8.N = Cert.Spec.combine (F := Ideal) (V c main_v182) (V c main_v207) (V c main_v232) :=
  (dat8 V c).arrAt_eq_of_cover 3 _ (fun t _ => flushed_eq V c t) cover

end Cert.KernelIdeal.Reg8

end
-- ==== Proof.Reg9.lean ====
/-
  Region 9: the output head h · W + b, ten row blocks of 5000 rows at a time.
  Each block multiplies its 5000 rows of the features by the whole [128,64] weight matrix into a zero accumulator
  (the casts to bf16 are the identity on the extended reals) and adds the bias row, so entry (r, c) of block t is
  Σ_k h (5000 t + r, k) · W (k, c) + b c, the head's entry (5000 t + r, c). The ten blocks tile the 50000 rows.
-/
import proofs.«140704_j79388175499709_1_alg».proof.Proof.Gen.KernelIdeal.Frame
import proofs.«140704_j79388175499709_1_alg».proof.Proof.SpecAt
import proofs.«140704_j79388175499709_1_alg».proof.Proof.DotsK
import Idealize.ShloMosaic.Lib.Pipeline.Value

set_option maxRecDepth 16384

noncomputable section

namespace Cert.KernelIdeal.Reg9

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a <;> rfl

/-- The body's result at position (r, c) of a block: row r of the loaded rows against column c of the weights, plus
    the bias's entry c. -/
theorem pay_apply (x0 : Vec Ideal S5000x128 .f32) (x1 : Vec Ideal S128x64 .f32) (x2 : Vec Ideal S64 .f32) (j : S5000x64.Idx) :
    k9_pay1 x0 x1 x2 j = (∑ k : Fin 128, x0 (ix2 (n0 := 5000) (n1 := 128) (j 0) k) * x1 (ix2 (n0 := 128) (n1 := 64) k (j 1))) + x2 (ix1 (n := 64) (j 1)) := by
  have hm : matmul (F := Ideal) dot_S5000x128_S128x64_S5000x64_1_0_0_1_n_n none (truncf .bf16 (shapeCast S5000x128 x0 shapeCasts_S5000x128_S5000x128) bitsLt_bf16_f32) (truncf .bf16 x1 bitsLt_bf16_f32) (constant S5000x64 .f32 0x00000000#32) j
      = ∑ k : Fin 128, x0 (ix2 (n0 := 5000) (n1 := 128) (j 0) k) * x1 (ix2 (n0 := 128) (n1 := 64) k (j 1)) := by
    rw [shapeCast_self]
    exact (Ideal.matmul_constant_zero_apply dot_S5000x128_S128x64_S5000x64_1_0_0_1_n_n none _ _ j).trans (Cert.KernelIdeal.Dots.o_sum _ _ j)
  have hb : broadcastTo S5000x64 (shapeCast S1x64 x2 shapeCasts_S64_S1x64) broadcasts_S1x64_S5000x64 j = x2 (ix1 (n := 64) (j 1)) :=
    (broadcastTo_apply _ _ j (ix2 (n0 := 1) (n1 := 64) 0 (j 1)) (fun a => by match a with | ⟨0, _⟩ => rfl | ⟨1, _⟩ => rfl)).trans
      ((shapeCast_addUnit_apply ![64] x2 _ _).trans (congrArg x2 (funext fun a => by match a with | ⟨0, _⟩ => rfl)))
  unfold k9_pay1
  show (matmul (F := Ideal) dot_S5000x128_S128x64_S5000x64_1_0_0_1_n_n none (truncf .bf16 (shapeCast S5000x128 x0 shapeCasts_S5000x128_S5000x128) bitsLt_bf16_f32) (truncf .bf16 x1 bitsLt_bf16_f32) (constant S5000x64 .f32 0x00000000#32) j
      + broadcastTo S5000x64 (shapeCast S1x64 x2 shapeCasts_S64_S1x64) broadcasts_S1x64_S5000x64 j) = _
  rw [hm, hb]

/-- The block index maps over the ten grid points: the rows' block moves with the output's block, the weights and
    the bias stay. -/
theorem idx_facts : ∀ t : Fin cfg9.N, win9_0.index t (0 : Fin 2) = win9_3.index t (0 : Fin 2)
    ∧ win9_0.index t (1 : Fin 2) = 0 ∧ win9_1.index t (0 : Fin 2) = 0 ∧ win9_1.index t (1 : Fin 2) = 0
    ∧ win9_2.index t (0 : Fin 1) = 0 ∧ win9_3.index t (1 : Fin 2) = 0 ∧ win9_3.index t (0 : Fin 2) ≤ 9 :=
  (by decide +kernel : ∀ t : Fin grid9.N, _)

/-- Every row block is some grid point's. -/
theorem idx_onto : ∀ q : Fin 10, ∃ t : Fin cfg9.N, win9_3.index t = ![q.val, 0] :=
  (by decide +kernel : ∀ q : Fin 10, ∃ t : Fin grid9.N, win9_3.index t = ![q.val, 0])

/-- What grid point t writes back is block t of the whole-array function. -/
theorem flushed_eq (c : Dev nD) (t : Fin cfg9.N) :
    (dat9 V c).flushed 3 t = ((cfg9.win 3).blk t).view.read (Elt Ideal) (Cert.Spec.head (F := Ideal) (V c main_v233) (V c main_arg8) (V c main_arg9)) := by
  show (cfg9.win 3).cut (grid9.coords t) ((dat9 V c).after 3 t) = _
  rw [after9_3]
  unfold out9_3
  rw [View.canon_unit_zero hz]
  simp only [View.ld_unit_zero (S := S5000x128) hz, View.ld_unit_zero (S := S128x64) hz, View.ld_unit_zero (S := S64) hz1]
  obtain ⟨e0, e1, e2, e3, e4, e5, e6⟩ := idx_facts t
  funext j
  show k9_pay1 (iblk9 V c 0 t) (iblk9 V c 1 t) (iblk9 V c 2 t) j = Cert.Spec.head (F := Ideal) (V c main_v233) (V c main_arg8) (V c main_arg9) (((cfg9.win 3).blk t).view.emb j)
  refine (pay_apply (iblk9 V c 0 t) (iblk9 V c 1 t) (iblk9 V c 2 t) j).trans ((Cert.Spec.At.head_apply (V c main_v233) (V c main_arg8) (V c main_arg9) _).trans ?_).symm
  have h0 : ∀ k : Fin 128, (ix2 (n0 := 50000) (n1 := 128) ((((cfg9.win 3).blk t).view.emb j) 0) k : S50000x128.Idx) = ((cfg9.win 0).blk t).view.emb (ix2 (n0 := 5000) (n1 := 128) (j 0) k) := by
    intro k; funext a; apply Fin.ext
    match a with
    | ⟨0, _⟩ => show win9_3.index t (0 : Fin 2) * 5000 + 1 * (j 0).val = win9_0.index t (0 : Fin 2) * 5000 + 1 * (j 0).val; omega
    | ⟨1, _⟩ => show k.val = win9_0.index t (1 : Fin 2) * 128 + 1 * k.val; omega
  have h1 : ∀ k : Fin 128, (ix2 (n0 := 128) (n1 := 64) k ((((cfg9.win 3).blk t).view.emb j) 1) : S128x64.Idx) = ((cfg9.win 1).blk t).view.emb (ix2 (n0 := 128) (n1 := 64) k (j 1)) := by
    intro k; funext a; apply Fin.ext
    match a with
    | ⟨0, _⟩ => show k.val = win9_1.index t (0 : Fin 2) * 128 + 1 * k.val; omega
    | ⟨1, _⟩ => show win9_3.index t (1 : Fin 2) * 64 + 1 * (j 1).val = win9_1.index t (1 : Fin 2) * 64 + 1 * (j 1).val; omega
  have h2 : (ix1 (n := 64) ((((cfg9.win 3).blk t).view.emb j) 1) : S64.Idx) = ((cfg9.win 2).blk t).view.emb (ix1 (n := 64) (j 1)) := by
    funext a; apply Fin.ext
    match a with
    | ⟨0, _⟩ => show win9_3.index t (1 : Fin 2) * 64 + 1 * (j 1).val = win9_2.index t (0 : Fin 1) * 64 + 1 * (j 1).val; omega
  rw [h2]
  simp only [h0, h1]
  rfl

/-- A position of the output array lies in grid point t's block exactly when each coordinate lies in the block's range. -/
theorem mem_blk (t : Fin cfg9.N) (i : S50000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v234).slice (win9_3.rect t)).set ↔ _
  rw [View.set_slice_whole, Rect.mem_set_unit]
  exact Iff.rfl

/-- Every position is in some grid point's block: row r is in row block r / 5000. -/
theorem cover (i : S50000x64.Idx) : ∃ t : Fin cfg9.N, (cfg9.win 3).flush t = true ∧ i ∈ ((cfg9.win 3).blk t).view.set := by
  have hi0 : (i 0).val < 50000 := (i 0).isLt
  have hi1 : (i 1).val < 64 := (i 1).isLt
  obtain ⟨t, ht⟩ := idx_onto ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 64 ≤ (i 1).val ∧ (i 1).val < win9_3.index t (1 : Fin 2) * 64 + 64; omega

/-- After the region the output array is that function of the arrays the region found. -/
theorem final (c : Dev nD) :
    (dat9 V c).arrAt 3 cfg9.N = Cert.Spec.head (F := Ideal) (V c main_v233) (V c main_arg8) (V c main_arg9) :=
  (dat9 V c).arrAt_eq_of_cover 3 _ (fun t _ => flushed_eq V c t) cover

end Cert.KernelIdeal.Reg9

end
-- ==== Proof.FoldVal.lean ====
/-
  The network, read off the program's segments. With the launch contents of the ten arguments fixed, name the embedded
  features h0, each layer's three contributions, and the features h1, h2 after each layer. Going through the segments
  in order: a region's output array is the region's whole-array function (the embedding, a product with a weight
  matrix, the rectified sum of three contributions, the output head) of the arrays it found at its entry; a host
  stretch's results are its operations' terms over the arrays it found; and what is found at a boundary is what earlier
  segments left there, carried unchanged through the segments in between. Composing these gives, array by array, the
  value named above, and for the result array the specification's network of the ten arguments, by unfolding the names.
-/
import proofs.«140704_j79388175499709_1_alg».proof.Proof.FoldArgs
import proofs.«140704_j79388175499709_1_alg».proof.Proof.FoldCarry0
import proofs.«140704_j79388175499709_1_alg».proof.Proof.FoldCarry1
import proofs.«140704_j79388175499709_1_alg».proof.Proof.FoldCarry2
import proofs.«140704_j79388175499709_1_alg».proof.Proof.FoldMid
import proofs.«140704_j79388175499709_1_alg».proof.Proof.FoldPre
import proofs.«140704_j79388175499709_1_alg».proof.Proof.FoldOps
import proofs.«140704_j79388175499709_1_alg».proof.Proof.Reg0
import proofs.«140704_j79388175499709_1_alg».proof.Proof.Reg1
import proofs.«140704_j79388175499709_1_alg».proof.Proof.Reg2
import proofs.«140704_j79388175499709_1_alg».proof.Proof.Reg3
import proofs.«140704_j79388175499709_1_alg».proof.Proof.Reg4
import proofs.«140704_j79388175499709_1_alg».proof.Proof.Reg5
import proofs.«140704_j79388175499709_1_alg».proof.Proof.Reg6
import proofs.«140704_j79388175499709_1_alg».proof.Proof.Reg7
import proofs.«140704_j79388175499709_1_alg».proof.Proof.Reg8
import proofs.«140704_j79388175499709_1_alg».proof.Proof.Reg9
import proofs.«140704_j79388175499709_1_alg».proof.Proof.Spec
import Idealize.ShloMosaic.Lib.StableHlo.Run
import Idealize.ShloMosaic.PureOps.Ideal

set_option maxRecDepth 16384

noncomputable section

namespace Cert.KernelIdeal.Fold

open Idealize.ShloMosaic Idealize.ShloMosaic.TcCoe Cert.KernelIdeal

variable (m : (ℓ : Loc nD τ sig) → Buf (Elt Ideal) ℓ) (ρ : Dev nD → PrngReg)

/-! The value of every array the network passes through, boundary by boundary: each region's output is the region's
    function of the arrays it found, each host stretch's results are its operations' terms over the arrays it found,
    and what they found is what the earlier steps left. -/

/-- The embedded node features. -/
def h0 (c : Dev nD) : Cert.Spec.Arr (F := Ideal) ⟨Cert.ReferenceIdeal.S50000x128, .f32⟩ :=
  Cert.Spec.embed (m ((c : Thread nD τ).loc main_arg0)) (m ((c : Thread nD τ).loc main_arg2)) (m ((c : Thread nD τ).loc main_arg3))

/-- Relation 0's contribution to layer 1. -/
def c1_0 (c : Dev nD) : Cert.Spec.Arr (F := Ideal) ⟨Cert.ReferenceIdeal.S50000x128, .f32⟩ :=
  Cert.Spec.contrib (Cert.Spec.src0 (m ((c : Thread nD τ).loc main_arg1))) (Cert.Spec.dst0 (m ((c : Thread nD τ).loc main_arg1))) (Cert.Spec.mm (h0 m c) (Cert.Spec.wgt0 (m ((c : Thread nD τ).loc main_arg4)))) (Cert.Spec.bia0 (m ((c : Thread nD τ).loc main_arg5)))

/-- Relation 1's contribution to layer 1. -/
def c1_1 (c : Dev nD) : Cert.Spec.Arr (F := Ideal) ⟨Cert.ReferenceIdeal.S50000x128, .f32⟩ :=
  Cert.Spec.contrib (Cert.Spec.src1 (m ((c : Thread nD τ).loc main_arg1))) (Cert.Spec.dst1 (m ((c : Thread nD τ).loc main_arg1))) (Cert.Spec.mm (h0 m c) (Cert.Spec.wgt1 (m ((c : Thread nD τ).loc main_arg4)))) (Cert.Spec.bia1 (m ((c : Thread nD τ).loc main_arg5)))

/-- Relation 2's contribution to layer 1. -/
def c1_2 (c : Dev nD) : Cert.Spec.Arr (F := Ideal) ⟨Cert.ReferenceIdeal.S50000x128, .f32⟩ :=
  Cert.Spec.contrib (Cert.Spec.src2 (m ((c : Thread nD τ).loc main_arg1))) (Cert.Spec.dst2 (m ((c : Thread nD τ).loc main_arg1))) (Cert.Spec.mm (h0 m c) (Cert.Spec.wgt2 (m ((c : Thread nD τ).loc main_arg4)))) (Cert.Spec.bia2 (m ((c : Thread nD τ).loc main_arg5)))

/-- The node features after layer 1. -/
def h1 (c : Dev nD) : Cert.Spec.Arr (F := Ideal) ⟨Cert.ReferenceIdeal.S50000x128, .f32⟩ :=
  Cert.Spec.combine (c1_0 m c) (c1_1 m c) (c1_2 m c)

/-- Relation 0's contribution to layer 2. -/
def c2_0 (c : Dev nD) : Cert.Spec.Arr (F := Ideal) ⟨Cert.ReferenceIdeal.S50000x128, .f32⟩ :=
  Cert.Spec.contrib (Cert.Spec.src0 (m ((c : Thread nD τ).loc main_arg1))) (Cert.Spec.dst0 (m ((c : Thread nD τ).loc main_arg1))) (Cert.Spec.mm (h1 m c) (Cert.Spec.wgt0 (m ((c : Thread nD τ).loc main_arg6)))) (Cert.Spec.bia0 (m ((c : Thread nD τ).loc main_arg7)))

/-- Relation 1's contribution to layer 2. -/
def c2_1 (c : Dev nD) : Cert.Spec.Arr (F := Ideal) ⟨Cert.ReferenceIdeal.S50000x128, .f32⟩ :=
  Cert.Spec.contrib (Cert.Spec.src1 (m ((c : Thread nD τ).loc main_arg1))) (Cert.Spec.dst1 (m ((c : Thread nD τ).loc main_arg1))) (Cert.Spec.mm (h1 m c) (Cert.Spec.wgt1 (m ((c : Thread nD τ).loc main_arg6)))) (Cert.Spec.bia1 (m ((c : Thread nD τ).loc main_arg7)))

/-- Relation 2's contribution to layer 2. -/
def c2_2 (c : Dev nD) : Cert.Spec.Arr (F := Ideal) ⟨Cert.ReferenceIdeal.S50000x128, .f32⟩ :=
  Cert.Spec.contrib (Cert.Spec.src2 (m ((c : Thread nD τ).loc main_arg1))) (Cert.Spec.dst2 (m ((c : Thread nD τ).loc main_arg1))) (Cert.Spec.mm (h1 m c) (Cert.Spec.wgt2 (m ((c : Thread nD τ).loc main_arg6)))) (Cert.Spec.bia2 (m ((c : Thread nD τ).loc main_arg7)))

/-- The node features after layer 2. -/
def h2 (c : Dev nD) : Cert.Spec.Arr (F := Ideal) ⟨Cert.ReferenceIdeal.S50000x128, .f32⟩ :=
  Cert.Spec.combine (c2_0 m c) (c2_1 m c) (c2_2 m c)

/-- After the first region: the embedded features. -/
theorem at2_v81 (c : Dev nD) : Gen.W2 (F := Ideal) m ρ c (Proc.devRef .tc main_v81) = h0 m c := by
  refine (Gen.W2_arr m ρ c 3).trans ((Reg0.final (Gen.V1 m ρ) c).trans ?_)
  unfold h0
  rw [show Gen.V1 m ρ c main_arg0 = _ from W1_arg0 m ρ c,
    show Gen.V1 m ρ c main_arg2 = _ from W1_arg2 m ρ c,
    show Gen.V1 m ρ c main_arg3 = _ from W1_arg3 m ρ c]

/-- Relation 0's weight matrix of layer 1, sliced from the stacked weights as launched. -/
theorem at3_v83 (c : Dev nD) : Gen.W3 (F := Ideal) m ρ c (Proc.devRef .tc main_v83) = Cert.Spec.wgt0 (m ((c : Thread nD τ).loc main_arg4)) := by
  refine (ops1_v83 (Gen.W2 m ρ c)).trans ?_
  rw [W2_arg4 m ρ c]

/-- Layer 1: the layer's input features times relation 0's weight matrix. -/
theorem at4_v84 (c : Dev nD) : Gen.W4 (F := Ideal) m ρ c (Proc.devRef .tc main_v84) = Cert.Spec.mm (h0 m c) (Cert.Spec.wgt0 (m ((c : Thread nD τ).loc main_arg4))) := by
  refine (Gen.W4_arr m ρ c 2).trans ((Reg1.final (Gen.V3 m ρ) c).trans ?_)
  rw [show Gen.V3 m ρ c main_v81 = _ from (W3_v81 m ρ c).trans (at2_v81 m ρ c),
    show Gen.V3 m ρ c main_v83 = _ from at3_v83 m ρ c]

/-- Layer 1: relation 0's contribution. -/
theorem at5_v106 (c : Dev nD) : Gen.W5 (F := Ideal) m ρ c (Proc.devRef .tc main_v106) = c1_0 m c := by
  refine (ops2_v106 (Gen.W4 m ρ c)).trans ?_
  unfold c1_0 Cert.Spec.contrib
  rw [(W4_v1 m ρ c).trans (W1_v1 m ρ c),
    (W4_v3 m ρ c).trans (W1_v3 m ρ c),
    (W4_v25 m ρ c).trans (W1_v25 m ρ c),
    (W4_v26 m ρ c).trans (W1_v26 m ρ c),
    at4_v84 m ρ c,
    W4_arg5 m ρ c]

/-- Relation 1's weight matrix of layer 1, sliced from the stacked weights as launched. -/
theorem at5_v108 (c : Dev nD) : Gen.W5 (F := Ideal) m ρ c (Proc.devRef .tc main_v108) = Cert.Spec.wgt1 (m ((c : Thread nD τ).loc main_arg4)) := by
  refine (ops2_v108 (Gen.W4 m ρ c)).trans ?_
  rw [W4_arg4 m ρ c]

/-- Layer 1: the layer's input features times relation 1's weight matrix. -/
theorem at6_v109 (c : Dev nD) : Gen.W6 (F := Ideal) m ρ c (Proc.devRef .tc main_v109) = Cert.Spec.mm (h0 m c) (Cert.Spec.wgt1 (m ((c : Thread nD τ).loc main_arg4))) := by
  refine (Gen.W6_arr m ρ c 2).trans ((Reg2.final (Gen.V5 m ρ) c).trans ?_)
  rw [show Gen.V5 m ρ c main_v81 = _ from (W5_v81 m ρ c).trans (at2_v81 m ρ c),
    show Gen.V5 m ρ c main_v108 = _ from at5_v108 m ρ c]

/-- Layer 1: relation 1's contribution. -/
theorem at7_v131 (c : Dev nD) : Gen.W7 (F := Ideal) m ρ c (Proc.devRef .tc main_v131) = c1_1 m c := by
  refine (ops3_v131 (Gen.W6 m ρ c)).trans ?_
  unfold c1_1 Cert.Spec.contrib
  rw [(W6_v28 m ρ c).trans (W1_v28 m ρ c),
    (W6_v30 m ρ c).trans (W1_v30 m ρ c),
    (W6_v52 m ρ c).trans (W1_v52 m ρ c),
    (W6_v53 m ρ c).trans (W1_v53 m ρ c),
    at6_v109 m ρ c,
    W6_arg5 m ρ c]

/-- Relation 2's weight matrix of layer 1, sliced from the stacked weights as launched. -/
theorem at7_v133 (c : Dev nD) : Gen.W7 (F := Ideal) m ρ c (Proc.devRef .tc main_v133) = Cert.Spec.wgt2 (m ((c : Thread nD τ).loc main_arg4)) := by
  refine (ops3_v133 (Gen.W6 m ρ c)).trans ?_
  rw [W6_arg4 m ρ c]

/-- Layer 1: the layer's input features times relation 2's weight matrix. -/
theorem at8_v134 (c : Dev nD) : Gen.W8 (F := Ideal) m ρ c (Proc.devRef .tc main_v134) = Cert.Spec.mm (h0 m c) (Cert.Spec.wgt2 (m ((c : Thread nD τ).loc main_arg4))) := by
  refine (Gen.W8_arr m ρ c 2).trans ((Reg3.final (Gen.V7 m ρ) c).trans ?_)
  rw [show Gen.V7 m ρ c main_v81 = _ from (W7_v81 m ρ c).trans (at2_v81 m ρ c),
    show Gen.V7 m ρ c main_v133 = _ from at7_v133 m ρ c]

/-- Layer 1: relation 2's contribution. -/
theorem at9_v156 (c : Dev nD) : Gen.W9 (F := Ideal) m ρ c (Proc.devRef .tc main_v156) = c1_2 m c := by
  refine (ops4_v156 (Gen.W8 m ρ c)).trans ?_
  unfold c1_2 Cert.Spec.contrib
  rw [(W8_v55 m ρ c).trans (W1_v55 m ρ c),
    (W8_v57 m ρ c).trans (W1_v57 m ρ c),
    (W8_v79 m ρ c).trans (W1_v79 m ρ c),
    (W8_v80 m ρ c).trans (W1_v80 m ρ c),
    at8_v134 m ρ c,
    W8_arg5 m ρ c]

/-- After layer 1's summing region: the features after layer 1. -/
theorem at10_v157 (c : Dev nD) : Gen.W10 (F := Ideal) m ρ c (Proc.devRef .tc main_v157) = h1 m c := by
  refine (Gen.W10_arr m ρ c 3).trans ((Reg4.final (Gen.V9 m ρ) c).trans ?_)
  unfold h1
  rw [show Gen.V9 m ρ c main_v106 = _ from (W9_v106 m ρ c).trans (at5_v106 m ρ c),
    show Gen.V9 m ρ c main_v131 = _ from (W9_v131 m ρ c).trans (at7_v131 m ρ c),
    show Gen.V9 m ρ c main_v156 = _ from at9_v156 m ρ c]

/-- Relation 0's weight matrix of layer 2, sliced from the stacked weights as launched. -/
theorem at11_v159 (c : Dev nD) : Gen.W11 (F := Ideal) m ρ c (Proc.devRef .tc main_v159) = Cert.Spec.wgt0 (m ((c : Thread nD τ).loc main_arg6)) := by
  refine (ops5_v159 (Gen.W10 m ρ c)).trans ?_
  rw [W10_arg6 m ρ c]

/-- Layer 2: the layer's input features times relation 0's weight matrix. -/
theorem at12_v160 (c : Dev nD) : Gen.W12 (F := Ideal) m ρ c (Proc.devRef .tc main_v160) = Cert.Spec.mm (h1 m c) (Cert.Spec.wgt0 (m ((c : Thread nD τ).loc main_arg6))) := by
  refine (Gen.W12_arr m ρ c 2).trans ((Reg5.final (Gen.V11 m ρ) c).trans ?_)
  rw [show Gen.V11 m ρ c main_v157 = _ from (W11_v157 m ρ c).trans (at10_v157 m ρ c),
    show Gen.V11 m ρ c main_v159 = _ from at11_v159 m ρ c]

/-- Layer 2: relation 0's contribution. -/
theorem at13_v182 (c : Dev nD) : Gen.W13 (F := Ideal) m ρ c (Proc.devRef .tc main_v182) = c2_0 m c := by
  refine (ops6_v182 (Gen.W12 m ρ c)).trans ?_
  unfold c2_0 Cert.Spec.contrib
  rw [(W12_v1 m ρ c).trans (W1_v1 m ρ c),
    (W12_v3 m ρ c).trans (W1_v3 m ρ c),
    (W12_v25 m ρ c).trans (W1_v25 m ρ c),
    (W12_v26 m ρ c).trans (W1_v26 m ρ c),
    at12_v160 m ρ c,
    W12_arg7 m ρ c]

/-- Relation 1's weight matrix of layer 2, sliced from the stacked weights as launched. -/
theorem at13_v184 (c : Dev nD) : Gen.W13 (F := Ideal) m ρ c (Proc.devRef .tc main_v184) = Cert.Spec.wgt1 (m ((c : Thread nD τ).loc main_arg6)) := by
  refine (ops6_v184 (Gen.W12 m ρ c)).trans ?_
  rw [W12_arg6 m ρ c]

/-- Layer 2: the layer's input features times relation 1's weight matrix. -/
theorem at14_v185 (c : Dev nD) : Gen.W14 (F := Ideal) m ρ c (Proc.devRef .tc main_v185) = Cert.Spec.mm (h1 m c) (Cert.Spec.wgt1 (m ((c : Thread nD τ).loc main_arg6))) := by
  refine (Gen.W14_arr m ρ c 2).trans ((Reg6.final (Gen.V13 m ρ) c).trans ?_)
  rw [show Gen.V13 m ρ c main_v157 = _ from (W13_v157 m ρ c).trans (at10_v157 m ρ c),
    show Gen.V13 m ρ c main_v184 = _ from at13_v184 m ρ c]

/-- Layer 2: relation 1's contribution. -/
theorem at15_v207 (c : Dev nD) : Gen.W15 (F := Ideal) m ρ c (Proc.devRef .tc main_v207) = c2_1 m c := by
  refine (ops7_v207 (Gen.W14 m ρ c)).trans ?_
  unfold c2_1 Cert.Spec.contrib
  rw [(W14_v28 m ρ c).trans (W1_v28 m ρ c),
    (W14_v30 m ρ c).trans (W1_v30 m ρ c),
    (W14_v52 m ρ c).trans (W1_v52 m ρ c),
    (W14_v53 m ρ c).trans (W1_v53 m ρ c),
    at14_v185 m ρ c,
    W14_arg7 m ρ c]

/-- Relation 2's weight matrix of layer 2, sliced from the stacked weights as launched. -/
theorem at15_v209 (c : Dev nD) : Gen.W15 (F := Ideal) m ρ c (Proc.devRef .tc main_v209) = Cert.Spec.wgt2 (m ((c : Thread nD τ).loc main_arg6)) := by
  refine (ops7_v209 (Gen.W14 m ρ c)).trans ?_
  rw [W14_arg6 m ρ c]

/-- Layer 2: the layer's input features times relation 2's weight matrix. -/
theorem at16_v210 (c : Dev nD) : Gen.W16 (F := Ideal) m ρ c (Proc.devRef .tc main_v210) = Cert.Spec.mm (h1 m c) (Cert.Spec.wgt2 (m ((c : Thread nD τ).loc main_arg6))) := by
  refine (Gen.W16_arr m ρ c 2).trans ((Reg7.final (Gen.V15 m ρ) c).trans ?_)
  rw [show Gen.V15 m ρ c main_v157 = _ from (W15_v157 m ρ c).trans (at10_v157 m ρ c),
    show Gen.V15 m ρ c main_v209 = _ from at15_v209 m ρ c]

/-- Layer 2: relation 2's contribution. -/
theorem at17_v232 (c : Dev nD) : Gen.W17 (F := Ideal) m ρ c (Proc.devRef .tc main_v232) = c2_2 m c := by
  refine (ops8_v232 (Gen.W16 m ρ c)).trans ?_
  unfold c2_2 Cert.Spec.contrib
  rw [(W16_v55 m ρ c).trans (W1_v55 m ρ c),
    (W16_v57 m ρ c).trans (W1_v57 m ρ c),
    (W16_v79 m ρ c).trans (W1_v79 m ρ c),
    (W16_v80 m ρ c).trans (W1_v80 m ρ c),
    at16_v210 m ρ c,
    W16_arg7 m ρ c]

/-- After layer 2's summing region: the features after layer 2. -/
theorem at18_v233 (c : Dev nD) : Gen.W18 (F := Ideal) m ρ c (Proc.devRef .tc main_v233) = h2 m c := by
  refine (Gen.W18_arr m ρ c 3).trans ((Reg8.final (Gen.V17 m ρ) c).trans ?_)
  unfold h2
  rw [show Gen.V17 m ρ c main_v182 = _ from (W17_v182 m ρ c).trans (at13_v182 m ρ c),
    show Gen.V17 m ρ c main_v207 = _ from (W17_v207 m ρ c).trans (at15_v207 m ρ c),
    show Gen.V17 m ρ c main_v232 = _ from at17_v232 m ρ c]

/-- After the last region: the output head of the features after layer 2. -/
theorem at19_v234 (c : Dev nD) : Gen.W19 (F := Ideal) m ρ c (Proc.devRef .tc main_v234) = Cert.Spec.head (h2 m c) (m ((c : Thread nD τ).loc main_arg8)) (m ((c : Thread nD τ).loc main_arg9)) := by
  refine (Gen.W19_arr m ρ c 3).trans ((Reg9.final (Gen.V18 m ρ) c).trans ?_)
  rw [show Gen.V18 m ρ c main_v233 = _ from at18_v233 m ρ c,
    show Gen.V18 m ρ c main_arg8 = _ from W18_arg8 m ρ c,
    show Gen.V18 m ρ c main_arg9 = _ from W18_arg9 m ρ c]

/-- What the kernel returns is the network's function of the ten arrays it was launched with. -/
theorem value (c : Dev nD) : Gen.W19 (F := Ideal) m ρ c (Proc.devRef .tc main_v234)
    = Cert.Spec.netWith Cert.Spec.combine (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (at19_v234 m ρ c).trans rfl

end Cert.KernelIdeal.Fold

end
-- ==== Proof.RefSpec.lean ====
/-
  The reference program's result, a long term of host operations over the ten argument arrays, is the network's
  function of those arrays: unfolding the network's definitions gives the same term with every layer sum started from
  an explicit zero array, and on the extended reals that start changes nothing.
-/
import proofs.«140704_j79388175499709_1_alg».proof.Proof.RefRun
import proofs.«140704_j79388175499709_1_alg».proof.Proof.Spec
import proofs.«140704_j79388175499709_1_alg».proof.Proof.SpecAt

noncomputable section

namespace Cert.ReferenceIdeal.RefSpec

open Cert.ReferenceIdeal Idealize.ShloMosaic Idealize.ShloMosaic.TcCoe

set_option maxRecDepth 16384 in
set_option maxHeartbeats 4000000 in
/-- The reference's result term is the network written with each layer's sum started from the zero array: the two
    are the same term once the network's definitions are unfolded. -/
theorem res_eq0 (m : (ℓ : Loc nD τ sig) → Buf (Elt Ideal) ℓ) (c : Dev nD) :
    Cert.ReferenceIdeal.ValueP.res_main_v330 (F := Ideal) m c
      = Cert.Spec.netWith Cert.Spec.combine0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v330
  rfl

/-- On the extended reals a sum started from the zero array is the sum itself. -/
theorem comb_eq : Cert.Spec.combine0 (F := Ideal) = Cert.Spec.combine :=
  funext fun c0 => funext fun c1 => funext fun c2 => Cert.Spec.At.combine0_eq c0 c1 c2

/-- The reference's result is the network's function of the ten arrays it was launched with. -/
theorem res_eq (m : (ℓ : Loc nD τ sig) → Buf (Elt Ideal) ℓ) (c : Dev nD) :
    Cert.ReferenceIdeal.ValueP.res_main_v330 (F := Ideal) m c
      = Cert.Spec.netWith Cert.Spec.combine (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (res_eq0 m c).trans (congrArg (fun comb => Cert.Spec.netWith comb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) comb_eq)

end Cert.ReferenceIdeal.RefSpec

end
-- ==== Proof.lean ====
/-
  A two-layer relational graph convolution (50000 nodes, three relations of 800000 edges, feature width 128) computed
  in two ways, shown equal on the extended reals.

  The function: h₀ = relu (x · W_e + b_e); each of two layers sends h to relu (Σ_r conv_r (h · W_r)), where a relation's
  convolution scatter-adds, along each edge s → d, row s of its input scaled by deg(s)^(-1/2) · deg(d)^(-1/2) into row d,
  adds the input scaled by 1/deg (the self loop) and the relation's bias, the degree counting a node's incoming edges and
  its self loop; the result is h₂ · W_out + b_out.

  The kernel program computes the dense steps (the embedding, the six products h · W_r, the two rectified sums of
  three contributions, the output head) as ten kernel regions, each over ten row blocks of 5000 rows, and everything
  that follows an edge list with the host's gathers and scatter-adds; it computes each relation's edge weights once and
  uses them in both layers. The reference computes every step on the host, recomputes the edge weights per layer, and
  starts each layer's sum from an explicit zero array.

  Why they agree. Region by region, a row block of a product is the product's rows, because an entry of a product
  depends only on its own row of the left factor; the casts to bf16 inside the regions are the identity on the
  extended reals and a product accumulated into zero is the plain sum. So each region leaves the whole-array function
  the host would compute (the modules Reg0 … Reg9). Reading the program's buffers back through its nineteen segments then
  gives the result array as the specification's network (FoldVal), in which the gathers, scatter-adds and reciprocal
  square roots are the host's own operations applied to the same operands as in the reference. The reference's composed
  term is the same network with each layer's sum started from zero (RefSpec), and 0 + a = a for every extended real.
  Nothing here uses finiteness of the inputs: only commutative-monoid facts about + and the definitions are used.

  The three frame claims are the generated frame certificates of the two kernel programs and the reference's run;
  the idealization rewrote nothing, so the preservation claim is trivial.
-/
import proofs.«140704_j79388175499709_1_alg».proof.Defs
import proofs.«140704_j79388175499709_1_alg».proof.Proof.Gen.Kernel
import proofs.«140704_j79388175499709_1_alg».proof.Proof.Gen.Kernel.Skeleton
import proofs.«140704_j79388175499709_1_alg».proof.Proof.Gen.Kernel.Launch
import proofs.«140704_j79388175499709_1_alg».proof.Proof.Gen.Kernel.Points
import proofs.«140704_j79388175499709_1_alg».proof.Proof.Gen.Kernel.Frame
import proofs.«140704_j79388175499709_1_alg».proof.Proof.Gen.KernelIdeal
import proofs.«140704_j79388175499709_1_alg».proof.Proof.Gen.KernelIdeal.Skeleton
import proofs.«140704_j79388175499709_1_alg».proof.Proof.Gen.KernelIdeal.Launch
import proofs.«140704_j79388175499709_1_alg».proof.Proof.Gen.KernelIdeal.Points
import proofs.«140704_j79388175499709_1_alg».proof.Proof.Gen.KernelIdeal.Frame
import proofs.«140704_j79388175499709_1_alg».proof.Proof.Gen.ReferenceIdeal
import proofs.«140704_j79388175499709_1_alg».proof.Proof.Gen.Pre_finite_inputs
import proofs.«140704_j79388175499709_1_alg».proof.Proof.KRun
import proofs.«140704_j79388175499709_1_alg».proof.Proof.FoldVal
import proofs.«140704_j79388175499709_1_alg».proof.Proof.RefRun
import proofs.«140704_j79388175499709_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network of the arguments in their result. -/
theorem algebraic : Cert.algebraic_KernelIdeal_ReferenceIdeal := by
  intro m ρ m' ρ' _ hagree
  refine ⟨fun c => Cert.Spec.netWith Cert.Spec.combine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefSpec.res_eq]
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
